-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x32 : Shape := ⟨3, ![32, 4, 32]⟩
abbrev S32x32x256x256 : Shape := ⟨4, ![32, 32, 256, 256]⟩
abbrev S_ : Shape := ⟨0, ![]⟩

class Facts : Prop where
  bcast_S_S32x4x32 : S_.BroadcastsInDim S32x4x32 (![] : Fin 0 → Fin S32x4x32.rank)
  reducesTo_S32x4x32_S_d0_1_2 : S32x4x32.ReducesTo [0, 1, 2] S_
  h_S_ : 0 < S_.numel
  bcast_S_S32x32x256x256 : S_.BroadcastsInDim S32x32x256x256 (![] : Fin 0 → Fin S32x32x256x256.rank)
  reducesTo_S32x32x256x256_S_d0_1_2_3 : S32x32x256x256.ReducesTo [0, 1, 2, 3] S_

variable [Facts]

def fn {F : FTy → Type} [FloatOps F] (main_arg0 : FVec F S32x4x32 .f32) (main_arg1 : FVec F S32x32x256x256 .f32) : IVec S_ 1 :=
  let main_v0 : FVec F S32x4x32 .f32 := Host.absf main_arg0
  let main_cst : FVec F S_ .f32 := constant S_ .f32 0x7F800000#32
  let main_v1 : FVec F S32x4x32 .f32 := broadcastInDim S32x4x32 ![] bcast_S_S32x4x32 main_cst
  let main_v2 : IVec S32x4x32 1 := cmpf .olt main_v0 main_v1
  let main_c : IVec S_ 1 := constantI S_ 1 1#1
  let main_v3 : IVec S_ 1 := (fun x v => Host.reduce IntOp.andi x v reducesTo_S32x4x32_S_d0_1_2 h_S_) main_v2 main_c
  let main_v4 : FVec F S32x32x256x256 .f32 := Host.absf main_arg1
  let main_cst_0 : FVec F S_ .f32 := constant S_ .f32 0x7F800000#32
  let main_v5 : FVec F S32x32x256x256 .f32 := broadcastInDim S32x32x256x256 ![] bcast_S_S32x32x256x256 main_cst_0
  let main_v6 : IVec S32x32x256x256 1 := cmpf .olt main_v4 main_v5
  let main_c_1 : IVec S_ 1 := constantI S_ 1 1#1
  let main_v7 : IVec S_ 1 := (fun x v => Host.reduce IntOp.andi x v reducesTo_S32x32x256x256_S_d0_1_2_3 h_S_) main_v6 main_c_1
  let main_v8 : IVec S_ 1 := andi main_v3 main_v7
  main_v8
-- ==== Kernel.lean ====
abbrev S32x4x32 : Shape := ⟨3, ![32, 4, 32]⟩
abbrev S32x32x256x256 : Shape := ⟨4, ![32, 32, 256, 256]⟩
abbrev S32x32x65536 : Shape := ⟨3, ![32, 32, 65536]⟩
abbrev S16x128 : Shape := ⟨2, ![16, 128]⟩
abbrev S1x32x65536 : Shape := ⟨3, ![1, 32, 65536]⟩
abbrev S8x128 : Shape := ⟨2, ![8, 128]⟩
abbrev S32x65536 : Shape := ⟨2, ![32, 65536]⟩
abbrev S32 : Shape := ⟨1, ![32]⟩
abbrev S32x1 : Shape := ⟨2, ![32, 1]⟩
abbrev S1 : Shape := ⟨1, ![1]⟩
abbrev S1x1 : Shape := ⟨2, ![1, 1]⟩
abbrev S_ : Shape := ⟨0, ![]⟩
abbrev S32x4x65536 : Shape := ⟨3, ![32, 4, 65536]⟩
abbrev S1x32x32768 : Shape := ⟨3, ![1, 32, 32768]⟩
abbrev S1x4x32 : Shape := ⟨3, ![1, 4, 32]⟩
abbrev S1x4x32768 : Shape := ⟨3, ![1, 4, 32768]⟩
abbrev S32x32768 : Shape := ⟨2, ![32, 32768]⟩
abbrev S4x32 : Shape := ⟨2, ![4, 32]⟩
abbrev S4x32768 : Shape := ⟨2, ![4, 32768]⟩

abbrev nBuf : Space → Nat
  | .hbm => 71
  | .vmem => 17
  | .smem => 0
  | _ => 0

abbrev bufTy : (tb : Table) → Fin (tcTables nBuf tb) → BufTy
  | .hbm, ⟨0, _⟩ => ⟨S32x4x32, .f32⟩
  | .hbm, ⟨1, _⟩ => ⟨S32x32x256x256, .f32⟩
  | .hbm, ⟨2, _⟩ => ⟨S32x32x65536, .f32⟩
  | .hbm, ⟨3, _⟩ => ⟨S16x128, .f32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S32x4x32, .f32⟩
  | .hbm, ⟨52, _⟩ => ⟨S32x4x32, .f32⟩
  | .hbm, ⟨53, _⟩ => ⟨S32x4x32, .f32⟩
  | .hbm, ⟨54, _⟩ => ⟨S32x4x32, .f32⟩
  | .hbm, ⟨55, _⟩ => ⟨S32x4x32, .f32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S32x4x32, .f32⟩
  | .hbm, ⟨60, _⟩ => ⟨S32x4x32, .f32⟩
  | .hbm, ⟨61, _⟩ => ⟨S_, .f32⟩
  | .hbm, ⟨62, _⟩ => ⟨S32x4x32, .f32⟩
  | .hbm, ⟨63, _⟩ => ⟨S32x4x32, .f32⟩
  | .hbm, ⟨64, _⟩ => ⟨S32x4x32, .f32⟩
  | .hbm, ⟨65, _⟩ => ⟨S32x4x32, .f32⟩
  | .hbm, ⟨66, _⟩ => ⟨S_, .f32⟩
  | .hbm, ⟨67, _⟩ => ⟨S1x1, .f32⟩
  | .hbm, ⟨68, _⟩ => ⟨S1x1, .f32⟩
  | .hbm, ⟨69, _⟩ => ⟨S1x1, .f32⟩
  | .hbm, ⟨70, _⟩ => ⟨S32x4x65536, .f32⟩
  | .local _ .vmem, ⟨0, _⟩ => ⟨S1x32x65536, .f32⟩
  | .local _ .vmem, ⟨1, _⟩ => ⟨S1x32x65536, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S1x32x32768, .f32⟩
  | .local _ .vmem, ⟨9, _⟩ => ⟨S1x32x32768, .f32⟩
  | .local _ .vmem, ⟨10, _⟩ => ⟨S1x4x32, .f32⟩
  | .local _ .vmem, ⟨11, _⟩ => ⟨S1x4x32, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x4x32768, .f32⟩
  | .local _ .vmem, ⟨16, _⟩ => ⟨S1x4x32768, .f32⟩
  | _, _ => ⟨S32x4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_cst_4 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_c_5 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v12 : Ref sig .tc := ⟨.hbm, 26, rfl⟩
abbrev main_cst_6 : Ref sig .tc := ⟨.hbm, 27, rfl⟩
abbrev main_v13 : Ref sig .tc := ⟨.hbm, 28, rfl⟩
abbrev main_cst_7 : Ref sig .tc := ⟨.hbm, 29, rfl⟩
abbrev main_v14 : Ref sig .tc := ⟨.hbm, 30, rfl⟩
abbrev main_cst_8 : Ref sig .tc := ⟨.hbm, 31, rfl⟩
abbrev main_v15 : Ref sig .tc := ⟨.hbm, 32, rfl⟩
abbrev main_cst_9 : Ref sig .tc := ⟨.hbm, 33, rfl⟩
abbrev main_v16 : Ref sig .tc := ⟨.hbm, 34, rfl⟩
abbrev main_cst_10 : Ref sig .tc := ⟨.hbm, 35, rfl⟩
abbrev main_v17 : Ref sig .tc := ⟨.hbm, 36, rfl⟩
abbrev main_v18 : Ref sig .tc := ⟨.hbm, 37, rfl⟩
abbrev main_cst_11 : Ref sig .tc := ⟨.hbm, 38, rfl⟩
abbrev main_v19 : Ref sig .tc := ⟨.hbm, 39, rfl⟩
abbrev main_cst_12 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_13 : Ref sig .tc := ⟨.hbm, 45, rfl⟩
abbrev main_c_14 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_15 : Ref sig .tc := ⟨.hbm, 56, rfl⟩
abbrev main_c_16 : Ref sig .tc := ⟨.hbm, 57, rfl⟩
abbrev main_call5_v0 : Ref sig .tc := ⟨.hbm, 58, rfl⟩
abbrev main_call5_v1 : Ref sig .tc := ⟨.hbm, 59, rfl⟩
abbrev main_call5_v2 : Ref sig .tc := ⟨.hbm, 60, rfl⟩
abbrev main_call5_v3 : Ref sig .tc := ⟨.hbm, 61, rfl⟩
abbrev main_call5_v4 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_14 : BitVec 32 := 0#32
  let v29 : BitVec 1 := Scalar.cmpi .ne v28 c0_i32_14
  v29

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x32x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x4x32768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S32x32x256x256_S32x32x65536 : S32x32x256x256.ShapeCasts S32x32x65536
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x32x65536_S1x32x65536_0_0_0 : ∀ a, (![0, 0, 0] : Fin 3 → Nat) a + S1x32x65536.size a ≤ S1x32x65536.size a
  h_S1x32x65536 : 0 < S1x32x65536.numel
  shapeCasts_S1x32x65536_S32x65536 : S1x32x65536.ShapeCasts S32x65536
  reduces_S32x65536_S32 : S32x65536.Reduces [1] S32
  shapeCasts_S32_S32x1 : S32.ShapeCasts S32x1
  reduces_S32x1_S1 : S32x1.Reduces [0] S1
  shapeCasts_S1_S1x1 : S1.ShapeCasts S1x1
  shapeCasts_S1x1_S1x1 : S1x1.ShapeCasts S1x1
  broadcasts_S1x1_S8x128 : S1x1.Broadcasts S8x128
  reducesTo_S16x128_S_d0_1 : S16x128.ReducesTo [0, 1] S_
  h_S_ : 0 < S_.numel
  reducesTo_S32x4x32_S_d0_1_2 : S32x4x32.ReducesTo [0, 1, 2] S_
  bcast_S_S32x4x32 : S_.BroadcastsInDim S32x4x32 (![] : Fin 0 → Fin S32x4x32.rank)
  shapeCasts_S_S1x1 : S_.ShapeCasts S1x1
  inb_S1x32x32768_S1x32x32768_0_0_0 : ∀ a, (![0, 0, 0] : Fin 3 → Nat) a + S1x32x32768.size a ≤ S1x32x32768.size a
  h_S1x32x32768 : 0 < S1x32x32768.numel
  shapeCasts_S1x32x32768_S32x32768 : S1x32x32768.ShapeCasts S32x32768
  inb_S1x1_S1x1_0_0 : ∀ a, (![0, 0] : Fin 2 → Nat) a + S1x1.size a ≤ S1x1.size a
  h_S1x1 : 0 < S1x1.numel
  broadcasts_S1x1_S32x32768 : S1x1.Broadcasts S32x32768
  bitsLt_bf16_f32 : FTy.bits .bf16 < FTy.bits .f32
  inb_S1x4x32_S1x4x32_0_0_0 : ∀ a, (![0, 0, 0] : Fin 3 → Nat) a + S1x4x32.size a ≤ S1x4x32.size a
  h_S1x4x32 : 0 < S1x4x32.numel
  shapeCasts_S1x4x32_S4x32 : S1x4x32.ShapeCasts S4x32
  broadcasts_S1x1_S4x32768 : S1x1.Broadcasts S4x32768
  inb_S1x4x32768_S1x4x32768_0_0_0 : ∀ a, (![0, 0, 0] : Fin 3 → Nat) a + S1x4x32768.size a ≤ S1x4x32768.size a
  h_S1x4x32768 : 0 < S1x4x32768.numel
  shapeCasts_S1x4x32768_S4x32768 : S1x4x32768.ShapeCasts S4x32768
  shapeCasts_S4x32768_S1x4x32768 : S4x32768.ShapeCasts S1x4x32768
  dot_S4x32_S32x32768_S4x32768_1_0_0_1_n_n_wf : DotDims.WF S4x32 S32x32768 S4x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x65536.size a ≤ S32x32x65536.size a
  hwx0_0 : ∀ i : grid0.Coords, EltTy.bits .f32 = 32 ∨ (Rect.block (s := S32x32x65536) S1x32x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x32768.size a ≤ S32x32x65536.size a
  hwx1_0 : ∀ i : grid1.Coords, EltTy.bits .f32 = 32 ∨ (Rect.block (s := S32x32x65536) S1x32x32768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x32.size a ≤ S32x4x32.size a
  hwx1_1 : ∀ i : grid1.Coords, EltTy.bits .f32 = 32 ∨ (Rect.block (s := S32x4x32) S1x4x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x4x32768.size a ≤ S32x4x65536.size a
  hwx1_5 : ∀ i : grid1.Coords, EltTy.bits .f32 = 32 ∨ (Rect.block (s := S32x4x65536) S1x4x32768.size (cc1_transform_5 i) (hinb1_5 i)).WholeWords (EltTy.packing .f32)

variable [Facts₀]

def dot_S4x32_S32x32768_S4x32768_1_0_0_1_n_n : DotDims S4x32 S32x32768 S4x32768 where
  lhsContracting := [1]
  rhsContracting := [0]
  lhsNonContracting := [0]
  rhsNonContracting := [1]
  lhsBatch := []
  rhsBatch := []
  wf := dot_S4x32_S32x32768_S4x32768_1_0_0_1_n_n_wf

abbrev win0_0 : Pipeline.Window sig grid0 :=
  Pipeline.Window.ofSpec (Memref.whole main_v0) S1x32x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1x32x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x4x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x4x32768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x4x32 : Shape := ⟨3, ![32, 4, 32]⟩
abbrev S32x32x256x256 : Shape := ⟨4, ![32, 32, 256, 256]⟩
abbrev S32x32x65536 : Shape := ⟨3, ![32, 32, 65536]⟩
abbrev S_ : Shape := ⟨0, ![]⟩
abbrev S32x4x65536 : Shape := ⟨3, ![32, 4, 65536]⟩

abbrev nBuf : Space → Nat
  | .hbm => 82
  | .vmem => 0
  | .smem => 0
  | _ => 0

abbrev bufTy : (tb : Table) → Fin (tcTables nBuf tb) → BufTy
  | .hbm, ⟨0, _⟩ => ⟨S32x4x32, .f32⟩
  | .hbm, ⟨1, _⟩ => ⟨S32x32x256x256, .f32⟩
  | .hbm, ⟨2, _⟩ => ⟨S32x32x65536, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32x4x32, .f32⟩
  | .hbm, ⟨26, _⟩ => ⟨S32x4x32, .f32⟩
  | .hbm, ⟨27, _⟩ => ⟨S32x4x32, .f32⟩
  | .hbm, ⟨28, _⟩ => ⟨S32x4x32, .f32⟩
  | .hbm, ⟨29, _⟩ => ⟨S32x4x32, .f32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S32x4x32, .f32⟩
  | .hbm, ⟨34, _⟩ => ⟨S32x4x32, .f32⟩
  | .hbm, ⟨35, _⟩ => ⟨S_, .f32⟩
  | .hbm, ⟨36, _⟩ => ⟨S32x4x32, .f32⟩
  | .hbm, ⟨37, _⟩ => ⟨S32x4x32, .f32⟩
  | .hbm, ⟨38, _⟩ => ⟨S32x4x32, .f32⟩
  | .hbm, ⟨39, _⟩ => ⟨S32x4x32, .f32⟩
  | .hbm, ⟨40, _⟩ => ⟨S32x4x32, .f32⟩
  | .hbm, ⟨41, _⟩ => ⟨S32x4x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S32x32x65536, .f32⟩
  | .hbm, ⟨65, _⟩ => ⟨S32x32x65536, .f32⟩
  | .hbm, ⟨66, _⟩ => ⟨S32x32x65536, .f32⟩
  | .hbm, ⟨67, _⟩ => ⟨S32x32x65536, .f32⟩
  | .hbm, ⟨68, _⟩ => ⟨S32x32x65536, .f32⟩
  | .hbm, ⟨69, _⟩ => ⟨S_, .i32⟩
  | .hbm, ⟨70, _⟩ => ⟨S_, .i32⟩
  | .hbm, ⟨71, _⟩ => ⟨S_, .f32⟩
  | .hbm, ⟨72, _⟩ => ⟨S32x32x65536, .f32⟩
  | .hbm, ⟨73, _⟩ => ⟨S32x32x65536, .f32⟩
  | .hbm, ⟨74, _⟩ => ⟨S_, .f32⟩
  | .hbm, ⟨75, _⟩ => ⟨S32x32x65536, .f32⟩
  | .hbm, ⟨76, _⟩ => ⟨S32x32x65536, .f32⟩
  | .hbm, ⟨77, _⟩ => ⟨S32x32x65536, .f32⟩
  | .hbm, ⟨78, _⟩ => ⟨S32x32x65536, .f32⟩
  | .hbm, ⟨79, _⟩ => ⟨S32x32x65536, .f32⟩
  | .hbm, ⟨80, _⟩ => ⟨S32x32x65536, .f32⟩
  | .hbm, ⟨81, _⟩ => ⟨S32x4x65536, .f32⟩
  | _, _ => ⟨S32x4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_c_5 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_6 : Ref sig .tc := ⟨.hbm, 30, rfl⟩
abbrev main_c_7 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_8 : Ref sig .tc := ⟨.hbm, 42, rfl⟩
abbrev main_v22 : Ref sig .tc := ⟨.hbm, 43, rfl⟩
abbrev main_cst_9 : Ref sig .tc := ⟨.hbm, 44, rfl⟩
abbrev main_v23 : Ref sig .tc := ⟨.hbm, 45, rfl⟩
abbrev main_cst_10 : Ref sig .tc := ⟨.hbm, 46, rfl⟩
abbrev main_v24 : Ref sig .tc := ⟨.hbm, 47, rfl⟩
abbrev main_cst_11 : Ref sig .tc := ⟨.hbm, 48, rfl⟩
abbrev main_v25 : Ref sig .tc := ⟨.hbm, 49, rfl⟩
abbrev main_v26 : Ref sig .tc := ⟨.hbm, 50, rfl⟩
abbrev main_cst_12 : Ref sig .tc := ⟨.hbm, 51, rfl⟩
abbrev main_v27 : Ref sig .tc := ⟨.hbm, 52, rfl⟩
abbrev main_cst_13 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_14 : Ref sig .tc := ⟨.hbm, 58, rfl⟩
abbrev main_c_15 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_16 : Ref sig .tc := ⟨.hbm, 69, rfl⟩
abbrev main_c_17 : Ref sig .tc := ⟨.hbm, 70, rfl⟩
abbrev main_call7_v0 : Ref sig .tc := ⟨.hbm, 71, rfl⟩
abbrev main_call7_v1 : Ref sig .tc := ⟨.hbm, 72, rfl⟩
abbrev main_call7_v2 : Ref sig .tc := ⟨.hbm, 73, rfl⟩
abbrev main_call7_v3 : Ref sig .tc := ⟨.hbm, 74, rfl⟩
abbrev main_call7_v4 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩

abbrev nD : Nat := 1
abbrev τ : Topo := Topo.v7x

variable {F : FTy → Type} [FloatOps F]

class Facts₀ : Prop where
  shapeCasts_S32x32x256x256_S32x32x65536 : S32x32x256x256.ShapeCasts S32x32x65536
  reducesTo_S32x4x32_S_d0_1_2 : S32x4x32.ReducesTo [0, 1, 2] S_
  h_S_ : 0 < S_.numel
  bcast_S_S32x4x32 : S_.BroadcastsInDim S32x4x32 (![] : Fin 0 → Fin S32x4x32.rank)
  reducesTo_S32x32x65536_S_d0_1_2 : S32x32x65536.ReducesTo [0, 1, 2] S_
  bcast_S_S32x32x65536 : S_.BroadcastsInDim S32x32x65536 (![] : Fin 0 → Fin S32x32x65536.rank)
  dot_S32x4x32_S32x32x65536_S32x4x65536_2_1_1_2_0_0_wf : DotDims.WF S32x4x32 S32x32x65536 S32x4x65536 [2] [1] [1] [2] [0] [0]

variable [Facts₀]

def dot_S32x4x32_S32x32x65536_S32x4x65536_2_1_1_2_0_0 : DotDims S32x4x32 S32x32x65536 S32x4x65536 where
  lhsContracting := [2]
  rhsContracting := [1]
  lhsNonContracting := [1]
  rhsNonContracting := [2]
  lhsBatch := [0]
  rhsBatch := [0]
  wf := dot_S32x4x32_S32x32x65536_S32x4x65536_2_1_1_2_0_0_wf

class Facts : Prop extends Facts₀ where

variable [Facts]
-- ==== Proof.K.R0Runs.lean ====
/- The first grid region (the running minimum and maximum over the blocks of the flattened input), what its
   per-case runs share: the two branch conditions of the body in closed form over the 32 grid points (the
   first holds where the inner coordinate is 0, the second where it is 15), where the two output windows are
   idle and not written back, the names of the staging and scratch memrefs, the region's invariant with the
   two scratch buffers as owned memrefs, and the input window's block read off the entry contents. -/
import proofs.«177574_j1872605741851_2_alg».proof.Proof.Gen.Kernel.Launch
import proofs.«177574_j1872605741851_2_alg».proof.Proof.Gen.Kernel.Skeleton
import proofs.«177574_j1872605741851_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional of the body: the inner grid coordinate is 0 (the scratch is re-initialised). -/
abbrev cond0_0 (i : grid0.Coords) : Prop := (Scalar.cmpi .ne (Scalar.extui (Scalar.cmpi .eq (BitVec.ofNat 32 (i 1).val) 0#32)) 0#32) = 1#1
/-- It holds exactly at the points 0 and 16. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional of the body: the inner grid coordinate is 15 (the scratch is copied out). -/
abbrev cond0_1 (i : grid0.Coords) : Prop := k0_cond2 i = 1#1
/-- It holds exactly at the points 15 and 31. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The input window is never idle. -/
theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_1_C : ∀ t : Fin cfg0.N, ¬cond0_0 (grid0.coords t) → cond0_1 (grid0.coords t) → cfg0.idle 1 (grid0.coords t) = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of each output window, through which its contents are stated (the choice does not matter). -/
abbrev VO0_1 : View sig .tc .vmem S8x128 .f32 := (Memref.whole cc0_stg1_0 : Memref sig .tc .vmem S8x128 .f32).view
abbrev VO0_2 : View sig .tc .vmem S8x128 .f32 := (Memref.whole cc0_stg2_0 : Memref sig .tc .vmem S8x128 .f32).view
/-- Each window's current staging memref at point `t`, and its wholeness. -/
abbrev ms0_0 (t : Fin cfg0.N) : Memref sig .tc .vmem S1x32x65536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The two scratch operands (the running minimum and the running maximum): whole scoped buffers. -/
abbrev scM0_0 : Memref sig .tc .vmem S8x128 .f32 := Memref.whole cc0_scratch0
abbrev scM0_1 : Memref sig .tc .vmem S8x128 .f32 := Memref.whole cc0_scratch1
abbrev VS0_0 : View sig .tc .vmem S8x128 .f32 := scM0_0.view
abbrev VS0_1 : View sig .tc .vmem S8x128 .f32 := scM0_1.view

/-- The core's scoped buffers that are neither staging buffers nor scratch of this region (the second region's
    staging buffers), each whole at some contents: the region never touches them. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's base invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 c) ∗ (∃ r, prngReg c r)) := by
  unfold Pipeline.ΦA restS0; rw [scopedRest0_eq]; simp only [scM0_0, scM0_1, owns_whole]; try rfl

end Cert.Kernel.Hand

end
-- ==== Proof.K.R0RunA.lean ====
/- The first grid region's body run whole at a point whose inner coordinate is 0: both scratch buffers are
   first overwritten with the neutral elements (+∞ for the minimum, −∞ for the maximum), then each is replaced by
   its combination with the block's extremum; the two output windows are not touched. The pieces written into
   each buffer are the witness; the statement is the body's triple on whole memrefs. -/
import proofs.«177574_j1872605741851_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) at a point where the scratch is re-initialised and nothing is
    copied out, with the proof that from the input's buffer at `x0`, the output windows' buffers at `xi1`, `xi2`
    (handed back untouched) and the two scratch buffers at any contents, the body runs to the continuation holding the
    input's buffer as it was and each scratch with its pieces written. -/
noncomputable def kernelRun0_A (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) :
    Σ' (L1 : List (View.Piece (Elt F) S8x128 .f32)) (L2 : List (View.Piece (Elt F) S8x128 .f32)) (LS0 : List (View.Piece (Elt F) S8x128 .f32)), { LS1 : List (View.Piece (Elt F) S8x128 .f32) //
      ∀ (xi1 xi2 : Vec F S8x128 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨[], [], ?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.K.R0RunB.lean ====
/- The first grid region's body run whole at a point whose inner coordinate is neither 0 nor 15: each scratch
   buffer, holding what the point before left, is replaced by its combination with the block's extremum; the two
   output windows are not touched. The pieces written into each buffer are the witness. -/
import proofs.«177574_j1872605741851_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) at a point where the scratch is neither re-initialised nor
    copied out, with the proof that from the input's buffer at `x0`, the output windows' buffers at `xi1`, `xi2`
    (handed back untouched) and the scratch buffers at `xs0`, `xs1`, the body runs to the continuation holding the
    input's buffer as it was and each scratch with its pieces written. -/
noncomputable def kernelRun0_B (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) :
    Σ' (L1 : List (View.Piece (Elt F) S8x128 .f32)) (L2 : List (View.Piece (Elt F) S8x128 .f32)) (LS0 : List (View.Piece (Elt F) S8x128 .f32)), { LS1 : List (View.Piece (Elt F) S8x128 .f32) //
      ∀ (xi1 xi2 : Vec F S8x128 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨[], [], ?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.K.R0RunC.lean ====
/- The first grid region's body run whole at a point whose inner coordinate is 15: each scratch buffer, holding
   what the point before left, is replaced by its combination with the block's extremum, and the result is
   copied into the corresponding output window's buffer. The pieces written into each buffer are the witness. -/
import proofs.«177574_j1872605741851_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) at a point where the scratch is copied out, with the proof
    that from the input's buffer at `x0`, the output windows' buffers at any contents and the scratch buffers at
    `xs0`, `xs1`, the body runs to the continuation holding the input's buffer as it was and each output buffer and
    each scratch with its pieces written. -/
noncomputable def kernelRun0_C (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) :
    Σ' (L1 : List (View.Piece (Elt F) S8x128 .f32)) (L2 : List (View.Piece (Elt F) S8x128 .f32)) (LS0 : List (View.Piece (Elt F) S8x128 .f32)), { LS1 : List (View.Piece (Elt F) S8x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.Kernel.Hand

end
-- ==== Proof.K.R0Body.lean ====
/- The first grid region as proof data for the pipeline's launch rule: what the two output windows' buffers and
   the two scratch buffers (running minimum, running maximum) hold after each of the 32 points, defined by recursion
   over the point through the three cases of the body; the invariant that carries the scratch from point to point;
   and the body's obligation at a generic point, discharged case by case from the whole-body runs. -/
import proofs.«177574_j1872605741851_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## Case A -/

/-- Case A stores nothing into output window 1 (idle there and not written back): no pieces, a placeholder nothing consults. -/
def out0_A_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) : Vec F S8x128 .f32 :=
  VO0_1.read (Elt F) (VO0_1.writes (Elt F) VO0_1.junk (kernelRun0_A c i arg2 harg2 arg3 harg3 arg4 harg4 arg5 harg5 arg6 harg6 hc0 hc1 x0).1)

/-- Case A stores nothing into output window 2: a placeholder nothing consults. -/
def out0_A_2 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) : Vec F S8x128 .f32 :=
  VO0_2.read (Elt F) (VO0_2.writes (Elt F) VO0_2.junk (kernelRun0_A c i arg2 harg2 arg3 harg3 arg4 harg4 arg5 harg5 arg6 harg6 hc0 hc1 x0).2.1)

/-- The pieces written into scratch 0 in this case cover it. -/
theorem scover0_A_0 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) (y : S8x128.Idx) :
    ∃ pc ∈ (kernelRun0_A c i arg2 harg2 arg3 harg3 arg4 harg4 arg5 harg5 arg6 harg6 hc0 hc1 x0).2.2.1, y ∈ pc.1.set :=
  View.cover_of_tiledL (kernelRun0_A c i arg2 harg2 arg3 harg3 arg4 harg4 arg5 harg5 arg6 harg6 hc0 hc1 x0).2.2.1 S8x128.size (by sl_kernel_rfl) y

/-- What this case leaves in scratch 0: its pieces read back. -/
def sout0_A_0 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) : Vec F S8x128 .f32 :=
  VS0_0.read (Elt F) (VS0_0.writes (Elt F) VS0_0.junk (kernelRun0_A c i arg2 harg2 arg3 harg3 arg4 harg4 arg5 harg5 arg6 harg6 hc0 hc1 x0).2.2.1)

/-- The pieces written into scratch 1 in this case cover it. -/
theorem scover0_A_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) (y : S8x128.Idx) :
    ∃ pc ∈ (kernelRun0_A c i arg2 harg2 arg3 harg3 arg4 harg4 arg5 harg5 arg6 harg6 hc0 hc1 x0).2.2.2.1, y ∈ pc.1.set :=
  View.cover_of_tiledL (kernelRun0_A c i arg2 harg2 arg3 harg3 arg4 harg4 arg5 harg5 arg6 harg6 hc0 hc1 x0).2.2.2.1 S8x128.size (by sl_kernel_rfl) y

/-- What this case leaves in scratch 1: its pieces read back. -/
def sout0_A_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) : Vec F S8x128 .f32 :=
  VS0_1.read (Elt F) (VS0_1.writes (Elt F) VS0_1.junk (kernelRun0_A c i arg2 harg2 arg3 harg3 arg4 harg4 arg5 harg5 arg6 harg6 hc0 hc1 x0).2.2.2.1)

/-! ## Case B -/

/-- Case B stores nothing into output window 1 (idle there and not written back): no pieces, a placeholder nothing consults. -/
def out0_B_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) : Vec F S8x128 .f32 :=
  VO0_1.read (Elt F) (VO0_1.writes (Elt F) VO0_1.junk (kernelRun0_B c i arg2 harg2 arg3 harg3 arg4 harg4 arg5 harg5 arg6 harg6 hc0 hc1 x0 xs0 xs1).1)

/-- Case B stores nothing into output window 2: a placeholder nothing consults. -/
def out0_B_2 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) : Vec F S8x128 .f32 :=
  VO0_2.read (Elt F) (VO0_2.writes (Elt F) VO0_2.junk (kernelRun0_B c i arg2 harg2 arg3 harg3 arg4 harg4 arg5 harg5 arg6 harg6 hc0 hc1 x0 xs0 xs1).2.1)

/-- The pieces written into scratch 0 in this case cover it. -/
theorem scover0_B_0 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) (y : S8x128.Idx) :
    ∃ pc ∈ (kernelRun0_B c i arg2 harg2 arg3 harg3 arg4 harg4 arg5 harg5 arg6 harg6 hc0 hc1 x0 xs0 xs1).2.2.1, y ∈ pc.1.set :=
  View.cover_of_tiledL (kernelRun0_B c i arg2 harg2 arg3 harg3 arg4 harg4 arg5 harg5 arg6 harg6 hc0 hc1 x0 xs0 xs1).2.2.1 S8x128.size (by sl_kernel_rfl) y

/-- What this case leaves in scratch 0: its pieces read back. -/
def sout0_B_0 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) : Vec F S8x128 .f32 :=
  VS0_0.read (Elt F) (VS0_0.writes (Elt F) VS0_0.junk (kernelRun0_B c i arg2 harg2 arg3 harg3 arg4 harg4 arg5 harg5 arg6 harg6 hc0 hc1 x0 xs0 xs1).2.2.1)

/-- The pieces written into scratch 1 in this case cover it. -/
theorem scover0_B_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) (y : S8x128.Idx) :
    ∃ pc ∈ (kernelRun0_B c i arg2 harg2 arg3 harg3 arg4 harg4 arg5 harg5 arg6 harg6 hc0 hc1 x0 xs0 xs1).2.2.2.1, y ∈ pc.1.set :=
  View.cover_of_tiledL (kernelRun0_B c i arg2 harg2 arg3 harg3 arg4 harg4 arg5 harg5 arg6 harg6 hc0 hc1 x0 xs0 xs1).2.2.2.1 S8x128.size (by sl_kernel_rfl) y

/-- What this case leaves in scratch 1: its pieces read back. -/
def sout0_B_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) : Vec F S8x128 .f32 :=
  VS0_1.read (Elt F) (VS0_1.writes (Elt F) VS0_1.junk (kernelRun0_B c i arg2 harg2 arg3 harg3 arg4 harg4 arg5 harg5 arg6 harg6 hc0 hc1 x0 xs0 xs1).2.2.2.1)

/-! ## Case C -/

/-- Case C's pieces for output window 1 cover its block. -/
theorem cover0_C_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) (y : S8x128.Idx) :
    ∃ pc ∈ (kernelRun0_C c i arg2 harg2 arg3 harg3 arg4 harg4 arg5 harg5 arg6 harg6 hc0 hc1 x0 xs0 xs1).1, y ∈ pc.1.set :=
  View.cover_of_tiledL (kernelRun0_C c i arg2 harg2 arg3 harg3 arg4 harg4 arg5 harg5 arg6 harg6 hc0 hc1 x0 xs0 xs1).1 S8x128.size (by sl_kernel_rfl) y

/-- What case C leaves in output window 1's staging buffer: its pieces read back. -/
def out0_C_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) : Vec F S8x128 .f32 :=
  VO0_1.read (Elt F) (VO0_1.writes (Elt F) VO0_1.junk (kernelRun0_C c i arg2 harg2 arg3 harg3 arg4 harg4 arg5 harg5 arg6 harg6 hc0 hc1 x0 xs0 xs1).1)

/-- Case C's pieces for output window 2 cover its block. -/
theorem cover0_C_2 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) (y : S8x128.Idx) :
    ∃ pc ∈ (kernelRun0_C c i arg2 harg2 arg3 harg3 arg4 harg4 arg5 harg5 arg6 harg6 hc0 hc1 x0 xs0 xs1).2.1, y ∈ pc.1.set :=
  View.cover_of_tiledL (kernelRun0_C c i arg2 harg2 arg3 harg3 arg4 harg4 arg5 harg5 arg6 harg6 hc0 hc1 x0 xs0 xs1).2.1 S8x128.size (by sl_kernel_rfl) y

/-- What case C leaves in output window 2's staging buffer: its pieces read back. -/
def out0_C_2 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) : Vec F S8x128 .f32 :=
  VO0_2.read (Elt F) (VO0_2.writes (Elt F) VO0_2.junk (kernelRun0_C c i arg2 harg2 arg3 harg3 arg4 harg4 arg5 harg5 arg6 harg6 hc0 hc1 x0 xs0 xs1).2.1)

/-- The pieces written into scratch 0 in this case cover it. -/
theorem scover0_C_0 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) (y : S8x128.Idx) :
    ∃ pc ∈ (kernelRun0_C c i arg2 harg2 arg3 harg3 arg4 harg4 arg5 harg5 arg6 harg6 hc0 hc1 x0 xs0 xs1).2.2.1, y ∈ pc.1.set :=
  View.cover_of_tiledL (kernelRun0_C c i arg2 harg2 arg3 harg3 arg4 harg4 arg5 harg5 arg6 harg6 hc0 hc1 x0 xs0 xs1).2.2.1 S8x128.size (by sl_kernel_rfl) y

/-- What this case leaves in scratch 0: its pieces read back. -/
def sout0_C_0 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) : Vec F S8x128 .f32 :=
  VS0_0.read (Elt F) (VS0_0.writes (Elt F) VS0_0.junk (kernelRun0_C c i arg2 harg2 arg3 harg3 arg4 harg4 arg5 harg5 arg6 harg6 hc0 hc1 x0 xs0 xs1).2.2.1)

/-- The pieces written into scratch 1 in this case cover it. -/
theorem scover0_C_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) (y : S8x128.Idx) :
    ∃ pc ∈ (kernelRun0_C c i arg2 harg2 arg3 harg3 arg4 harg4 arg5 harg5 arg6 harg6 hc0 hc1 x0 xs0 xs1).2.2.2.1, y ∈ pc.1.set :=
  View.cover_of_tiledL (kernelRun0_C c i arg2 harg2 arg3 harg3 arg4 harg4 arg5 harg5 arg6 harg6 hc0 hc1 x0 xs0 xs1).2.2.2.1 S8x128.size (by sl_kernel_rfl) y

/-- What this case leaves in scratch 1: its pieces read back. -/
def sout0_C_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) : Vec F S8x128 .f32 :=
  VS0_1.read (Elt F) (VS0_1.writes (Elt F) VS0_1.junk (kernelRun0_C c i arg2 harg2 arg3 harg3 arg4 harg4 arg5 harg5 arg6 harg6 hc0 hc1 x0 xs0 xs1).2.2.2.1)

/-! ## What the buffers hold after each point -/

/-- The accumulation. What output window 1's buffer, output window 2's buffer, the running-minimum scratch and the
    running-maximum scratch hold after the body at position `n`: the case the closed forms select at `n`, run at
    the point's memrefs and input block, the scratch read at what this leaves at `n - 1` (a point whose inner
    coordinate is 0 does not read it: it starts from the neutral elements). -/
def outsAt0 (c : Dev nD) : (n : ℕ) → n < cfg0.N → Vec F S8x128 .f32 × Vec F S8x128 .f32 × Vec F S8x128 .f32 × Vec F S8x128 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 16 = 0 then
      if h1 : (n + 1) % 16 = 15 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 16 = 15 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

/-- `outsAt0` at a point of case A. -/
theorem outsAt0_A (c : Dev nD) (t : Fin cfg0.N) (h0 : t.val % 16 = 0) (h1 : ¬t.val % 16 = 15) :
    outsAt0 V c t.val t.isLt = (out0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B: over what the point before left in the scratch. -/
theorem outsAt0_B (c : Dev nD) (t : Fin cfg0.N) (h0 : ¬t.val % 16 = 0) (h1 : ¬t.val % 16 = 15) :
    outsAt0 V c t.val t.isLt = (out0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left in the scratch. -/
theorem outsAt0_C (c : Dev nD) (t : Fin cfg0.N) (h0 : ¬t.val % 16 = 0) (h1 : t.val % 16 = 15) :
    outsAt0 V c t.val t.isLt = (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The invariant before position `n`: before the first point the base invariant (every scratch at some contents);
    afterwards the two scratch buffers at what the point before left in them, the untouched scoped buffers and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restS0 c) ∗ (∃ r, prngReg c r)) := by
  cases n with
  | zero => exact absurd rfl hz
  | succ n => rfl

/-! ## The pipeline's proof data -/

/-- The proof data of the region on core `c`: the arrays as the region finds them; after the body at point `t` the
    input's buffer at its block and the output windows' buffers at `outsAt0`'s first two components; the invariant
    `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem dat0_owed (c : Dev nD) : ∀ t, (dat0 V c).owed t = 0 := fun _ => rfl
theorem dat0_q (c : Dev nD) : ∀ w, (dat0 V c).q w = fullShare := fun _ => rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input's memref holds its block; the closed forms say which case the point is in; the
    invariant hands the body the two scratch buffers at what the point before left (at some contents at the first
    point; a point whose inner coordinate is 0 forgets what they held) and takes them back at this point's contents;
    the untouched scoped buffers, the generator register and the core's debt pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
          unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t)).2.2.2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _)
            iexact HR
          iexact Hg
        isplitl [Ho]; · iexact Ho
        isplitl [H0]; · iexact H0
        isplitl [H1]; · iexists _; iexact H1
        iexists _; iexact H2
      · rw [PhiS_castSucc V c t, PhiS_pos V c _ _ hz]
        iintro ⟨⟨⟨HS0, HS1, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t)).2.2.2.2 _ _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _)
            iexact HR
          iexact Hg
        isplitl [Ho]; · iexact Ho
        isplitl [H0]; · iexact H0
        isplitl [H1]; · iexists _; iexact H1
        iexists _; iexact H2
  · by_cases h1 : t.val % 16 = 15
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1_C t (fun h => h0 ((hcond0_0 t).mp h)) ((hcond0_1 t).mpr h1)], after0_1]
      rw [show (dat0 V c).leavesExact 2 t = owns (c : Thread nD τ) (ms0_2 t) fullShare ((dat0 V c).after 2 t) from by
          unfold Dat.leavesExact; rw [liveAt0_2_C t (fun h => h0 ((hcond0_0 t).mp h)) ((hcond0_1 t).mpr h1)], after0_2]
      rw [outsAt0_C V c t h0 h1]
      unfold out0_C_1 out0_C_2 sout0_C_0 sout0_C_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩⟩
        iapply ((kernelRun0_C c (grid0.coords t) _ _ _ _ _ _ _ _ _ _ (fun h => h0 ((hcond0_0 t).mp h)) ((hcond0_1 t).mpr h1) (iblk0 V c 0 t) _ _).2.2.2.2 Set.univ _)
        isplitl [H0]; · iexact H0
        isplitl [H1]; · iexists _; iexact H1
        isplitl [H2]; · iexists _; iexact H2
        isplitl [HS0]; · iexact HS0
        isplitl [HS1]; · iexact HS1
        iintro ⟨H0, ⟨%e1, H1⟩, ⟨%e2, H2⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _)
            iexact HR
          iexact Hg
        isplitl [Ho]; · iexact Ho
        isplitl [H0]; · iexact H0
        isplitl [H1]
        · unfold owns; iexists _; isplitr
          swap; · iexact H1
          ipureintro; exact View.read_writes_of_cover _ _ _ _ _ (cover0_C_1 c _ _ _ _ _ _ _ _ _ _ _ _ _ _ _ _)
        unfold owns; iexists _; isplitr
        swap; · iexact H2
        ipureintro; exact View.read_writes_of_cover _ _ _ _ _ (cover0_C_2 c _ _ _ _ _ _ _ _ _ _ _ _ _ _ _ _)
    · rw [show (dat0 V c).leavesExact 0 t = owns (c : Thread nD τ) (ms0_0 t) fullShare ((dat0 V c).after 0 t) from by
          unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩⟩
        iapply ((kernelRun0_B c (grid0.coords t) _ _ _ _ _ _ _ _ _ _ (fun h => h0 ((hcond0_0 t).mp h)) (fun h => h1 ((hcond0_1 t).mp h)) (iblk0 V c 0 t) _ _).2.2.2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _)
            iexact HR
          iexact Hg
        isplitl [Ho]; · iexact Ho
        isplitl [H0]; · iexact H0
        isplitl [H1]; · iexists _; iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the base invariant back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.K.R1Body.lean ====
/-
  The second region (the fused quantize-and-project call on the grid (32, 2)) as proof data: at every grid point the
  body reads its five input blocks — a [1, 32, 32768] block x of the flattened array, the [1, 4, 32] block a of the
  integer grid of the first operand, and the three scalars inv, zp, comb — and stores into the output block the single
  value (a · (clip(round(x · inv) + zp, 0, 255) − zp)) · comb. Nothing is carried from one point to the next, so the
  region's invariant is the plain one: the scoped rest and the generator register, untouched.
  Stated at a parameter V, the buffers' contents when the region is entered.
-/
import proofs.«177574_j1872605741851_2_alg».proof.Proof.Gen.Kernel.Launch
import proofs.«177574_j1872605741851_2_alg».proof.Proof.Gen.Kernel.Skeleton
import proofs.«177574_j1872605741851_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the entry contents at every point, whether the point fetches
    it or not: where it is not fetched the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block of the entry contents at every point, whether the point fetches
    it or not: where it is not fetched the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block of the entry contents at every point, whether the point fetches
    it or not: where it is not fetched the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block of the entry contents at every point, whether the point fetches
    it or not: where it is not fetched the block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block of the entry contents at every point, whether the point fetches
    it or not: where it is not fetched the block index has not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_x : Rect S1x32x32768 := Rect.unit (s := S1x32x32768) ![0, 0, 0] S1x32x32768.size inb_S1x32x32768_S1x32x32768_0_0_0
abbrev r1_a : Rect S1x4x32 := Rect.unit (s := S1x4x32) ![0, 0, 0] S1x4x32.size inb_S1x4x32_S1x4x32_0_0_0
abbrev r1_s : Rect S1x1 := Rect.unit (s := S1x1) ![0, 0] S1x1.size inb_S1x1_S1x1_0_0
abbrev r1_o : Rect S1x4x32768 := Rect.unit (s := S1x4x32768) ![0, 0, 0] S1x4x32768.size inb_S1x4x32768_S1x4x32768_0_0_0

/-- What the body leaves in the output window's buffer, from the five input blocks: its one store, of the
    body's arithmetic applied to the loaded blocks. -/
def out1_5 (x0 : Vec F S1x32x32768 .f32) (x1 : Vec F S1x4x32 .f32) (x2 x3 x4 : Vec F S1x1 .f32) : Vec F S1x4x32768 .f32 :=
  View.canon [⟨r1_o, k1_pay1 (View.ld x0 r1_x) (View.ld x2 r1_s) (View.ld x3 r1_s) (View.ld x1 r1_a) (View.ld x4 r1_s)⟩]

/-- The one store takes the whole buffer, so it covers it. -/
theorem cover1_5 (p0 : Vec F S1x4x32768 .f32) (y : S1x4x32768.Idx) :
    ∃ pc ∈ ([⟨r1_o, p0⟩] : List (View.Piece (Elt F) S1x4x32768 .f32)), y ∈ pc.1.set :=
  View.cover_of_tiled [⟨r1_o, p0⟩] S1x4x32768.size (by rfl) y

/-! ## The body's triple -/

set_option maxHeartbeats 1000000 in
/-- On whole staging memrefs, the inputs' at contents x0 … x4 and the output's at anything, the body runs to the
    continuation holding the inputs' as they were and the output's at out1_5 of them. -/
theorem sound_kernel1 (c : Dev nD) (E : Set ℕ) (i : grid1.Coords)
    (arg2 : Memref sig .tc .vmem S1x32x32768 .f32) (harg2 : arg2.IsWhole) (arg3 : Memref sig .tc .vmem S1x4x32 .f32) (harg3 : arg3.IsWhole)
    (arg4 : Memref sig .tc .vmem S1x1 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S1x4x32768 .f32) (harg7 : arg7.IsWhole)
    (x0 : Vec F S1x32x32768 .f32) (x1 : Vec F S1x4x32 .f32) (x2 x3 x4 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__matmul_kernel i arg2 harg2 arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The region's proof data -/

/-- The proof data of the second region on core c: the arrays as the region finds them; after the body at point t
    each input's buffer at its block and the output's at out1_5 of the input blocks; the plain invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of the program's entry function as a chain of sixteen segments — a host stretch, the first region
  (the min/max reduction), thirteen host stretches, the second region (quantize and project) — with the contents of
  every unscoped buffer named at each boundary: a host stretch applies its operations to the contents before it; a
  region leaves each of its arrays at what its write-backs fold to and every other buffer as it found it. The run
  ends with every unscoped buffer at the last boundary's contents; the two argument arrays are written by no stretch
  and are no region's output, so they end as launched.
-/
import proofs.«177574_j1872605741851_2_alg».proof.Proof.K.R0Body
import proofs.«177574_j1872605741851_2_alg».proof.Proof.K.R1Body
import proofs.«177574_j1872605741851_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem dat1_owed (V : (c : Dev nD) → (b : Ref sig .tc) → Buf (Elt F) ((c : Thread nD τ).loc b)) (c : Dev nD) : ∀ t, (dat1 V c).owed t = 0 := fun _ => rfl
theorem dat1_q (V : (c : Dev nD) → (b : Ref sig .tc) → Buf (Elt F) ((c : Thread nD τ).loc b)) (c : Dev nD) : ∀ w, (dat1 V c).q w = fullShare := fun _ => rfl

/-! ## The buffer contents at each segment boundary -/

/-- Core c's buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
/-- After the host stretch `hostOps1_1`. -/
abbrev W4 : Dev nD → Valuation τ sig (Elt F) := fun c => StableHlo.after hostOps1_1 (W3 m ρ c)
/-- After the host stretch `hostOps1_2`. -/
abbrev W5 : Dev nD → Valuation τ sig (Elt F) := fun c => StableHlo.after hostOps1_2 (W4 m ρ c)
/-- After the host stretch `hostOps1_3`. -/
abbrev W6 : Dev nD → Valuation τ sig (Elt F) := fun c => StableHlo.after hostOps1_3 (W5 m ρ c)
/-- After the host stretch `hostOps1_4`. -/
abbrev W7 : Dev nD → Valuation τ sig (Elt F) := fun c => StableHlo.after hostOps1_4 (W6 m ρ c)
/-- After the host stretch `hostOps1_5`. -/
abbrev W8 : Dev nD → Valuation τ sig (Elt F) := fun c => StableHlo.after hostOps1_5 (W7 m ρ c)
/-- After the host stretch `hostOps1_6`. -/
abbrev W9 : Dev nD → Valuation τ sig (Elt F) := fun c => StableHlo.after hostOps1_6 (W8 m ρ c)
/-- After the host stretch `hostOps1_7`. -/
abbrev W10 : Dev nD → Valuation τ sig (Elt F) := fun c => StableHlo.after hostOps1_7 (W9 m ρ c)
/-- After the host stretch `hostOps1_8`. -/
abbrev W11 : Dev nD → Valuation τ sig (Elt F) := fun c => StableHlo.after hostOps1_8 (W10 m ρ c)
/-- After the host stretch `hostOps1_9`. -/
abbrev W12 : Dev nD → Valuation τ sig (Elt F) := fun c => StableHlo.after hostOps1_9 (W11 m ρ c)
/-- After the host stretch `hostOps1_10`. -/
abbrev W13 : Dev nD → Valuation τ sig (Elt F) := fun c => StableHlo.after hostOps1_10 (W12 m ρ c)
/-- After the host stretch `hostOps1_11`. -/
abbrev W14 : Dev nD → Valuation τ sig (Elt F) := fun c => StableHlo.after hostOps1_11 (W13 m ρ c)
/-- After the host stretch `hostOps1_12`. -/
abbrev W15 : Dev nD → Valuation τ sig (Elt F) := fun c => StableHlo.after hostOps1_12 (W14 m ρ c)
/-- The same read at the TensorCore's references (the second region's entry). -/
abbrev U15 : (c : Dev nD) → (b : Ref sig .tc) → Buf (Elt F) ((c : Thread nD τ).loc b) := fun c b => W15 m ρ c b
/-- At the second region's exit. -/
def W16 (c : Dev nD) : Valuation τ sig (Elt F) :=
  Pipeline.withArrays spec1 c (W15 m ρ c) fun w => (dat1 (U15 m ρ) c).arrAt w cfg1.N
theorem W16_arr (c : Dev nD) (w : Fin cfg1.W) :
    W16 m ρ c (Proc.devRef .tc (Pipeline.arrRef spec1 w)) = (dat1 (U15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
abbrev U16 : (c : Dev nD) → (b : Ref sig .tc) → Buf (Elt F) ((c : Thread nD τ).loc b) := fun c b => W16 m ρ c b
theorem hF1 (c : Dev nD) (w : Fin cfg1.W) : (dat1 (U15 m ρ) c).arrAt w cfg1.N = U16 m ρ c (Pipeline.arrRef spec1 w) :=
  (W16_arr m ρ c w).symm
theorem hrest1 (c : Dev nD) : ∀ b, b ∉ Finset.univ.image (Pipeline.arrRef spec1) → U16 m ρ c b = U15 m ρ c b :=
  fun b hb => W16_of_ne m ρ c b fun w e => hb (Finset.mem_image.mpr ⟨w, Finset.mem_univ _, e⟩)

/-! ### The arguments end as launched -/

theorem W16_main_arg0 (c : Dev nD) : W16 m ρ c (Proc.devRef .tc main_arg0) = m ((c : Thread nD τ).loc main_arg0) :=
  calc W16 m ρ c (Proc.devRef .tc main_arg0)
    _ = W15 m ρ c (Proc.devRef .tc main_arg0) := W16_of_ne m ρ c main_arg0 (by decide)
    _ = W14 m ρ c (Proc.devRef .tc main_arg0) := StableHlo.after_of_writes_sub hostOps1_12 _ hostOps1_12_writes (by decide)
    _ = W13 m ρ c (Proc.devRef .tc main_arg0) := StableHlo.after_of_writes_sub hostOps1_11 _ hostOps1_11_writes (by decide)
    _ = W12 m ρ c (Proc.devRef .tc main_arg0) := StableHlo.after_of_writes_sub hostOps1_10 _ hostOps1_10_writes (by decide)
    _ = W11 m ρ c (Proc.devRef .tc main_arg0) := StableHlo.after_of_writes_sub hostOps1_9 _ hostOps1_9_writes (by decide)
    _ = W10 m ρ c (Proc.devRef .tc main_arg0) := StableHlo.after_of_writes_sub hostOps1_8 _ hostOps1_8_writes (by decide)
    _ = W9 m ρ c (Proc.devRef .tc main_arg0) := StableHlo.after_of_writes_sub hostOps1_7 _ hostOps1_7_writes (by decide)
    _ = W8 m ρ c (Proc.devRef .tc main_arg0) := StableHlo.after_of_writes_sub hostOps1_6 _ hostOps1_6_writes (by decide)
    _ = W7 m ρ c (Proc.devRef .tc main_arg0) := StableHlo.after_of_writes_sub hostOps1_5 _ hostOps1_5_writes (by decide)
    _ = W6 m ρ c (Proc.devRef .tc main_arg0) := StableHlo.after_of_writes_sub hostOps1_4 _ hostOps1_4_writes (by decide)
    _ = W5 m ρ c (Proc.devRef .tc main_arg0) := StableHlo.after_of_writes_sub hostOps1_3 _ hostOps1_3_writes (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W16_main_arg1 (c : Dev nD) : W16 m ρ c (Proc.devRef .tc main_arg1) = m ((c : Thread nD τ).loc main_arg1) :=
  calc W16 m ρ c (Proc.devRef .tc main_arg1)
    _ = W15 m ρ c (Proc.devRef .tc main_arg1) := W16_of_ne m ρ c main_arg1 (by decide)
    _ = W14 m ρ c (Proc.devRef .tc main_arg1) := StableHlo.after_of_writes_sub hostOps1_12 _ hostOps1_12_writes (by decide)
    _ = W13 m ρ c (Proc.devRef .tc main_arg1) := StableHlo.after_of_writes_sub hostOps1_11 _ hostOps1_11_writes (by decide)
    _ = W12 m ρ c (Proc.devRef .tc main_arg1) := StableHlo.after_of_writes_sub hostOps1_10 _ hostOps1_10_writes (by decide)
    _ = W11 m ρ c (Proc.devRef .tc main_arg1) := StableHlo.after_of_writes_sub hostOps1_9 _ hostOps1_9_writes (by decide)
    _ = W10 m ρ c (Proc.devRef .tc main_arg1) := StableHlo.after_of_writes_sub hostOps1_8 _ hostOps1_8_writes (by decide)
    _ = W9 m ρ c (Proc.devRef .tc main_arg1) := StableHlo.after_of_writes_sub hostOps1_7 _ hostOps1_7_writes (by decide)
    _ = W8 m ρ c (Proc.devRef .tc main_arg1) := StableHlo.after_of_writes_sub hostOps1_6 _ hostOps1_6_writes (by decide)
    _ = W7 m ρ c (Proc.devRef .tc main_arg1) := StableHlo.after_of_writes_sub hostOps1_5 _ hostOps1_5_writes (by decide)
    _ = W6 m ρ c (Proc.devRef .tc main_arg1) := StableHlo.after_of_writes_sub hostOps1_4 _ hostOps1_4_writes (by decide)
    _ = W5 m ρ c (Proc.devRef .tc main_arg1) := StableHlo.after_of_writes_sub hostOps1_3 _ hostOps1_3_writes (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-! ## The proof data family and the thread state -/

/-- Every region's proof data, each at its entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U15 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W16 m ρ c) ∗ ∃ r, prngReg c r)

/-! ## The regions as segments -/

/-- The plain region invariant from what a region is handed: the generator register, no tables, the scoped rest. -/
theorem PhiA_in0 (c : Dev nD) : (iprop((∃ r, prngReg c r) ∗ Pipeline.prefHeld (pcfgs (F := F) 0).pre c (fun _ => fullShare) (adm (F := F) 0).1 ∗ Pipeline.scopedRest spec0 c) : sProp 𝕄)
    ⊢ Pipeline.ΦA spec0 c := by
  unfold Pipeline.ΦA
  iintro ⟨Hp, -, Hr⟩
  isplitl [Hr]; · iexact Hr
  iexact Hp
/-- and what it gives back. -/
theorem PhiA_out0 (c : Dev nD) : (Pipeline.ΦA spec0 c : sProp 𝕄)
    ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

set_option backward.isDefEq.respectTransparency.types false in
/-- Region 0 over the thread state: entered from every unscoped buffer at `W1`, left at `W2`. Its arrays are
    split out of the unscoped buffers on entry and put back at their exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun c t => dat0_owed (U1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => dat0_q (U1 m ρ) c w) (U1 m ρ c) fun w => A_eq0 (U1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_in0 c).trans (hin0 (U1 m ρ) c)
  hout c := by
    rw [Pipeline.ownSems0_none]
    exact (hout0 (U1 m ρ) c).trans (PhiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => dat0_q (U1 m ρ) c w)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W15`, left at `W16`. Its arrays are
    split out of the unscoped buffers on entry and put back at their exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U15 m ρ) c).loose
  hwaits := Pipeline.hwaits_of_owed_zero _ _ _ _ L lv 1 fun c t => dat1_owed (U15 m ρ) c t
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => dat1_q (U15 m ρ) c w) (U15 m ρ c) fun w => A_eq1 (U15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => dat1_q (U15 m ρ) c w)
      (U15 m ρ c) (U16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .host (hseg hostOps1_9 hostOps1_9_sub hostOps1_9_fresh (W11 m ρ)),
    .host (hseg hostOps1_10 hostOps1_10_sub hostOps1_10_fresh (W12 m ρ)),
    .host (hseg hostOps1_11 hostOps1_11_sub hostOps1_11_fresh (W13 m ρ)),
    .host (hseg hostOps1_12 hostOps1_12_sub hostOps1_12_fresh (W14 m ρ)),
    .region (reg1 m ρ) ]

theorem main_run (c : Dev nD) : main (F := F) c = Pipeline.Seg.run (segs m ρ) := (main_chain c).trans (by chain_rfl)

set_option backward.isDefEq.respectTransparency.types false in
/-- THE RUN. From any memory with zero counters every weakly fair execution of the entry function on the TensorCores
    terminates, nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W16_main_arg0 m ρ c),
     (h c _ (mem_uc main_arg1 (by decide))).trans (W16_main_arg1 m ρ c)⟩) (run_all m ρ)

end Cert.Kernel.Hand

end
-- ==== Proof.KI.R0Runs.lean ====
/- The first grid region (the running minimum and maximum over the blocks of the flattened input), what its
   per-case runs share: the two branch conditions of the body in closed form over the 32 grid points (the
   first holds where the inner coordinate is 0, the second where it is 15), where the two output windows are
   idle and not written back, the names of the staging and scratch memrefs, the region's invariant with the
   two scratch buffers as owned memrefs, and the input window's block read off the entry contents. -/
import proofs.«177574_j1872605741851_2_alg».proof.Proof.Gen.KernelIdeal.Launch
import proofs.«177574_j1872605741851_2_alg».proof.Proof.Gen.KernelIdeal.Skeleton
import proofs.«177574_j1872605741851_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional of the body: the inner grid coordinate is 0 (the scratch is re-initialised). -/
abbrev cond0_0 (i : grid0.Coords) : Prop := (Scalar.cmpi .ne (Scalar.extui (Scalar.cmpi .eq (BitVec.ofNat 32 (i 1).val) 0#32)) 0#32) = 1#1
/-- It holds exactly at the points 0 and 16. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional of the body: the inner grid coordinate is 15 (the scratch is copied out). -/
abbrev cond0_1 (i : grid0.Coords) : Prop := k0_cond2 i = 1#1
/-- It holds exactly at the points 15 and 31. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The input window is never idle. -/
theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_1_C : ∀ t : Fin cfg0.N, ¬cond0_0 (grid0.coords t) → cond0_1 (grid0.coords t) → cfg0.idle 1 (grid0.coords t) = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of each output window, through which its contents are stated (the choice does not matter). -/
abbrev VO0_1 : View sig .tc .vmem S8x128 .f32 := (Memref.whole cc0_stg1_0 : Memref sig .tc .vmem S8x128 .f32).view
abbrev VO0_2 : View sig .tc .vmem S8x128 .f32 := (Memref.whole cc0_stg2_0 : Memref sig .tc .vmem S8x128 .f32).view
/-- Each window's current staging memref at point `t`, and its wholeness. -/
abbrev ms0_0 (t : Fin cfg0.N) : Memref sig .tc .vmem S1x32x65536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The two scratch operands (the running minimum and the running maximum): whole scoped buffers. -/
abbrev scM0_0 : Memref sig .tc .vmem S8x128 .f32 := Memref.whole cc0_scratch0
abbrev scM0_1 : Memref sig .tc .vmem S8x128 .f32 := Memref.whole cc0_scratch1
abbrev VS0_0 : View sig .tc .vmem S8x128 .f32 := scM0_0.view
abbrev VS0_1 : View sig .tc .vmem S8x128 .f32 := scM0_1.view

/-- The core's scoped buffers that are neither staging buffers nor scratch of this region (the second region's
    staging buffers), each whole at some contents: the region never touches them. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's base invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 c) ∗ (∃ r, prngReg c r)) := by
  unfold Pipeline.ΦA restS0; rw [scopedRest0_eq]; simp only [scM0_0, scM0_1, owns_whole]; try rfl

end Cert.KernelIdeal.Hand

end
-- ==== Proof.KI.R0RunA.lean ====
/- The first grid region's body run whole at a point whose inner coordinate is 0: both scratch buffers are
   first overwritten with the neutral elements (+∞ for the minimum, −∞ for the maximum), then each is replaced by
   its combination with the block's extremum; the two output windows are not touched. The pieces written into
   each buffer are the witness; the statement is the body's triple on whole memrefs. -/
import proofs.«177574_j1872605741851_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) at a point where the scratch is re-initialised and nothing is
    copied out, with the proof that from the input's buffer at `x0`, the output windows' buffers at `xi1`, `xi2`
    (handed back untouched) and the two scratch buffers at any contents, the body runs to the continuation holding the
    input's buffer as it was and each scratch with its pieces written. -/
noncomputable def kernelRun0_A (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) :
    Σ' (L1 : List (View.Piece (Elt F) S8x128 .f32)) (L2 : List (View.Piece (Elt F) S8x128 .f32)) (LS0 : List (View.Piece (Elt F) S8x128 .f32)), { LS1 : List (View.Piece (Elt F) S8x128 .f32) //
      ∀ (xi1 xi2 : Vec F S8x128 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨[], [], ?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KI.R0RunB.lean ====
/- The first grid region's body run whole at a point whose inner coordinate is neither 0 nor 15: each scratch
   buffer, holding what the point before left, is replaced by its combination with the block's extremum; the two
   output windows are not touched. The pieces written into each buffer are the witness. -/
import proofs.«177574_j1872605741851_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) at a point where the scratch is neither re-initialised nor
    copied out, with the proof that from the input's buffer at `x0`, the output windows' buffers at `xi1`, `xi2`
    (handed back untouched) and the scratch buffers at `xs0`, `xs1`, the body runs to the continuation holding the
    input's buffer as it was and each scratch with its pieces written. -/
noncomputable def kernelRun0_B (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) :
    Σ' (L1 : List (View.Piece (Elt F) S8x128 .f32)) (L2 : List (View.Piece (Elt F) S8x128 .f32)) (LS0 : List (View.Piece (Elt F) S8x128 .f32)), { LS1 : List (View.Piece (Elt F) S8x128 .f32) //
      ∀ (xi1 xi2 : Vec F S8x128 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨[], [], ?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KI.R0RunC.lean ====
/- The first grid region's body run whole at a point whose inner coordinate is 15: each scratch buffer, holding
   what the point before left, is replaced by its combination with the block's extremum, and the result is
   copied into the corresponding output window's buffer. The pieces written into each buffer are the witness. -/
import proofs.«177574_j1872605741851_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) at a point where the scratch is copied out, with the proof
    that from the input's buffer at `x0`, the output windows' buffers at any contents and the scratch buffers at
    `xs0`, `xs1`, the body runs to the continuation holding the input's buffer as it was and each output buffer and
    each scratch with its pieces written. -/
noncomputable def kernelRun0_C (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) :
    Σ' (L1 : List (View.Piece (Elt F) S8x128 .f32)) (L2 : List (View.Piece (Elt F) S8x128 .f32)) (LS0 : List (View.Piece (Elt F) S8x128 .f32)), { LS1 : List (View.Piece (Elt F) S8x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.KernelIdeal.Hand

end
-- ==== Proof.KI.R0Body.lean ====
/- The first grid region as proof data for the pipeline's launch rule: what the two output windows' buffers and
   the two scratch buffers (running minimum, running maximum) hold after each of the 32 points, defined by recursion
   over the point through the three cases of the body; the invariant that carries the scratch from point to point;
   and the body's obligation at a generic point, discharged case by case from the whole-body runs. -/
import proofs.«177574_j1872605741851_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## Case A -/

/-- Case A stores nothing into output window 1 (idle there and not written back): no pieces, a placeholder nothing consults. -/
def out0_A_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) : Vec F S8x128 .f32 :=
  VO0_1.read (Elt F) (VO0_1.writes (Elt F) VO0_1.junk (kernelRun0_A c i arg2 harg2 arg3 harg3 arg4 harg4 arg5 harg5 arg6 harg6 hc0 hc1 x0).1)

/-- Case A stores nothing into output window 2: a placeholder nothing consults. -/
def out0_A_2 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) : Vec F S8x128 .f32 :=
  VO0_2.read (Elt F) (VO0_2.writes (Elt F) VO0_2.junk (kernelRun0_A c i arg2 harg2 arg3 harg3 arg4 harg4 arg5 harg5 arg6 harg6 hc0 hc1 x0).2.1)

/-- The pieces written into scratch 0 in this case cover it. -/
theorem scover0_A_0 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) (y : S8x128.Idx) :
    ∃ pc ∈ (kernelRun0_A c i arg2 harg2 arg3 harg3 arg4 harg4 arg5 harg5 arg6 harg6 hc0 hc1 x0).2.2.1, y ∈ pc.1.set :=
  View.cover_of_tiledL (kernelRun0_A c i arg2 harg2 arg3 harg3 arg4 harg4 arg5 harg5 arg6 harg6 hc0 hc1 x0).2.2.1 S8x128.size (by sl_kernel_rfl) y

/-- What this case leaves in scratch 0: its pieces read back. -/
def sout0_A_0 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) : Vec F S8x128 .f32 :=
  VS0_0.read (Elt F) (VS0_0.writes (Elt F) VS0_0.junk (kernelRun0_A c i arg2 harg2 arg3 harg3 arg4 harg4 arg5 harg5 arg6 harg6 hc0 hc1 x0).2.2.1)

/-- The pieces written into scratch 1 in this case cover it. -/
theorem scover0_A_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) (y : S8x128.Idx) :
    ∃ pc ∈ (kernelRun0_A c i arg2 harg2 arg3 harg3 arg4 harg4 arg5 harg5 arg6 harg6 hc0 hc1 x0).2.2.2.1, y ∈ pc.1.set :=
  View.cover_of_tiledL (kernelRun0_A c i arg2 harg2 arg3 harg3 arg4 harg4 arg5 harg5 arg6 harg6 hc0 hc1 x0).2.2.2.1 S8x128.size (by sl_kernel_rfl) y

/-- What this case leaves in scratch 1: its pieces read back. -/
def sout0_A_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S1x32x65536 .f32) : Vec F S8x128 .f32 :=
  VS0_1.read (Elt F) (VS0_1.writes (Elt F) VS0_1.junk (kernelRun0_A c i arg2 harg2 arg3 harg3 arg4 harg4 arg5 harg5 arg6 harg6 hc0 hc1 x0).2.2.2.1)

/-! ## Case B -/

/-- Case B stores nothing into output window 1 (idle there and not written back): no pieces, a placeholder nothing consults. -/
def out0_B_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) : Vec F S8x128 .f32 :=
  VO0_1.read (Elt F) (VO0_1.writes (Elt F) VO0_1.junk (kernelRun0_B c i arg2 harg2 arg3 harg3 arg4 harg4 arg5 harg5 arg6 harg6 hc0 hc1 x0 xs0 xs1).1)

/-- Case B stores nothing into output window 2: a placeholder nothing consults. -/
def out0_B_2 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) : Vec F S8x128 .f32 :=
  VO0_2.read (Elt F) (VO0_2.writes (Elt F) VO0_2.junk (kernelRun0_B c i arg2 harg2 arg3 harg3 arg4 harg4 arg5 harg5 arg6 harg6 hc0 hc1 x0 xs0 xs1).2.1)

/-- The pieces written into scratch 0 in this case cover it. -/
theorem scover0_B_0 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) (y : S8x128.Idx) :
    ∃ pc ∈ (kernelRun0_B c i arg2 harg2 arg3 harg3 arg4 harg4 arg5 harg5 arg6 harg6 hc0 hc1 x0 xs0 xs1).2.2.1, y ∈ pc.1.set :=
  View.cover_of_tiledL (kernelRun0_B c i arg2 harg2 arg3 harg3 arg4 harg4 arg5 harg5 arg6 harg6 hc0 hc1 x0 xs0 xs1).2.2.1 S8x128.size (by sl_kernel_rfl) y

/-- What this case leaves in scratch 0: its pieces read back. -/
def sout0_B_0 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) : Vec F S8x128 .f32 :=
  VS0_0.read (Elt F) (VS0_0.writes (Elt F) VS0_0.junk (kernelRun0_B c i arg2 harg2 arg3 harg3 arg4 harg4 arg5 harg5 arg6 harg6 hc0 hc1 x0 xs0 xs1).2.2.1)

/-- The pieces written into scratch 1 in this case cover it. -/
theorem scover0_B_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) (y : S8x128.Idx) :
    ∃ pc ∈ (kernelRun0_B c i arg2 harg2 arg3 harg3 arg4 harg4 arg5 harg5 arg6 harg6 hc0 hc1 x0 xs0 xs1).2.2.2.1, y ∈ pc.1.set :=
  View.cover_of_tiledL (kernelRun0_B c i arg2 harg2 arg3 harg3 arg4 harg4 arg5 harg5 arg6 harg6 hc0 hc1 x0 xs0 xs1).2.2.2.1 S8x128.size (by sl_kernel_rfl) y

/-- What this case leaves in scratch 1: its pieces read back. -/
def sout0_B_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S1x32x65536 .f32) (xs0 : Vec F S8x128 .f32) (xs1 : Vec F S8x128 .f32) : Vec F S8x128 .f32 :=
  VS0_1.read (Elt F) (VS0_1.writes (Elt F) VS0_1.junk (kernelRun0_B c i arg2 harg2 arg3 harg3 arg4 harg4 arg5 harg5 arg6 harg6 hc0 hc1 x0 xs0 xs1).2.2.2.1)

/-! ## Case C -/

/-- Case C's pieces for output window 1 cover its block. -/
theorem cover0_C_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) (y : S8x128.Idx) :
    ∃ pc ∈ (kernelRun0_C c i arg2 harg2 arg3 harg3 arg4 harg4 arg5 harg5 arg6 harg6 hc0 hc1 x0 xs0 xs1).1, y ∈ pc.1.set :=
  View.cover_of_tiledL (kernelRun0_C c i arg2 harg2 arg3 harg3 arg4 harg4 arg5 harg5 arg6 harg6 hc0 hc1 x0 xs0 xs1).1 S8x128.size (by sl_kernel_rfl) y

/-- What case C leaves in output window 1's staging buffer: its pieces read back. -/
def out0_C_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) : Vec F S8x128 .f32 :=
  VO0_1.read (Elt F) (VO0_1.writes (Elt F) VO0_1.junk (kernelRun0_C c i arg2 harg2 arg3 harg3 arg4 harg4 arg5 harg5 arg6 harg6 hc0 hc1 x0 xs0 xs1).1)

/-- Case C's pieces for output window 2 cover its block. -/
theorem cover0_C_2 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) (y : S8x128.Idx) :
    ∃ pc ∈ (kernelRun0_C c i arg2 harg2 arg3 harg3 arg4 harg4 arg5 harg5 arg6 harg6 hc0 hc1 x0 xs0 xs1).2.1, y ∈ pc.1.set :=
  View.cover_of_tiledL (kernelRun0_C c i arg2 harg2 arg3 harg3 arg4 harg4 arg5 harg5 arg6 harg6 hc0 hc1 x0 xs0 xs1).2.1 S8x128.size (by sl_kernel_rfl) y

/-- What case C leaves in output window 2's staging buffer: its pieces read back. -/
def out0_C_2 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) : Vec F S8x128 .f32 :=
  VO0_2.read (Elt F) (VO0_2.writes (Elt F) VO0_2.junk (kernelRun0_C c i arg2 harg2 arg3 harg3 arg4 harg4 arg5 harg5 arg6 harg6 hc0 hc1 x0 xs0 xs1).2.1)

/-- The pieces written into scratch 0 in this case cover it. -/
theorem scover0_C_0 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) (y : S8x128.Idx) :
    ∃ pc ∈ (kernelRun0_C c i arg2 harg2 arg3 harg3 arg4 harg4 arg5 harg5 arg6 harg6 hc0 hc1 x0 xs0 xs1).2.2.1, y ∈ pc.1.set :=
  View.cover_of_tiledL (kernelRun0_C c i arg2 harg2 arg3 harg3 arg4 harg4 arg5 harg5 arg6 harg6 hc0 hc1 x0 xs0 xs1).2.2.1 S8x128.size (by sl_kernel_rfl) y

/-- What this case leaves in scratch 0: its pieces read back. -/
def sout0_C_0 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) : Vec F S8x128 .f32 :=
  VS0_0.read (Elt F) (VS0_0.writes (Elt F) VS0_0.junk (kernelRun0_C c i arg2 harg2 arg3 harg3 arg4 harg4 arg5 harg5 arg6 harg6 hc0 hc1 x0 xs0 xs1).2.2.1)

/-- The pieces written into scratch 1 in this case cover it. -/
theorem scover0_C_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) (y : S8x128.Idx) :
    ∃ pc ∈ (kernelRun0_C c i arg2 harg2 arg3 harg3 arg4 harg4 arg5 harg5 arg6 harg6 hc0 hc1 x0 xs0 xs1).2.2.2.1, y ∈ pc.1.set :=
  View.cover_of_tiledL (kernelRun0_C c i arg2 harg2 arg3 harg3 arg4 harg4 arg5 harg5 arg6 harg6 hc0 hc1 x0 xs0 xs1).2.2.2.1 S8x128.size (by sl_kernel_rfl) y

/-- What this case leaves in scratch 1: its pieces read back. -/
def sout0_C_1 (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S1x32x65536 .f32) (xs0 : Vec F S8x128 .f32) (xs1 : Vec F S8x128 .f32) : Vec F S8x128 .f32 :=
  VS0_1.read (Elt F) (VS0_1.writes (Elt F) VS0_1.junk (kernelRun0_C c i arg2 harg2 arg3 harg3 arg4 harg4 arg5 harg5 arg6 harg6 hc0 hc1 x0 xs0 xs1).2.2.2.1)

/-! ## What the buffers hold after each point -/

/-- The accumulation. What output window 1's buffer, output window 2's buffer, the running-minimum scratch and the
    running-maximum scratch hold after the body at position `n`: the case the closed forms select at `n`, run at
    the point's memrefs and input block, the scratch read at what this leaves at `n - 1` (a point whose inner
    coordinate is 0 does not read it: it starts from the neutral elements). -/
def outsAt0 (c : Dev nD) : (n : ℕ) → n < cfg0.N → Vec F S8x128 .f32 × Vec F S8x128 .f32 × Vec F S8x128 .f32 × Vec F S8x128 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 16 = 0 then
      if h1 : (n + 1) % 16 = 15 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 16 = 15 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

/-- `outsAt0` at a point of case A. -/
theorem outsAt0_A (c : Dev nD) (t : Fin cfg0.N) (h0 : t.val % 16 = 0) (h1 : ¬t.val % 16 = 15) :
    outsAt0 V c t.val t.isLt = (out0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B: over what the point before left in the scratch. -/
theorem outsAt0_B (c : Dev nD) (t : Fin cfg0.N) (h0 : ¬t.val % 16 = 0) (h1 : ¬t.val % 16 = 15) :
    outsAt0 V c t.val t.isLt = (out0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left in the scratch. -/
theorem outsAt0_C (c : Dev nD) (t : Fin cfg0.N) (h0 : ¬t.val % 16 = 0) (h1 : t.val % 16 = 15) :
    outsAt0 V c t.val t.isLt = (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The invariant before position `n`: before the first point the base invariant (every scratch at some contents);
    afterwards the two scratch buffers at what the point before left in them, the untouched scoped buffers and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restS0 c) ∗ (∃ r, prngReg c r)) := by
  cases n with
  | zero => exact absurd rfl hz
  | succ n => rfl

/-! ## The pipeline's proof data -/

/-- The proof data of the region on core `c`: the arrays as the region finds them; after the body at point `t` the
    input's buffer at its block and the output windows' buffers at `outsAt0`'s first two components; the invariant
    `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem dat0_owed (c : Dev nD) : ∀ t, (dat0 V c).owed t = 0 := fun _ => rfl
theorem dat0_q (c : Dev nD) : ∀ w, (dat0 V c).q w = fullShare := fun _ => rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input's memref holds its block; the closed forms say which case the point is in; the
    invariant hands the body the two scratch buffers at what the point before left (at some contents at the first
    point; a point whose inner coordinate is 0 forgets what they held) and takes them back at this point's contents;
    the untouched scoped buffers, the generator register and the core's debt pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
          unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t)).2.2.2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _)
            iexact HR
          iexact Hg
        isplitl [Ho]; · iexact Ho
        isplitl [H0]; · iexact H0
        isplitl [H1]; · iexists _; iexact H1
        iexists _; iexact H2
      · rw [PhiS_castSucc V c t, PhiS_pos V c _ _ hz]
        iintro ⟨⟨⟨HS0, HS1, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t)).2.2.2.2 _ _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _)
            iexact HR
          iexact Hg
        isplitl [Ho]; · iexact Ho
        isplitl [H0]; · iexact H0
        isplitl [H1]; · iexists _; iexact H1
        iexists _; iexact H2
  · by_cases h1 : t.val % 16 = 15
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1_C t (fun h => h0 ((hcond0_0 t).mp h)) ((hcond0_1 t).mpr h1)], after0_1]
      rw [show (dat0 V c).leavesExact 2 t = owns (c : Thread nD τ) (ms0_2 t) fullShare ((dat0 V c).after 2 t) from by
          unfold Dat.leavesExact; rw [liveAt0_2_C t (fun h => h0 ((hcond0_0 t).mp h)) ((hcond0_1 t).mpr h1)], after0_2]
      rw [outsAt0_C V c t h0 h1]
      unfold out0_C_1 out0_C_2 sout0_C_0 sout0_C_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩⟩
        iapply ((kernelRun0_C c (grid0.coords t) _ _ _ _ _ _ _ _ _ _ (fun h => h0 ((hcond0_0 t).mp h)) ((hcond0_1 t).mpr h1) (iblk0 V c 0 t) _ _).2.2.2.2 Set.univ _)
        isplitl [H0]; · iexact H0
        isplitl [H1]; · iexists _; iexact H1
        isplitl [H2]; · iexists _; iexact H2
        isplitl [HS0]; · iexact HS0
        isplitl [HS1]; · iexact HS1
        iintro ⟨H0, ⟨%e1, H1⟩, ⟨%e2, H2⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _)
            iexact HR
          iexact Hg
        isplitl [Ho]; · iexact Ho
        isplitl [H0]; · iexact H0
        isplitl [H1]
        · unfold owns; iexists _; isplitr
          swap; · iexact H1
          ipureintro; exact View.read_writes_of_cover _ _ _ _ _ (cover0_C_1 c _ _ _ _ _ _ _ _ _ _ _ _ _ _ _ _)
        unfold owns; iexists _; isplitr
        swap; · iexact H2
        ipureintro; exact View.read_writes_of_cover _ _ _ _ _ (cover0_C_2 c _ _ _ _ _ _ _ _ _ _ _ _ _ _ _ _)
    · rw [show (dat0 V c).leavesExact 0 t = owns (c : Thread nD τ) (ms0_0 t) fullShare ((dat0 V c).after 0 t) from by
          unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩⟩
        iapply ((kernelRun0_B c (grid0.coords t) _ _ _ _ _ _ _ _ _ _ (fun h => h0 ((hcond0_0 t).mp h)) (fun h => h1 ((hcond0_1 t).mp h)) (iblk0 V c 0 t) _ _).2.2.2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _)
            iexact HR
          iexact Hg
        isplitl [Ho]; · iexact Ho
        isplitl [H0]; · iexact H0
        isplitl [H1]; · iexists _; iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the base invariant back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.KI.R1Body.lean ====
/-
  The second region (the fused quantize-and-project call on the grid (32, 2)) as proof data: at every grid point the
  body reads its five input blocks — a [1, 32, 32768] block x of the flattened array, the [1, 4, 32] block a of the
  integer grid of the first operand, and the three scalars inv, zp, comb — and stores into the output block the single
  value (a · (clip(round(x · inv) + zp, 0, 255) − zp)) · comb. Nothing is carried from one point to the next, so the
  region's invariant is the plain one: the scoped rest and the generator register, untouched.
  Stated at a parameter V, the buffers' contents when the region is entered.
-/
import proofs.«177574_j1872605741851_2_alg».proof.Proof.Gen.KernelIdeal.Launch
import proofs.«177574_j1872605741851_2_alg».proof.Proof.Gen.KernelIdeal.Skeleton
import proofs.«177574_j1872605741851_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the entry contents at every point, whether the point fetches
    it or not: where it is not fetched the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block of the entry contents at every point, whether the point fetches
    it or not: where it is not fetched the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block of the entry contents at every point, whether the point fetches
    it or not: where it is not fetched the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block of the entry contents at every point, whether the point fetches
    it or not: where it is not fetched the block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block of the entry contents at every point, whether the point fetches
    it or not: where it is not fetched the block index has not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_x : Rect S1x32x32768 := Rect.unit (s := S1x32x32768) ![0, 0, 0] S1x32x32768.size inb_S1x32x32768_S1x32x32768_0_0_0
abbrev r1_a : Rect S1x4x32 := Rect.unit (s := S1x4x32) ![0, 0, 0] S1x4x32.size inb_S1x4x32_S1x4x32_0_0_0
abbrev r1_s : Rect S1x1 := Rect.unit (s := S1x1) ![0, 0] S1x1.size inb_S1x1_S1x1_0_0
abbrev r1_o : Rect S1x4x32768 := Rect.unit (s := S1x4x32768) ![0, 0, 0] S1x4x32768.size inb_S1x4x32768_S1x4x32768_0_0_0

/-- What the body leaves in the output window's buffer, from the five input blocks: its one store, of the
    body's arithmetic applied to the loaded blocks. -/
def out1_5 (x0 : Vec F S1x32x32768 .f32) (x1 : Vec F S1x4x32 .f32) (x2 x3 x4 : Vec F S1x1 .f32) : Vec F S1x4x32768 .f32 :=
  View.canon [⟨r1_o, k1_pay1 (View.ld x0 r1_x) (View.ld x2 r1_s) (View.ld x3 r1_s) (View.ld x1 r1_a) (View.ld x4 r1_s)⟩]

/-- The one store takes the whole buffer, so it covers it. -/
theorem cover1_5 (p0 : Vec F S1x4x32768 .f32) (y : S1x4x32768.Idx) :
    ∃ pc ∈ ([⟨r1_o, p0⟩] : List (View.Piece (Elt F) S1x4x32768 .f32)), y ∈ pc.1.set :=
  View.cover_of_tiled [⟨r1_o, p0⟩] S1x4x32768.size (by rfl) y

/-! ## The body's triple -/

set_option maxHeartbeats 1000000 in
/-- On whole staging memrefs, the inputs' at contents x0 … x4 and the output's at anything, the body runs to the
    continuation holding the inputs' as they were and the output's at out1_5 of them. -/
theorem sound_kernel1 (c : Dev nD) (E : Set ℕ) (i : grid1.Coords)
    (arg2 : Memref sig .tc .vmem S1x32x32768 .f32) (harg2 : arg2.IsWhole) (arg3 : Memref sig .tc .vmem S1x4x32 .f32) (harg3 : arg3.IsWhole)
    (arg4 : Memref sig .tc .vmem S1x1 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S1x4x32768 .f32) (harg7 : arg7.IsWhole)
    (x0 : Vec F S1x32x32768 .f32) (x1 : Vec F S1x4x32 .f32) (x2 x3 x4 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__matmul_kernel i arg2 harg2 arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The region's proof data -/

/-- The proof data of the second region on core c: the arrays as the region finds them; after the body at point t
    each input's buffer at its block and the output's at out1_5 of the input blocks; the plain invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of the program's entry function as a chain of sixteen segments — a host stretch, the first region
  (the min/max reduction), thirteen host stretches, the second region (quantize and project) — with the contents of
  every unscoped buffer named at each boundary: a host stretch applies its operations to the contents before it; a
  region leaves each of its arrays at what its write-backs fold to and every other buffer as it found it. The run
  ends with every unscoped buffer at the last boundary's contents; the two argument arrays are written by no stretch
  and are no region's output, so they end as launched.
-/
import proofs.«177574_j1872605741851_2_alg».proof.Proof.KI.R0Body
import proofs.«177574_j1872605741851_2_alg».proof.Proof.KI.R1Body
import proofs.«177574_j1872605741851_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem dat1_owed (V : (c : Dev nD) → (b : Ref sig .tc) → Buf (Elt F) ((c : Thread nD τ).loc b)) (c : Dev nD) : ∀ t, (dat1 V c).owed t = 0 := fun _ => rfl
theorem dat1_q (V : (c : Dev nD) → (b : Ref sig .tc) → Buf (Elt F) ((c : Thread nD τ).loc b)) (c : Dev nD) : ∀ w, (dat1 V c).q w = fullShare := fun _ => rfl

/-! ## The buffer contents at each segment boundary -/

/-- Core c's buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
/-- After the host stretch `hostOps1_1`. -/
abbrev W4 : Dev nD → Valuation τ sig (Elt F) := fun c => StableHlo.after hostOps1_1 (W3 m ρ c)
/-- After the host stretch `hostOps1_2`. -/
abbrev W5 : Dev nD → Valuation τ sig (Elt F) := fun c => StableHlo.after hostOps1_2 (W4 m ρ c)
/-- After the host stretch `hostOps1_3`. -/
abbrev W6 : Dev nD → Valuation τ sig (Elt F) := fun c => StableHlo.after hostOps1_3 (W5 m ρ c)
/-- After the host stretch `hostOps1_4`. -/
abbrev W7 : Dev nD → Valuation τ sig (Elt F) := fun c => StableHlo.after hostOps1_4 (W6 m ρ c)
/-- After the host stretch `hostOps1_5`. -/
abbrev W8 : Dev nD → Valuation τ sig (Elt F) := fun c => StableHlo.after hostOps1_5 (W7 m ρ c)
/-- After the host stretch `hostOps1_6`. -/
abbrev W9 : Dev nD → Valuation τ sig (Elt F) := fun c => StableHlo.after hostOps1_6 (W8 m ρ c)
/-- After the host stretch `hostOps1_7`. -/
abbrev W10 : Dev nD → Valuation τ sig (Elt F) := fun c => StableHlo.after hostOps1_7 (W9 m ρ c)
/-- After the host stretch `hostOps1_8`. -/
abbrev W11 : Dev nD → Valuation τ sig (Elt F) := fun c => StableHlo.after hostOps1_8 (W10 m ρ c)
/-- After the host stretch `hostOps1_9`. -/
abbrev W12 : Dev nD → Valuation τ sig (Elt F) := fun c => StableHlo.after hostOps1_9 (W11 m ρ c)
/-- After the host stretch `hostOps1_10`. -/
abbrev W13 : Dev nD → Valuation τ sig (Elt F) := fun c => StableHlo.after hostOps1_10 (W12 m ρ c)
/-- After the host stretch `hostOps1_11`. -/
abbrev W14 : Dev nD → Valuation τ sig (Elt F) := fun c => StableHlo.after hostOps1_11 (W13 m ρ c)
/-- After the host stretch `hostOps1_12`. -/
abbrev W15 : Dev nD → Valuation τ sig (Elt F) := fun c => StableHlo.after hostOps1_12 (W14 m ρ c)
/-- The same read at the TensorCore's references (the second region's entry). -/
abbrev U15 : (c : Dev nD) → (b : Ref sig .tc) → Buf (Elt F) ((c : Thread nD τ).loc b) := fun c b => W15 m ρ c b
/-- At the second region's exit. -/
def W16 (c : Dev nD) : Valuation τ sig (Elt F) :=
  Pipeline.withArrays spec1 c (W15 m ρ c) fun w => (dat1 (U15 m ρ) c).arrAt w cfg1.N
theorem W16_arr (c : Dev nD) (w : Fin cfg1.W) :
    W16 m ρ c (Proc.devRef .tc (Pipeline.arrRef spec1 w)) = (dat1 (U15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
abbrev U16 : (c : Dev nD) → (b : Ref sig .tc) → Buf (Elt F) ((c : Thread nD τ).loc b) := fun c b => W16 m ρ c b
theorem hF1 (c : Dev nD) (w : Fin cfg1.W) : (dat1 (U15 m ρ) c).arrAt w cfg1.N = U16 m ρ c (Pipeline.arrRef spec1 w) :=
  (W16_arr m ρ c w).symm
theorem hrest1 (c : Dev nD) : ∀ b, b ∉ Finset.univ.image (Pipeline.arrRef spec1) → U16 m ρ c b = U15 m ρ c b :=
  fun b hb => W16_of_ne m ρ c b fun w e => hb (Finset.mem_image.mpr ⟨w, Finset.mem_univ _, e⟩)

/-! ### The arguments end as launched -/

theorem W16_main_arg0 (c : Dev nD) : W16 m ρ c (Proc.devRef .tc main_arg0) = m ((c : Thread nD τ).loc main_arg0) :=
  calc W16 m ρ c (Proc.devRef .tc main_arg0)
    _ = W15 m ρ c (Proc.devRef .tc main_arg0) := W16_of_ne m ρ c main_arg0 (by decide)
    _ = W14 m ρ c (Proc.devRef .tc main_arg0) := StableHlo.after_of_writes_sub hostOps1_12 _ hostOps1_12_writes (by decide)
    _ = W13 m ρ c (Proc.devRef .tc main_arg0) := StableHlo.after_of_writes_sub hostOps1_11 _ hostOps1_11_writes (by decide)
    _ = W12 m ρ c (Proc.devRef .tc main_arg0) := StableHlo.after_of_writes_sub hostOps1_10 _ hostOps1_10_writes (by decide)
    _ = W11 m ρ c (Proc.devRef .tc main_arg0) := StableHlo.after_of_writes_sub hostOps1_9 _ hostOps1_9_writes (by decide)
    _ = W10 m ρ c (Proc.devRef .tc main_arg0) := StableHlo.after_of_writes_sub hostOps1_8 _ hostOps1_8_writes (by decide)
    _ = W9 m ρ c (Proc.devRef .tc main_arg0) := StableHlo.after_of_writes_sub hostOps1_7 _ hostOps1_7_writes (by decide)
    _ = W8 m ρ c (Proc.devRef .tc main_arg0) := StableHlo.after_of_writes_sub hostOps1_6 _ hostOps1_6_writes (by decide)
    _ = W7 m ρ c (Proc.devRef .tc main_arg0) := StableHlo.after_of_writes_sub hostOps1_5 _ hostOps1_5_writes (by decide)
    _ = W6 m ρ c (Proc.devRef .tc main_arg0) := StableHlo.after_of_writes_sub hostOps1_4 _ hostOps1_4_writes (by decide)
    _ = W5 m ρ c (Proc.devRef .tc main_arg0) := StableHlo.after_of_writes_sub hostOps1_3 _ hostOps1_3_writes (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W16_main_arg1 (c : Dev nD) : W16 m ρ c (Proc.devRef .tc main_arg1) = m ((c : Thread nD τ).loc main_arg1) :=
  calc W16 m ρ c (Proc.devRef .tc main_arg1)
    _ = W15 m ρ c (Proc.devRef .tc main_arg1) := W16_of_ne m ρ c main_arg1 (by decide)
    _ = W14 m ρ c (Proc.devRef .tc main_arg1) := StableHlo.after_of_writes_sub hostOps1_12 _ hostOps1_12_writes (by decide)
    _ = W13 m ρ c (Proc.devRef .tc main_arg1) := StableHlo.after_of_writes_sub hostOps1_11 _ hostOps1_11_writes (by decide)
    _ = W12 m ρ c (Proc.devRef .tc main_arg1) := StableHlo.after_of_writes_sub hostOps1_10 _ hostOps1_10_writes (by decide)
    _ = W11 m ρ c (Proc.devRef .tc main_arg1) := StableHlo.after_of_writes_sub hostOps1_9 _ hostOps1_9_writes (by decide)
    _ = W10 m ρ c (Proc.devRef .tc main_arg1) := StableHlo.after_of_writes_sub hostOps1_8 _ hostOps1_8_writes (by decide)
    _ = W9 m ρ c (Proc.devRef .tc main_arg1) := StableHlo.after_of_writes_sub hostOps1_7 _ hostOps1_7_writes (by decide)
    _ = W8 m ρ c (Proc.devRef .tc main_arg1) := StableHlo.after_of_writes_sub hostOps1_6 _ hostOps1_6_writes (by decide)
    _ = W7 m ρ c (Proc.devRef .tc main_arg1) := StableHlo.after_of_writes_sub hostOps1_5 _ hostOps1_5_writes (by decide)
    _ = W6 m ρ c (Proc.devRef .tc main_arg1) := StableHlo.after_of_writes_sub hostOps1_4 _ hostOps1_4_writes (by decide)
    _ = W5 m ρ c (Proc.devRef .tc main_arg1) := StableHlo.after_of_writes_sub hostOps1_3 _ hostOps1_3_writes (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-! ## The proof data family and the thread state -/

/-- Every region's proof data, each at its entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U15 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W16 m ρ c) ∗ ∃ r, prngReg c r)

/-! ## The regions as segments -/

/-- The plain region invariant from what a region is handed: the generator register, no tables, the scoped rest. -/
theorem PhiA_in0 (c : Dev nD) : (iprop((∃ r, prngReg c r) ∗ Pipeline.prefHeld (pcfgs (F := F) 0).pre c (fun _ => fullShare) (adm (F := F) 0).1 ∗ Pipeline.scopedRest spec0 c) : sProp 𝕄)
    ⊢ Pipeline.ΦA spec0 c := by
  unfold Pipeline.ΦA
  iintro ⟨Hp, -, Hr⟩
  isplitl [Hr]; · iexact Hr
  iexact Hp
/-- and what it gives back. -/
theorem PhiA_out0 (c : Dev nD) : (Pipeline.ΦA spec0 c : sProp 𝕄)
    ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

set_option backward.isDefEq.respectTransparency.types false in
/-- Region 0 over the thread state: entered from every unscoped buffer at `W1`, left at `W2`. Its arrays are
    split out of the unscoped buffers on entry and put back at their exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun c t => dat0_owed (U1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => dat0_q (U1 m ρ) c w) (U1 m ρ c) fun w => A_eq0 (U1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_in0 c).trans (hin0 (U1 m ρ) c)
  hout c := by
    rw [Pipeline.ownSems0_none]
    exact (hout0 (U1 m ρ) c).trans (PhiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => dat0_q (U1 m ρ) c w)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W15`, left at `W16`. Its arrays are
    split out of the unscoped buffers on entry and put back at their exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U15 m ρ) c).loose
  hwaits := Pipeline.hwaits_of_owed_zero _ _ _ _ L lv 1 fun c t => dat1_owed (U15 m ρ) c t
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => dat1_q (U15 m ρ) c w) (U15 m ρ c) fun w => A_eq1 (U15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => dat1_q (U15 m ρ) c w)
      (U15 m ρ c) (U16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .host (hseg hostOps1_9 hostOps1_9_sub hostOps1_9_fresh (W11 m ρ)),
    .host (hseg hostOps1_10 hostOps1_10_sub hostOps1_10_fresh (W12 m ρ)),
    .host (hseg hostOps1_11 hostOps1_11_sub hostOps1_11_fresh (W13 m ρ)),
    .host (hseg hostOps1_12 hostOps1_12_sub hostOps1_12_fresh (W14 m ρ)),
    .region (reg1 m ρ) ]

theorem main_run (c : Dev nD) : main (F := F) c = Pipeline.Seg.run (segs m ρ) := (main_chain c).trans (by chain_rfl)

set_option backward.isDefEq.respectTransparency.types false in
/-- THE RUN. From any memory with zero counters every weakly fair execution of the entry function on the TensorCores
    terminates, nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W16_main_arg0 m ρ c),
     (h c _ (mem_uc main_arg1 (by decide))).trans (W16_main_arg1 m ρ c)⟩) (run_all m ρ)

end Cert.KernelIdeal.Hand

end
-- ==== Proof.KI.R1Value.lean ====
import proofs.«177574_j1872605741851_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-! The value the second kernel's body stores, read at one element of its block.

At the ideal instance the block the body writes is, at row `t` and column `s`, the product of the
combined scale with the sum over the 32 channels `k` of the quantized left factor at `(t, k)` times the
re-quantized right factor at `(k, s)`: the right factor is multiplied by the inverse scale, rounded to
the nearest integer (ties to even), shifted by the zero point, clipped to `[0, 255]` and shifted back. -/

noncomputable section

namespace Cert.KernelIdeal.Val

open Cert.KernelIdeal Cert.KernelIdeal.Gen Idealize.ShloMosaic ValueIdx

/-! ## The contraction's operand indices -/

theorem dot_lhs_0 (i : S4x32768.Idx) (q : dot_S4x32_S32x32768_S4x32768_1_0_0_1_n_n.contr.Idx) :
    (dot_S4x32_S32x32768_S4x32768_1_0_0_1_n_n.lhsIdx i q 0).val = (i 0).val := by
  unfold DotDims.lhsIdx
  rw [dif_neg (show ¬(0 : Fin S4x32.rank) ∈ dot_S4x32_S32x32768_S4x32768_1_0_0_1_n_n.lhsBatch by decide),
    dif_pos (show (0 : Fin S4x32.rank) ∈ dot_S4x32_S32x32768_S4x32768_1_0_0_1_n_n.lhsNonContracting by decide)]
  rfl
theorem dot_lhs_1 (i : S4x32768.Idx) (q : dot_S4x32_S32x32768_S4x32768_1_0_0_1_n_n.contr.Idx) :
    (dot_S4x32_S32x32768_S4x32768_1_0_0_1_n_n.lhsIdx i q 1).val = (q ⟨0, by decide⟩).val :=
  dot_S4x32_S32x32768_S4x32768_1_0_0_1_n_n.lhsIdx_val_of_single rfl i q
theorem dot_rhs_0 (i : S4x32768.Idx) (q : dot_S4x32_S32x32768_S4x32768_1_0_0_1_n_n.contr.Idx) :
    (dot_S4x32_S32x32768_S4x32768_1_0_0_1_n_n.rhsIdx i q 0).val = (q ⟨0, by decide⟩).val :=
  dot_S4x32_S32x32768_S4x32768_1_0_0_1_n_n.rhsIdx_val_of_single rfl i q
theorem dot_rhs_1 (i : S4x32768.Idx) (q : dot_S4x32_S32x32768_S4x32768_1_0_0_1_n_n.contr.Idx) :
    (dot_S4x32_S32x32768_S4x32768_1_0_0_1_n_n.rhsIdx i q 1).val = (i 1).val := by
  unfold DotDims.rhsIdx
  rw [dif_neg (show ¬(1 : Fin S32x32768.rank) ∈ dot_S4x32_S32x32768_S4x32768_1_0_0_1_n_n.rhsBatch by decide),
    dif_pos (show (1 : Fin S32x32768.rank) ∈ dot_S4x32_S32x32768_S4x32768_1_0_0_1_n_n.rhsNonContracting by decide)]
  rfl

/-- The matmul into the zero accumulator, at `(t, s)`: the sum over the channel of the products. -/
theorem matmul_zero_apply (lhs : FVec Ideal S4x32 .bf16) (rhs : FVec Ideal S32x32768 .bf16) (tt : Fin 4) (ss : Fin 32768) :
    matmul dot_S4x32_S32x32768_S4x32768_1_0_0_1_n_n none lhs rhs (constant S4x32768 .f32 0x00000000#32) (ix2 tt ss)
      = ∑ k : Fin 32, lhs (ix2 tt k) * rhs (ix2 k ss) := by
  refine (Ideal.matmul_constant_zero_apply dot_S4x32_S32x32768_S4x32768_1_0_0_1_n_n none lhs rhs (ix2 tt ss)).trans ?_
  rw [← Equiv.sum_comp (contrEquiv1 dot_S4x32_S32x32768_S4x32768_1_0_0_1_n_n 32 rfl rfl).symm]
  refine Finset.sum_congr rfl fun k _ => ?_
  have hk := contrEquiv1_symm_val dot_S4x32_S32x32768_S4x32768_1_0_0_1_n_n 32 rfl rfl k
  have el : dot_S4x32_S32x32768_S4x32768_1_0_0_1_n_n.lhsIdx (ix2 tt ss) ((contrEquiv1 dot_S4x32_S32x32768_S4x32768_1_0_0_1_n_n 32 rfl rfl).symm k) = ix2 tt k := funext fun a => Fin.ext (by
    match a with
    | ⟨0, _⟩ => exact dot_lhs_0 _ _
    | ⟨1, _⟩ => exact (dot_lhs_1 _ _).trans hk)
  have er : dot_S4x32_S32x32768_S4x32768_1_0_0_1_n_n.rhsIdx (ix2 tt ss) ((contrEquiv1 dot_S4x32_S32x32768_S4x32768_1_0_0_1_n_n 32 rfl rfl).symm k) = ix2 k ss := funext fun a => Fin.ext (by
    match a with
    | ⟨0, _⟩ => exact (dot_rhs_0 _ _).trans hk
    | ⟨1, _⟩ => exact dot_rhs_1 _ _)
  rw [el, er]

/-! ## Layout operations of the body at an index -/

/-- A `[1, 1]` vector broadcast to `[a, b]` reads its one element everywhere. -/
theorem bcast11_apply {α : Type} {a b : ℕ} (x : (⟨2, ![1, 1]⟩ : Shape).Idx → α)
    (h : (⟨2, ![1, 1]⟩ : Shape).Broadcasts ⟨2, ![a, b]⟩) (p : Fin a) (c : Fin b) :
    broadcastTo ⟨2, ![a, b]⟩ x h (ix2 p c) = x (ix2 (0 : Fin 1) (0 : Fin 1)) :=
  broadcastTo_apply x h (ix2 p c) (ix2 (0 : Fin 1) (0 : Fin 1)) fun ax => by
    match ax with
    | ⟨0, _⟩ => rfl
    | ⟨1, _⟩ => rfl

/-- The re-quantized right factor at one element: scale by the inverse, round to nearest (ties to even), shift by the
    zero point, clip to `[0, 255]`, shift back. -/
def requant (x inv zp : EReal) : EReal :=
  min (Ideal.ofBits .f32 0x437F0000#32)
      (max (Ideal.ofBits .f32 0x00000000#32) (Ideal.liftRound Ideal.roundHalfEven (x * inv) + zp)) - zp

/-- THE STORED BLOCK AT `(0, t, s)`: the combined scale times the sum over the channels of the left factor at `(t, k)`
    times the re-quantized right factor at `(k, s)`. -/
theorem k1_pay1_apply (v0 : Vec Ideal S1x32x32768 .f32) (v2 v4 : Vec Ideal S1x1 .f32) (v18 : Vec Ideal S1x4x32 .f32)
    (v22 : Vec Ideal S1x1 .f32) (tt : Fin 4) (ss : Fin 32768) :
    k1_pay1 (F := Ideal) v0 v2 v4 v18 v22 (ix3 (0 : Fin 1) tt ss)
      = (∑ k : Fin 32, v18 (ix3 (0 : Fin 1) tt k)
            * (min (Ideal.ofBits .f32 0x437F0000#32)
                  (max (Ideal.ofBits .f32 0x00000000#32)
                    (Ideal.liftRound Ideal.roundHalfEven
                        (v0 (ix3 (0 : Fin 1) k ss) * v2 (ix2 (0 : Fin 1) (0 : Fin 1)))
                      + v4 (ix2 (0 : Fin 1) (0 : Fin 1))))
                - v4 (ix2 (0 : Fin 1) (0 : Fin 1))))
          * v22 (ix2 (0 : Fin 1) (0 : Fin 1)) := by
  unfold k1_pay1
  refine (shapeCast_ab_1ab_apply _ _ (0 : Fin 1) tt ss).trans ?_
  refine (mulf_apply _ _ _).trans ?_
  have eb : broadcastTo S4x32768 (shapeCast S1x1 v22 shapeCasts_S1x1_S1x1) broadcasts_S1x1_S4x32768 (ix2 tt ss)
      = v22 (ix2 (0 : Fin 1) (0 : Fin 1)) :=
    (bcast11_apply _ _ tt ss).trans (congrFun (shapeCast_self v22 _) _)
  refine (congrArg (_ * ·) eb).trans ?_
  refine congrArg (· * v22 (ix2 (0 : Fin 1) (0 : Fin 1))) ?_
  refine (matmul_zero_apply _ _ tt ss).trans ?_
  refine Finset.sum_congr rfl fun k _ => ?_
  have e1 : shapeCast S32x32768 v0 shapeCasts_S1x32x32768_S32x32768 (ix2 k ss) = v0 (ix3 (0 : Fin 1) k ss) :=
    shapeCast_1ab_ab_apply v0 _ k ss
  have e2 : broadcastTo S32x32768 (shapeCast S1x1 v2 shapeCasts_S1x1_S1x1) broadcasts_S1x1_S32x32768 (ix2 k ss)
      = v2 (ix2 (0 : Fin 1) (0 : Fin 1)) :=
    (bcast11_apply _ _ k ss).trans (congrFun (shapeCast_self v2 _) _)
  have e4 : broadcastTo S32x32768 (shapeCast S1x1 v4 shapeCasts_S1x1_S1x1) broadcasts_S1x1_S32x32768 (ix2 k ss)
      = v4 (ix2 (0 : Fin 1) (0 : Fin 1)) :=
    (bcast11_apply _ _ k ss).trans (congrFun (shapeCast_self v4 _) _)
  have e18 : shapeCast S4x32 v18 shapeCasts_S1x4x32_S4x32 (ix2 tt k) = v18 (ix3 (0 : Fin 1) tt k) :=
    shapeCast_1ab_ab_apply v18 _ tt k
  show shapeCast S4x32 v18 shapeCasts_S1x4x32_S4x32 (ix2 tt k)
      * (min (Ideal.ofBits .f32 0x437F0000#32) (max (Ideal.ofBits .f32 0x00000000#32)
          (Ideal.liftRound Ideal.roundHalfEven
              (shapeCast S32x32768 v0 shapeCasts_S1x32x32768_S32x32768 (ix2 k ss)
                * broadcastTo S32x32768 (shapeCast S1x1 v2 shapeCasts_S1x1_S1x1) broadcasts_S1x1_S32x32768 (ix2 k ss))
            + broadcastTo S32x32768 (shapeCast S1x1 v4 shapeCasts_S1x1_S1x1) broadcasts_S1x1_S32x32768 (ix2 k ss)))
        - broadcastTo S32x32768 (shapeCast S1x1 v4 shapeCasts_S1x1_S1x1) broadcasts_S1x1_S32x32768 (ix2 k ss)) = _
  rw [e1, e2, e4, e18]

/-- The same, with the re-quantized factor named. -/
theorem k1_pay1_apply_requant (v0 : Vec Ideal S1x32x32768 .f32) (v2 v4 : Vec Ideal S1x1 .f32) (v18 : Vec Ideal S1x4x32 .f32)
    (v22 : Vec Ideal S1x1 .f32) (tt : Fin 4) (ss : Fin 32768) :
    k1_pay1 (F := Ideal) v0 v2 v4 v18 v22 (ix3 (0 : Fin 1) tt ss)
      = (∑ k : Fin 32, v18 (ix3 (0 : Fin 1) tt k)
            * requant (v0 (ix3 (0 : Fin 1) k ss)) (v2 (ix2 (0 : Fin 1) (0 : Fin 1))) (v4 (ix2 (0 : Fin 1) (0 : Fin 1))))
          * v22 (ix2 (0 : Fin 1) (0 : Fin 1)) :=
  k1_pay1_apply v0 v2 v4 v18 v22 tt ss

end Cert.KernelIdeal.Val

end
-- ==== Proof.KI.Blocks1.lean ====
/-
  The second region's output array after its run, as one function of the five arrays it reads. Grid point (b, s) reads
  the [1, 32, 32768] block (b, ·, s) of the flattened operand, the [1, 4, 32] block b of the integer grid, and the three
  scalars; it writes the block (b, ·, s) of the result. The 64 blocks tile the result, so entry (b, t, j) of the final
  array is the body's value at row t, column j mod 32768 of block (b, j / 32768): a sum over the 32 channels k of
  a(b, t, k) · requant(x(b, k, j)), scaled once.
-/
import proofs.«177574_j1872605741851_2_alg».proof.Proof.KI.R1Body
import proofs.«177574_j1872605741851_2_alg».proof.Proof.KI.R1Value
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The result array as a function of the flattened operand x, the integer grid a and the three scalars. -/
def G1 (x : S32x32x65536.Idx → EReal) (a : S32x4x32.Idx → EReal) (inv zp comb : S1x1.Idx → EReal) : S32x4x65536.Idx → EReal := fun o =>
  (∑ k : Fin 32, a (ix3 (o 0) (o 1) k) * requant (x (ix3 (o 0) k (o 2))) (inv (ix2 (0 : Fin 1) (0 : Fin 1))) (zp (ix2 (0 : Fin 1) (0 : Fin 1))))
    * comb (ix2 (0 : Fin 1) (0 : Fin 1))

/-- The index maps over the grid: the operand block and the integer-grid block move with the output block along the
    batch axis, the operand block also along the column axis; the scalars' blocks never move. -/
theorem idx_facts1 : ∀ t : Fin cfg1.N,
    win1_0.index t (0 : Fin 3) = win1_5.index t (0 : Fin 3) ∧ win1_0.index t (1 : Fin 3) = 0 ∧ win1_0.index t (2 : Fin 3) = win1_5.index t (2 : Fin 3)
    ∧ win1_1.index t (0 : Fin 3) = win1_5.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) ≤ 31 ∧ win1_5.index t (1 : Fin 3) = 0 ∧ win1_5.index t (2 : Fin 3) ≤ 1 :=
  (by decide +kernel : ∀ t : Fin grid1.N, _)

/-- Every block of the result is some point's. -/
theorem idx_onto1 : ∀ (q0 : Fin 32) (q2 : Fin 2), ∃ t : Fin cfg1.N, win1_5.index t = ![q0.val, 0, q2.val] :=
  (by decide +kernel : ∀ (q0 : Fin 32) (q2 : Fin 2), ∃ t : Fin grid1.N, win1_5.index t = ![q0.val, 0, q2.val])

/-- What point t writes back is block t of G1 of the arrays as the region finds them. -/
theorem flushed5_eq (c : Dev nD) (t : Fin cfg1.N) :
    (dat1 V c).flushed 5 t = ((cfg1.win 5).blk t).view.read (Elt Ideal)
      (G1 (V c main_v0) (V c main_v32) (V c main_v34) (V c main_v35) (V c main_v36)) := by
  show (cfg1.win 5).cut (grid1.coords t) ((dat1 V c).after 5 t) = _
  rw [after1_5]
  unfold out1_5
  rw [View.canon_unit_zero hz3]
  simp only [View.ld_unit_zero (S := S1x32x32768) hz3, View.ld_unit_zero (S := S1x4x32) hz3, View.ld_unit_zero (S := S1x1) hz2]
  obtain ⟨e00, e01, e02, e10, e11, e12, e20, e21, e30, e31, e40, e41, b0, e51, b2⟩ := idx_facts1 t
  funext y
  show k1_pay1 (F := Ideal) (iblk1 V c 0 t) (iblk1 V c 2 t) (iblk1 V c 3 t) (iblk1 V c 1 t) (iblk1 V c 4 t) y
    = G1 (V c main_v0) (V c main_v32) (V c main_v34) (V c main_v35) (V c main_v36) (((cfg1.win 5).blk t).view.emb y)
  obtain ⟨tt, ss, rfl⟩ : ∃ (tt : Fin 4) (ss : Fin 32768), y = (ix3 (0 : Fin 1) tt ss : S1x4x32768.Idx) :=
    ⟨y 1, y 2, funext fun a => by
      match a with
      | ⟨0, _⟩ => exact Fin.ext (by have h : ((y : S1x4x32768.Idx) 0).val < 1 := ((y : S1x4x32768.Idx) 0).isLt; show ((y : S1x4x32768.Idx) 0).val = 0; omega)
      | ⟨1, _⟩ => rfl
      | ⟨2, _⟩ => rfl⟩
  refine (k1_pay1_apply_requant (iblk1 V c 0 t) (iblk1 V c 2 t) (iblk1 V c 3 t) (iblk1 V c 1 t) (iblk1 V c 4 t) tt ss).trans ?_
  unfold G1
  have r1 : ∀ k : Fin 32, iblk1 V c 1 t (ix3 (0 : Fin 1) tt k)
      = V c main_v32 (ix3 ((((cfg1.win 5).blk t).view.emb (ix3 (0 : Fin 1) tt ss : S1x4x32768.Idx)) 0) ((((cfg1.win 5).blk t).view.emb (ix3 (0 : Fin 1) tt ss : S1x4x32768.Idx)) 1) k) := fun k => by
    show V c main_v32 (((cfg1.win 1).blk t).view.emb (ix3 (0 : Fin 1) tt k : S1x4x32.Idx)) = _
    refine congrArg (V c main_v32) ?_
    funext a; apply Fin.ext
    match a with
    | ⟨0, _⟩ => show win1_1.index t (0 : Fin 3) * 1 + 1 * 0 = win1_5.index t (0 : Fin 3) * 1 + 1 * 0; omega
    | ⟨1, _⟩ => show win1_1.index t (1 : Fin 3) * 4 + 1 * tt.val = win1_5.index t (1 : Fin 3) * 4 + 1 * tt.val; omega
    | ⟨2, _⟩ => show win1_1.index t (2 : Fin 3) * 32 + 1 * k.val = k.val; omega
  have r0 : ∀ k : Fin 32, iblk1 V c 0 t (ix3 (0 : Fin 1) k ss)
      = V c main_v0 (ix3 ((((cfg1.win 5).blk t).view.emb (ix3 (0 : Fin 1) tt ss : S1x4x32768.Idx)) 0) k ((((cfg1.win 5).blk t).view.emb (ix3 (0 : Fin 1) tt ss : S1x4x32768.Idx)) 2)) := fun k => by
    show V c main_v0 (((cfg1.win 0).blk t).view.emb (ix3 (0 : Fin 1) k ss : S1x32x32768.Idx)) = _
    refine congrArg (V c main_v0) ?_
    funext a; apply Fin.ext
    match a with
    | ⟨0, _⟩ => show win1_0.index t (0 : Fin 3) * 1 + 1 * 0 = win1_5.index t (0 : Fin 3) * 1 + 1 * 0; omega
    | ⟨1, _⟩ => show win1_0.index t (1 : Fin 3) * 32 + 1 * k.val = k.val; omega
    | ⟨2, _⟩ => show win1_0.index t (2 : Fin 3) * 32768 + 1 * ss.val = win1_5.index t (2 : Fin 3) * 32768 + 1 * ss.val; omega
  have rs : ∀ (w : Fin cfg1.W) (r : Ref sig .tc), True := fun _ _ => trivial
  have r2 : iblk1 V c 2 t (ix2 (0 : Fin 1) (0 : Fin 1)) = V c main_v34 (ix2 (0 : Fin 1) (0 : Fin 1)) := by
    show V c main_v34 (((cfg1.win 2).blk t).view.emb (ix2 (0 : Fin 1) (0 : Fin 1) : S1x1.Idx)) = _
    refine congrArg (V c main_v34) ?_
    funext a; apply Fin.ext
    match a with
    | ⟨0, _⟩ => show win1_2.index t (0 : Fin 2) * 1 + 1 * 0 = 0; omega
    | ⟨1, _⟩ => show win1_2.index t (1 : Fin 2) * 1 + 1 * 0 = 0; omega
  have r3 : iblk1 V c 3 t (ix2 (0 : Fin 1) (0 : Fin 1)) = V c main_v35 (ix2 (0 : Fin 1) (0 : Fin 1)) := by
    show V c main_v35 (((cfg1.win 3).blk t).view.emb (ix2 (0 : Fin 1) (0 : Fin 1) : S1x1.Idx)) = _
    refine congrArg (V c main_v35) ?_
    funext a; apply Fin.ext
    match a with
    | ⟨0, _⟩ => show win1_3.index t (0 : Fin 2) * 1 + 1 * 0 = 0; omega
    | ⟨1, _⟩ => show win1_3.index t (1 : Fin 2) * 1 + 1 * 0 = 0; omega
  have r4 : iblk1 V c 4 t (ix2 (0 : Fin 1) (0 : Fin 1)) = V c main_v36 (ix2 (0 : Fin 1) (0 : Fin 1)) := by
    show V c main_v36 (((cfg1.win 4).blk t).view.emb (ix2 (0 : Fin 1) (0 : Fin 1) : S1x1.Idx)) = _
    refine congrArg (V c main_v36) ?_
    funext a; apply Fin.ext
    match a with
    | ⟨0, _⟩ => show win1_4.index t (0 : Fin 2) * 1 + 1 * 0 = 0; omega
    | ⟨1, _⟩ => show win1_4.index t (1 : Fin 2) * 1 + 1 * 0 = 0; omega
  rw [r2, r3, r4]
  exact congrArg (· * V c main_v36 (ix2 (0 : Fin 1) (0 : Fin 1))) (Finset.sum_congr rfl fun k _ => by rw [r1 k, r0 k])

/-- An index of the result is in point t's block iff each coordinate is in the block's range on its axis. -/
theorem mem_blk5 (t : Fin cfg1.N) (i : S32x4x65536.Idx) :
    i ∈ ((cfg1.win 5).blk t).view.set ↔ ∀ a : Fin 3, win1_5.index t a * S1x4x32768.size a ≤ (i a).val ∧ (i a).val < win1_5.index t a * S1x4x32768.size a + S1x4x32768.size a := by
  show i ∈ ((View.whole main_v37).slice (win1_5.rect t)).set ↔ _
  rw [View.set_slice_whole, Rect.mem_set_unit]
  exact Iff.rfl

/-- Every index of the result lies in the block of the point (i₀, i₂ / 32768), which writes it back. -/
theorem cover5 (i : S32x4x65536.Idx) : ∃ t : Fin cfg1.N, (cfg1.win 5).flush t = true ∧ i ∈ ((cfg1.win 5).blk t).view.set := by
  have hi0 : (i 0).val < 32 := (i 0).isLt
  have hi1 : (i 1).val < 4 := (i 1).isLt
  have hi2 : (i 2).val < 65536 := (i 2).isLt
  obtain ⟨t, ht⟩ := idx_onto1 ⟨(i 0).val, hi0⟩ ⟨(i 2).val / 32768, by omega⟩
  have q0 : win1_5.index t (0 : Fin 3) = (i 0).val := congrFun ht 0
  have q1 : win1_5.index t (1 : Fin 3) = 0 := congrFun ht 1
  have q2 : win1_5.index t (2 : Fin 3) = (i 2).val / 32768 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 4 ≤ (i 1).val ∧ (i 1).val < win1_5.index t (1 : Fin 3) * 4 + 4; omega
  | ⟨2, _⟩ => show win1_5.index t (2 : Fin 3) * 32768 ≤ (i 2).val ∧ (i 2).val < win1_5.index t (2 : Fin 3) * 32768 + 32768; omega

/-- The result array after the region: G1 of the arrays as the region finds them. -/
theorem arr5_eq (c : Dev nD) : (dat1 V c).arrAt 5 cfg1.N
    = G1 (V c main_v0) (V c main_v32) (V c main_v34) (V c main_v35) (V c main_v36) :=
  (dat1 V c).arrAt_eq_of_cover 5 _ (fun t _ => flushed5_eq V c t) cover5

end Cert.KernelIdeal.Val

end
-- ==== Proof.KI.R0Arrays.lean ====
/-
  The first region's two output arrays after its run. Grid point t = 16·h + b reads block t of the flattened operand;
  the running minimum and maximum are reset at b = 0 and written back at b = 15, into rows 8h … 8h+7 of the [16, 128]
  partial arrays. So every entry of those rows holds the minimum (maximum) over the sixteen blocks of half h, and the
  minimum (maximum) of a partial array over all its entries is that of the whole operand, whose 32 blocks tile it.
-/
import proofs.«177574_j1872605741851_2_alg».proof.Proof.KI.R0Body
import Idealize.ShloMosaic.Lib.Pipeline.Value
import Idealize.ShloMosaic.Lib.ValueIdx
import Mathlib.Order.CompleteLattice.Finset
import Mathlib.Data.EReal.Basic

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The flattened operand as the region finds it, as a function into the extended reals. -/
def flatOf (c : Dev nD) : S32x32x65536.Idx → EReal := V c main_v0

/-- The index maps over the grid: the input block index is the point's number, the output blocks' the half. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = t.val / 16 ∧ win0_1.index t (1 : Fin 2) = 0
    ∧ win0_2.index t (0 : Fin 2) = t.val / 16 ∧ win0_2.index t (1 : Fin 2) = 0 :=
  (by decide +kernel : ∀ t : Fin grid0.N, _)

/-- The minimum of the input block at point t'. -/
def blkMin (c : Dev nD) (t' : Fin cfg0.N) : EReal := ⨅ y : S1x32x65536.Idx, iblk0 V c 0 t' y
/-- The minimum over the sixteen blocks of half h of the batch. -/
def halfMin (c : Dev nD) (h : ℕ) : EReal := ⨅ (t' : Fin cfg0.N) (_ : t'.val / 16 = h), blkMin V c t'
/-- The partial-minimum array: every entry of rows 8h … 8h+7 holds half h's minimum. -/
def GMin (c : Dev nD) : S16x128.Idx → EReal := fun i => halfMin V c ((i 0).val / 8)

theorem flushed1_eq (c : Dev nD)
    (hval : ∀ t : Fin cfg0.N, t.val % 16 = 15 → ∀ j : S8x128.Idx, (outsAt0 V c t.val t.isLt).1 j = halfMin V c (t.val / 16))
    (t : Fin cfg0.N) (hf : (cfg0.win 1).flush t = true) :
    (dat0 V c).flushed 1 t = ((cfg0.win 1).blk t).view.read (Elt Ideal) (GMin V c) := by
  have h15 : t.val % 16 = 15 := (flush0_1 t).mp hf
  show (cfg0.win 1).cut (grid0.coords t) ((dat0 V c).after 1 t) = _
  rw [after0_1]
  obtain ⟨e00, e01, e02, e10, e11, e20, e21⟩ := idx_facts0 t
  funext y
  show (outsAt0 V c t.val t.isLt).1 y = GMin V c (((cfg0.win 1).blk t).view.emb y)
  rw [hval t h15 y]
  unfold GMin
  refine congrArg (halfMin V c) ?_
  have hy : ((y : S8x128.Idx) 0).val < 8 := ((y : S8x128.Idx) 0).isLt
  show t.val / 16 = (win0_1.index t (0 : Fin 2) * 8 + 1 * ((y : S8x128.Idx) 0).val) / 8
  omega

theorem mem_blk0_1 (t : Fin cfg0.N) (i : S16x128.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1_0).slice (win0_1.rect t)).set ↔ _
  rw [View.set_slice_whole, Rect.mem_set_unit]
  exact Iff.rfl

theorem cover0_1 (i : S16x128.Idx) : ∃ t : Fin cfg0.N, (cfg0.win 1).flush t = true ∧ i ∈ ((cfg0.win 1).blk t).view.set := by
  have hi0 : (i 0).val < 16 := (i 0).isLt
  have hi1 : (i 1).val < 128 := (i 1).isLt
  have hN : cfg0.N = 32 := N_0
  refine ⟨⟨16 * ((i 0).val / 8) + 15, by omega⟩, (flush0_1 _).mpr (by show (16 * ((i 0).val / 8) + 15) % 16 = 15; omega), ?_⟩
  obtain ⟨e00, e01, e02, e10, e11, e20, e21⟩ := idx_facts0 ⟨16 * ((i 0).val / 8) + 15, by omega⟩
  rw [mem_blk0_1]
  intro a
  match a with
  | ⟨0, _⟩ => show win0_1.index _ (0 : Fin 2) * 8 ≤ (i 0).val ∧ (i 0).val < win0_1.index _ (0 : Fin 2) * 8 + 8; simp only [] at e10 e20; omega
  | ⟨1, _⟩ => show win0_1.index _ (1 : Fin 2) * 128 ≤ (i 1).val ∧ (i 1).val < win0_1.index _ (1 : Fin 2) * 128 + 128; omega

/-- The partial-minimum array after the region. -/
theorem arr0_1_eq (c : Dev nD)
    (hval : ∀ t : Fin cfg0.N, t.val % 16 = 15 → ∀ j : S8x128.Idx, (outsAt0 V c t.val t.isLt).1 j = halfMin V c (t.val / 16)) :
    (dat0 V c).arrAt 1 cfg0.N = GMin V c :=
  (dat0 V c).arrAt_eq_of_cover 1 _ (fun t hf => flushed1_eq V c hval t hf) cover0_1

/-- The minimum of the partial-minimum array is the minimum of the whole flattened operand: its blocks tile the operand. -/
theorem GMin_total (c : Dev nD) : (⨅ i : S16x128.Idx, GMin V c i) = ⨅ j : S32x32x65536.Idx, flatOf V c j := by
  have hN : cfg0.N = 32 := N_0
  apply le_antisymm
  · refine le_iInf fun j => ?_
    have hj0 : (j 0).val < 32 := (j 0).isLt
    have hj1 : (j 1).val < 32 := (j 1).isLt
    have hj2 : (j 2).val < 65536 := (j 2).isLt
    have htj : (j 0).val < cfg0.N := by omega
    obtain ⟨e00, e01, e02, -⟩ := idx_facts0 ⟨(j 0).val, htj⟩
    refine (iInf_le _ (ix2 (⟨(j 0).val / 16 * 8, by omega⟩ : Fin 16) (0 : Fin 128))).trans ?_
    unfold GMin halfMin
    have hh : ((ix2 (⟨(j 0).val / 16 * 8, by omega⟩ : Fin 16) (0 : Fin 128) : S16x128.Idx) 0).val / 8 = (j 0).val / 16 := by
      show (j 0).val / 16 * 8 / 8 = (j 0).val / 16; omega
    rw [hh]
    refine (iInf₂_le (f := fun (t' : Fin cfg0.N) (_ : t'.val / 16 = (j 0).val / 16) => blkMin V c t') (⟨(j 0).val, htj⟩ : Fin cfg0.N) rfl).trans ?_
    unfold blkMin
    refine (iInf_le _ (ix3 (0 : Fin 1) (⟨(j 1).val, hj1⟩ : Fin 32) (⟨(j 2).val, hj2⟩ : Fin 65536) : S1x32x65536.Idx)).trans ?_
    refine le_of_eq ?_
    show flatOf V c (((cfg0.win 0).blk ⟨(j 0).val, htj⟩).view.emb (ix3 (0 : Fin 1) (⟨(j 1).val, hj1⟩ : Fin 32) (⟨(j 2).val, hj2⟩ : Fin 65536) : S1x32x65536.Idx)) = flatOf V c j
    refine congrArg (flatOf V c) ?_
    funext a; apply Fin.ext
    match a with
    | ⟨0, _⟩ => show win0_0.index _ (0 : Fin 3) * 1 + 1 * 0 = (j 0).val; simp only [] at e00; omega
    | ⟨1, _⟩ => show win0_0.index _ (1 : Fin 3) * 32 + 1 * (j 1).val = (j 1).val; omega
    | ⟨2, _⟩ => show win0_0.index _ (2 : Fin 3) * 65536 + 1 * (j 2).val = (j 2).val; omega
  · refine le_iInf fun i => ?_
    unfold GMin halfMin
    refine le_iInf₂ fun t' _ => ?_
    unfold blkMin
    refine le_iInf fun y => ?_
    show _ ≤ flatOf V c (((cfg0.win 0).blk t').view.emb y)
    exact iInf_le (fun j => flatOf V c j) _

/-- The maximum of the input block at point t'. -/
def blkMax (c : Dev nD) (t' : Fin cfg0.N) : EReal := ⨆ y : S1x32x65536.Idx, iblk0 V c 0 t' y
/-- The maximum over the sixteen blocks of half h of the batch. -/
def halfMax (c : Dev nD) (h : ℕ) : EReal := ⨆ (t' : Fin cfg0.N) (_ : t'.val / 16 = h), blkMax V c t'
/-- The partial-maximum array: every entry of rows 8h … 8h+7 holds half h's maximum. -/
def GMax (c : Dev nD) : S16x128.Idx → EReal := fun i => halfMax V c ((i 0).val / 8)

theorem flushed2_eq (c : Dev nD)
    (hval : ∀ t : Fin cfg0.N, t.val % 16 = 15 → ∀ j : S8x128.Idx, (outsAt0 V c t.val t.isLt).2.1 j = halfMax V c (t.val / 16))
    (t : Fin cfg0.N) (hf : (cfg0.win 2).flush t = true) :
    (dat0 V c).flushed 2 t = ((cfg0.win 2).blk t).view.read (Elt Ideal) (GMax V c) := by
  have h15 : t.val % 16 = 15 := (flush0_2 t).mp hf
  show (cfg0.win 2).cut (grid0.coords t) ((dat0 V c).after 2 t) = _
  rw [after0_2]
  obtain ⟨e00, e01, e02, e10, e11, e20, e21⟩ := idx_facts0 t
  funext y
  show (outsAt0 V c t.val t.isLt).2.1 y = GMax V c (((cfg0.win 2).blk t).view.emb y)
  rw [hval t h15 y]
  unfold GMax
  refine congrArg (halfMax V c) ?_
  have hy : ((y : S8x128.Idx) 0).val < 8 := ((y : S8x128.Idx) 0).isLt
  show t.val / 16 = (win0_2.index t (0 : Fin 2) * 8 + 1 * ((y : S8x128.Idx) 0).val) / 8
  omega

theorem mem_blk0_2 (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1_1).slice (win0_2.rect t)).set ↔ _
  rw [View.set_slice_whole, Rect.mem_set_unit]
  exact Iff.rfl

theorem cover0_2 (i : S16x128.Idx) : ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 32 := N_0
  refine ⟨⟨16 * ((i 0).val / 8) + 15, by omega⟩, (flush0_2 _).mpr (by show (16 * ((i 0).val / 8) + 15) % 16 = 15; omega), ?_⟩
  obtain ⟨e00, e01, e02, e10, e11, e20, e21⟩ := idx_facts0 ⟨16 * ((i 0).val / 8) + 15, by omega⟩
  rw [mem_blk0_2]
  intro a
  match a with
  | ⟨0, _⟩ => show win0_2.index _ (0 : Fin 2) * 8 ≤ (i 0).val ∧ (i 0).val < win0_2.index _ (0 : Fin 2) * 8 + 8; simp only [] at e10 e20; omega
  | ⟨1, _⟩ => show win0_2.index _ (1 : Fin 2) * 128 ≤ (i 1).val ∧ (i 1).val < win0_2.index _ (1 : Fin 2) * 128 + 128; omega

/-- The partial-maximum array after the region. -/
theorem arr0_2_eq (c : Dev nD)
    (hval : ∀ t : Fin cfg0.N, t.val % 16 = 15 → ∀ j : S8x128.Idx, (outsAt0 V c t.val t.isLt).2.1 j = halfMax V c (t.val / 16)) :
    (dat0 V c).arrAt 2 cfg0.N = GMax V c :=
  (dat0 V c).arrAt_eq_of_cover 2 _ (fun t hf => flushed2_eq V c hval t hf) cover0_2

/-- The maximum of the partial-maximum array is the maximum of the whole flattened operand: its blocks tile the operand. -/
theorem GMax_total (c : Dev nD) : (⨆ i : S16x128.Idx, GMax V c i) = ⨆ j : S32x32x65536.Idx, flatOf V c j := by
  have hN : cfg0.N = 32 := N_0
  apply le_antisymm
  · refine iSup_le fun i => ?_
    unfold GMax halfMax
    refine iSup₂_le fun t' _ => ?_
    unfold blkMax
    refine iSup_le fun y => ?_
    show flatOf V c (((cfg0.win 0).blk t').view.emb y) ≤ _
    exact le_iSup (fun j => flatOf V c j) _
  · refine iSup_le fun j => ?_
    have hj0 : (j 0).val < 32 := (j 0).isLt
    have hj1 : (j 1).val < 32 := (j 1).isLt
    have hj2 : (j 2).val < 65536 := (j 2).isLt
    have htj : (j 0).val < cfg0.N := by omega
    obtain ⟨e00, e01, e02, -⟩ := idx_facts0 ⟨(j 0).val, htj⟩
    refine le_trans ?_ (le_iSup _ (ix2 (⟨(j 0).val / 16 * 8, by omega⟩ : Fin 16) (0 : Fin 128)))
    unfold GMax halfMax
    have hh : ((ix2 (⟨(j 0).val / 16 * 8, by omega⟩ : Fin 16) (0 : Fin 128) : S16x128.Idx) 0).val / 8 = (j 0).val / 16 := by
      show (j 0).val / 16 * 8 / 8 = (j 0).val / 16; omega
    rw [hh]
    refine le_trans ?_ (le_iSup₂ (f := fun (t' : Fin cfg0.N) (_ : t'.val / 16 = (j 0).val / 16) => blkMax V c t') (⟨(j 0).val, htj⟩ : Fin cfg0.N) rfl)
    unfold blkMax
    refine le_trans ?_ (le_iSup _ (ix3 (0 : Fin 1) (⟨(j 1).val, hj1⟩ : Fin 32) (⟨(j 2).val, hj2⟩ : Fin 65536) : S1x32x65536.Idx))
    refine le_of_eq ?_
    show flatOf V c j = flatOf V c (((cfg0.win 0).blk ⟨(j 0).val, htj⟩).view.emb (ix3 (0 : Fin 1) (⟨(j 1).val, hj1⟩ : Fin 32) (⟨(j 2).val, hj2⟩ : Fin 65536) : S1x32x65536.Idx))
    refine congrArg (flatOf V c) ?_
    funext a; apply Fin.ext
    match a with
    | ⟨0, _⟩ => show (j 0).val = win0_0.index _ (0 : Fin 3) * 1 + 1 * 0; simp only [] at e00; omega
    | ⟨1, _⟩ => show (j 1).val = win0_0.index _ (1 : Fin 3) * 32 + 1 * (j 1).val; omega
    | ⟨2, _⟩ => show (j 2).val = win0_0.index _ (2 : Fin 3) * 65536 + 1 * (j 2).val; omega

end Cert.KernelIdeal.Val

end
-- ==== Proof.Spec.lean ====
/-
  The two whole-array functions of the certificate, as pure mathematics over the
  extended reals, and the law between them.

  `Gker` is the quantized matrix product as the kernel computes it: integer-valued
  factors multiplied and summed first, the two scales applied once to the sum, the
  right factor obtained with a product by the reciprocal scale. `Gref` is the same
  product as the reference computes it: each factor dequantized (multiplied by its
  scale) before the product, the right factor obtained with a quotient by the scale.
  Both use the affine quantization of an array by its global minimum and maximum.
-/
import Idealize.ShloMosaic.PureOps.Ideal
import Idealize.ShloMosaic.PureOps.Ideal.Laws
import Idealize.ShloMosaic.Lib.ValueIdx
import Mathlib.Order.CompleteLattice.Finset
import Mathlib.Data.EReal.Operations
import Mathlib.Tactic

noncomputable section

namespace Cert.Spec

open Idealize.ShloMosaic Idealize.ShloMosaic.ValueIdx
open scoped BigOperators

/-- The left operand's shape, `[32, 4, 32]`. -/
abbrev SA : Shape := ⟨3, ![32, 4, 32]⟩
/-- The right operand's shape, `[32, 32, 65536]`. -/
abbrev SB : Shape := ⟨3, ![32, 32, 65536]⟩
/-- The result's shape, `[32, 4, 65536]`. -/
abbrev SO : Shape := ⟨3, ![32, 4, 65536]⟩

/-- The binary32 literal `0.0`. -/
def lit0 : EReal := Ideal.ofBits .f32 0x00000000#32
/-- The binary32 literal `255.0`. -/
def lit255 : EReal := Ideal.ofBits .f32 0x437F0000#32
/-- The binary32 literal nearest `1e-8`. -/
def litEps : EReal := Ideal.ofBits .f32 0x322BCC77#32
/-- The binary32 literal `1.0`. -/
def lit1 : EReal := Ideal.ofBits .f32 0x3F800000#32
/-- The 32-bit integer `0`, converted. -/
def int0 : EReal := (((0#32 : BitVec 32).toInt : ℝ) : EReal)
/-- The 32-bit integer `255`, converted. -/
def int255 : EReal := (((255#32 : BitVec 32).toInt : ℝ) : EReal)

/-- Rounding to the nearest integer, ties to even, the infinities fixed. -/
def rne (x : EReal) : EReal := Ideal.liftRound Ideal.roundHalfEven x

/-- The lower end of the quantization range: the minimum, or `0` if that is smaller. -/
def xmin (mn : EReal) : EReal := min mn lit0
/-- The upper end of the quantization range: the maximum, or `0` if that is larger. -/
def xmax (mx : EReal) : EReal := max mx lit0
/-- The quantization step: the range over `255`, at least `1e-8`. -/
def scale (mn mx : EReal) : EReal := max (Ideal.div (xmax mx - xmin mn) lit255) litEps
/-- The zero point: the rounded `-xmin / scale`, clipped to `[0, 255]`. -/
def zp (mn mx : EReal) : EReal := min int255 (max int0 (rne (Ideal.div (-(xmin mn)) (scale mn mx))))

/-- The global minimum of the left operand. -/
def mnA (x0 : SA.Idx → EReal) : EReal := ⨅ i, x0 i
/-- The global maximum of the left operand. -/
def mxA (x0 : SA.Idx → EReal) : EReal := ⨆ i, x0 i
/-- The global minimum of the right operand. -/
def mnB (flat : SB.Idx → EReal) : EReal := ⨅ i, flat i
/-- The global maximum of the right operand. -/
def mxB (flat : SB.Idx → EReal) : EReal := ⨆ i, flat i

/-- The left operand's quantization step. -/
def scaleA (x0 : SA.Idx → EReal) : EReal := scale (mnA x0) (mxA x0)
/-- The left operand's zero point. -/
def zpA (x0 : SA.Idx → EReal) : EReal := zp (mnA x0) (mxA x0)
/-- The right operand's quantization step. -/
def scaleB (flat : SB.Idx → EReal) : EReal := scale (mnB flat) (mxB flat)
/-- The right operand's zero point. -/
def zpB (flat : SB.Idx → EReal) : EReal := zp (mnB flat) (mxB flat)

/-- The left operand's centred integer code: quotient by the step, rounded, shifted by the zero
    point, clipped to `[0, 255]` (converted integers), the zero point taken off again. -/
def aInt (x0 : SA.Idx → EReal) (i : SA.Idx) : EReal :=
  min int255 (max int0 (rne (Ideal.div (x0 i) (scaleA x0)) + zpA x0)) - zpA x0

/-- The right operand's centred integer code as the kernel forms it: PRODUCT with the reciprocal
    step, rounded, shifted, clipped to the binary32 literals `0.0` and `255.0`. -/
def bIntK (flat : SB.Idx → EReal) (j : SB.Idx) : EReal :=
  min lit255 (max lit0 (rne (flat j * Ideal.div lit1 (scaleB flat)) + zpB flat)) - zpB flat

/-- The right operand's centred integer code as the reference forms it: QUOTIENT by the step,
    rounded, shifted, clipped to the converted integers `0` and `255`. -/
def bIntR (flat : SB.Idx → EReal) (j : SB.Idx) : EReal :=
  min int255 (max int0 (rne (Ideal.div (flat j) (scaleB flat)) + zpB flat)) - zpB flat

/-- The kernel's function: the integer codes multiplied and summed over the contracted axis, the
    product of the two steps applied once. -/
def Gker (x0 : SA.Idx → EReal) (flat : SB.Idx → EReal) (o : SO.Idx) : EReal :=
  (∑ k : Fin 32, aInt x0 (ix3 (o 0) (o 1) k) * bIntK flat (ix3 (o 0) k (o 2))) * (scaleA x0 * scaleB flat)

/-- The reference's function: each code dequantized by its own step, then multiplied and summed. -/
def Gref (x0 : SA.Idx → EReal) (flat : SB.Idx → EReal) (o : SO.Idx) : EReal :=
  ∑ k : Fin 32, (aInt x0 (ix3 (o 0) (o 1) k) * scaleA x0) * (bIntR flat (ix3 (o 0) k (o 2)) * scaleB flat)

/-! ## The literals as real numbers -/

/-- The literal `0.0` is the real `0`. -/
theorem lit0_eq : lit0 = ((0 : ℝ) : EReal) := by
  rw [lit0, Ideal.ofBits_zero_f32, EReal.coe_zero]

/-- The literal `255.0` is the real `255`. -/
theorem lit255_eq : lit255 = ((255 : ℝ) : EReal) := by
  simp [lit255, Ideal.ofBits, Ideal.ieee, -EReal.coe_mul]; norm_num

/-- The literal `1.0` is the real `1`. -/
theorem lit1_eq : lit1 = ((1 : ℝ) : EReal) := by
  simp [lit1, Ideal.ofBits, Ideal.ieee, -EReal.coe_mul]; norm_num

/-- The literal nearest `1e-8` is a positive real. -/
theorem litEps_pos : ∃ e : ℝ, 0 < e ∧ litEps = (e : EReal) := by
  refine ⟨11258999 * (2 : ℝ) ^ (-50 : ℤ), by positivity, ?_⟩
  simp [litEps, Ideal.ofBits, Ideal.ieee, -EReal.coe_mul]

/-- The converted integer `0` is the real `0`. -/
theorem int0_eq : int0 = ((0 : ℝ) : EReal) := by
  have h : (0#32 : BitVec 32).toInt = 0 := by decide
  rw [int0, h, Int.cast_zero]

/-- The converted integer `255` is the real `255`. -/
theorem int255_eq : int255 = ((255 : ℝ) : EReal) := by
  have h : (255#32 : BitVec 32).toInt = 255 := by decide
  rw [int255, h]; norm_num

/-! ## Finite extended reals -/

/-- An extended real that is a real number. -/
def IsFin (x : EReal) : Prop := ∃ r : ℝ, x = (r : EReal)

theorem IsFin.of_bounds {x : EReal} {lo hi : ℝ} (h1 : (lo : EReal) ≤ x) (h2 : x ≤ (hi : EReal)) : IsFin x :=
  ⟨x.toReal, (EReal.coe_toReal (ne_top_of_le_ne_top (EReal.coe_ne_top hi) h2)
    (ne_bot_of_le_ne_bot (EReal.coe_ne_bot lo) h1)).symm⟩

theorem IsFin.min {x y : EReal} (hx : IsFin x) (hy : IsFin y) : IsFin (min x y) := by
  rcases min_choice x y with h | h <;> rw [h] <;> assumption

theorem IsFin.max {x y : EReal} (hx : IsFin x) (hy : IsFin y) : IsFin (max x y) := by
  rcases max_choice x y with h | h <;> rw [h] <;> assumption

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.sub {x y : EReal} (hx : IsFin x) (hy : IsFin y) : IsFin (x - y) := by
  obtain ⟨a, rfl⟩ := hx; obtain ⟨b, rfl⟩ := hy; exact ⟨a - b, (EReal.coe_sub a b).symm⟩

theorem IsFin.neg {x : EReal} (hx : IsFin x) : IsFin (-x) := by
  obtain ⟨a, rfl⟩ := hx; exact ⟨-a, (EReal.coe_neg a).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

/-- A quotient of a real by a nonzero real is a real. -/
theorem IsFin.div {x y : EReal} (hx : IsFin x) {s : ℝ} (hs : s ≠ 0) (hy : y = (s : EReal)) :
    IsFin (Ideal.div x y) := by
  subst hy; obtain ⟨a, rfl⟩ := hx
  rw [Ideal.div_coe hs]; exact ⟨a * (1 / s), (EReal.coe_mul a (1 / s)).symm⟩

/-- The infimum of finitely many reals over a nonempty index type is a real. -/
theorem isFin_iInf {ι : Type} [Fintype ι] [Nonempty ι] (f : ι → EReal) (hf : ∀ i, IsFin (f i)) :
    IsFin (⨅ i, f i) := by
  rw [← Finset.inf_univ_eq_iInf]
  obtain ⟨i, _, hi⟩ := Finset.exists_mem_eq_inf Finset.univ Finset.univ_nonempty f
  rw [hi]; exact hf i

/-- The supremum of finitely many reals over a nonempty index type is a real. -/
theorem isFin_iSup {ι : Type} [Fintype ι] [Nonempty ι] (f : ι → EReal) (hf : ∀ i, IsFin (f i)) :
    IsFin (⨆ i, f i) := by
  rw [← Finset.sup_univ_eq_iSup]
  obtain ⟨i, _, hi⟩ := Finset.exists_mem_eq_sup Finset.univ Finset.univ_nonempty f
  rw [hi]; exact hf i

/-- A clip to `[0, 255]` is a real, whatever is clipped. -/
theorem isFin_clip (y : EReal) : IsFin (min int255 (max int0 y)) := by
  rw [int255_eq, int0_eq]
  refine IsFin.of_bounds (lo := 0) (hi := 255) (le_min ?_ (le_max_left _ _)) (min_le_left _ _)
  exact_mod_cast (by norm_num : (0 : ℝ) ≤ 255)

/-! ## The quantization parameters are real -/

/-- The step of real extremes is a positive real. -/
theorem scale_pos {mn mx : EReal} (hmn : IsFin mn) (hmx : IsFin mx) :
    ∃ s : ℝ, 0 < s ∧ scale mn mx = (s : EReal) := by
  obtain ⟨e, he, hE⟩ := litEps_pos
  obtain ⟨q, hq⟩ : IsFin (Ideal.div (xmax mx - xmin mn) lit255) :=
    IsFin.div ((hmx.max ⟨0, lit0_eq⟩).sub (hmn.min ⟨0, lit0_eq⟩)) (s := 255) (by norm_num) lit255_eq
  refine ⟨Max.max q e, lt_max_of_lt_right he, ?_⟩
  rw [scale, hq, hE]
  exact (EReal.coe_strictMono.monotone.map_max).symm

/-- The zero point is a real. -/
theorem isFin_zp (mn mx : EReal) : IsFin (zp mn mx) := isFin_clip _

instance : Nonempty SA.Idx := ⟨ix3 (0 : Fin 32) (0 : Fin 4) (0 : Fin 32)⟩
instance : Nonempty SB.Idx := ⟨ix3 (0 : Fin 32) (0 : Fin 32) (0 : Fin 65536)⟩

/-- Multiplying by the reciprocal of a nonzero real step is dividing by it. -/
theorem mul_div_one {s : ℝ} (hs : s ≠ 0) (y : EReal) :
    y * Ideal.div lit1 (s : EReal) = Ideal.div y (s : EReal) := by
  rw [Ideal.div_coe hs, Ideal.div_coe hs, lit1_eq, ← EReal.coe_mul, one_mul]

/-- With a nonzero real step the kernel's code of the right operand is the reference's. -/
theorem bIntK_eq_bIntR (flat : SB.Idx → EReal) (h1 : ∀ i, IsFin (flat i)) (j : SB.Idx) :
    bIntK flat j = bIntR flat j := by
  obtain ⟨s, hs, hS⟩ := scale_pos (isFin_iInf flat h1) (isFin_iSup flat h1)
  have hS' : scaleB flat = (s : EReal) := hS
  rw [bIntK, bIntR, hS', mul_div_one hs.ne', lit255_eq, lit0_eq, int255_eq, int0_eq]

/-- A finite sum of reals, as extended reals. -/
theorem coe_sum {ι : Type} (S : Finset ι) (f : ι → ℝ) :
    ((∑ i ∈ S, f i : ℝ) : EReal) = ∑ i ∈ S, (f i : EReal) := by
  induction S using Finset.cons_induction with
  | empty => simp
  | cons a S ha ih => rw [Finset.sum_cons, Finset.sum_cons, EReal.coe_add, ih]

/-- The law: under finite inputs the kernel's function is the reference's. Every code and both steps
    are real numbers, the two codes of the right operand agree, and in the reals the common factor
    comes out of the sum. -/
theorem ker_eq_ref (x0 : SA.Idx → EReal) (flat : SB.Idx → EReal)
    (h0 : ∀ i, ∃ r : ℝ, x0 i = (r : EReal)) (h1 : ∀ i, ∃ r : ℝ, flat i = (r : EReal)) :
    Gker x0 flat = Gref x0 flat := by
  funext o
  obtain ⟨sa, _, hsa⟩ := scale_pos (isFin_iInf x0 h0) (isFin_iSup x0 h0)
  obtain ⟨sb, _, hsb⟩ := scale_pos (isFin_iInf flat h1) (isFin_iSup flat h1)
  have hA : scaleA x0 = (sa : EReal) := hsa
  have hB : scaleB flat = (sb : EReal) := hsb
  have ha : ∀ i, IsFin (aInt x0 i) := fun i => (isFin_clip _).sub (isFin_zp _ _)
  have hb : ∀ j, IsFin (bIntR flat j) := fun j => (isFin_clip _).sub (isFin_zp _ _)
  choose α hα using ha
  choose β hβ using hb
  simp only [Gker, Gref, bIntK_eq_bIntR flat h1, hα, hβ, hA, hB, ← EReal.coe_mul, ← coe_sum]
  rw [Finset.sum_mul]
  exact congrArg _ (Finset.sum_congr rfl fun k _ => by ring)

end Cert.Spec

end
-- ==== Proof.LibReduceInf.lean ====
/-
  Minimum and maximum reductions read at the extended reals as infimum and supremum.

  At the exact values a float minimum is `min` and a float maximum is `max` on the extended reals, the
  pattern of `+∞` is the top element and the pattern of `-∞` the bottom. A fold of `min` from the top over
  a finite set is therefore the infimum over the set, and a fold of `max` from the bottom the supremum.
  The lemmas below say so of a host reduction and of a kernel's vector reduction, over the set of source
  indices that reduce to a result index, over all source indices when every result axis has size one,
  and over the coordinates of the one reduced axis.
-/
import Idealize.ShloMosaic.PureOps.Ideal
import Idealize.ShloMosaic.PureOps.Ideal.Laws
import Idealize.ShloMosaic.PureOps.Reduce
import Idealize.ShloMosaic.Lib.ValueIdx
import Mathlib.Order.CompleteLattice.Finset

noncomputable section

namespace Cert.LibReduceInf

open Idealize.ShloMosaic Idealize.ShloMosaic.ValueIdx

/-- The binary32 pattern of `+∞` denotes the top extended real. -/
theorem ofBits_posInf_f32 : Ideal.ofBits .f32 0x7F800000#32 = ⊤ := by
  simp [Ideal.ofBits, Ideal.ieee]

/-- The binary32 pattern of `-∞` denotes the bottom extended real. -/
theorem ofBits_negInf_f32 : Ideal.ofBits .f32 0xFF800000#32 = ⊥ := by
  simp [Ideal.ofBits, Ideal.ieee]

/-- A fold from the top element of an operation that is `min` is the infimum over the set. -/
theorem fold_eq_inf {ι : Type} (op : EReal → EReal → EReal) [Std.Commutative op] [Std.Associative op]
    (hop : ∀ x y, op x y = min x y) (S : Finset ι) (f : ι → EReal) : S.fold op ⊤ f = S.inf f := by
  induction S using Finset.cons_induction with
  | empty => simp
  | cons a S ha ih => rw [Finset.fold_cons, Finset.inf_cons, ih, hop]

/-- A fold from the bottom element of an operation that is `max` is the supremum over the set. -/
theorem fold_eq_sup {ι : Type} (op : EReal → EReal → EReal) [Std.Commutative op] [Std.Associative op]
    (hop : ∀ x y, op x y = max x y) (S : Finset ι) (f : ι → EReal) : S.fold op ⊥ f = S.sup f := by
  induction S using Finset.cons_induction with
  | empty => simp
  | cons a S ha ih => rw [Finset.fold_cons, Finset.sup_cons, ih, hop]

/-! ## The host's reduction -/

/-- A host reduction with a minimum body from `+∞`, at a result index: the infimum over the set of
    source indices that reduce to it. -/
theorem hostReduce_minimumf_eq_inf {s t u : Shape} {axes : List (Fin s.rank)} (x : s.Idx → EReal)
    (h : s.ReducesTo axes t) (hu : 0 < u.numel) (j : t.Idx) :
    Host.reduce (FloatOps.minimumf (F := Ideal) (φ := .f32)) x (constant (F := Ideal) u .f32 0x7F800000#32) h hu j
      = (Finset.univ.filter fun i => h.drop i = j).inf x := by
  rw [Host.reduce_eq_fold]
  show Finset.fold _ (Ideal.ofBits .f32 0x7F800000#32) x _ = _
  rw [ofBits_posInf_f32, fold_eq_inf (FloatOps.minimumf (F := Ideal) (φ := .f32)) (fun _ _ => rfl)]

/-- A host reduction with a maximum body from `-∞`, at a result index: the supremum over the set of
    source indices that reduce to it. -/
theorem hostReduce_maximumf_eq_sup {s t u : Shape} {axes : List (Fin s.rank)} (x : s.Idx → EReal)
    (h : s.ReducesTo axes t) (hu : 0 < u.numel) (j : t.Idx) :
    Host.reduce (FloatOps.maximumf (F := Ideal) (φ := .f32)) x (constant (F := Ideal) u .f32 0xFF800000#32) h hu j
      = (Finset.univ.filter fun i => h.drop i = j).sup x := by
  rw [Host.reduce_eq_fold]
  show Finset.fold _ (Ideal.ofBits .f32 0xFF800000#32) x _ = _
  rw [ofBits_negInf_f32, fold_eq_sup (FloatOps.maximumf (F := Ideal) (φ := .f32)) (fun _ _ => rfl)]

/-- Into a shape whose every axis has size one every source index reduces to the one result index. -/
theorem filter_drop_eq_univ {s t : Shape} {axes : List (Fin s.rank)} (h : s.ReducesTo axes t)
    (ht : ∀ b, t.size b = 1) (j : t.Idx) : (Finset.univ.filter fun i => h.drop i = j) = Finset.univ :=
  Finset.filter_true_of_mem fun i _ => funext fun b => Fin.ext (by
    have := (h.drop i b).isLt; have := (j b).isLt; have := ht b; omega)

/-- A host reduction with a minimum body from `+∞` into a shape whose every axis has size one (a full
    reduction to rank zero, where the size hypothesis is vacuous): the infimum of the whole operand. -/
theorem hostReduce_minimumf_total {s t u : Shape} {axes : List (Fin s.rank)} (x : s.Idx → EReal)
    (h : s.ReducesTo axes t) (ht : ∀ b, t.size b = 1) (hu : 0 < u.numel) :
    Host.reduce (FloatOps.minimumf (F := Ideal) (φ := .f32)) x (constant (F := Ideal) u .f32 0x7F800000#32) h hu
      = fun _ => ⨅ i, x i := by
  funext j
  rw [hostReduce_minimumf_eq_inf, filter_drop_eq_univ h ht, Finset.inf_univ_eq_iInf]

/-- A host reduction with a maximum body from `-∞` into a shape whose every axis has size one: the
    supremum of the whole operand. -/
theorem hostReduce_maximumf_total {s t u : Shape} {axes : List (Fin s.rank)} (x : s.Idx → EReal)
    (h : s.ReducesTo axes t) (ht : ∀ b, t.size b = 1) (hu : 0 < u.numel) :
    Host.reduce (FloatOps.maximumf (F := Ideal) (φ := .f32)) x (constant (F := Ideal) u .f32 0xFF800000#32) h hu
      = fun _ => ⨆ i, x i := by
  funext j
  rw [hostReduce_maximumf_eq_sup, filter_drop_eq_univ h ht, Finset.sup_univ_eq_iSup]

/-! ## A kernel's vector reduction -/

/-- A kernel's minimum reduction from `+∞`, at a result index: the infimum over the set of source
    indices that reduce to it. -/
theorem multiReduction_minimumf_eq_inf {s t : Shape} {axes : List (Fin s.rank)} (src : FVec Ideal s .f32)
    (h : s.Reduces axes t) (hφ : FKind.Formats .f32) (hacc : (0x7F800000#32 : BitVec 32) = 0x7F800000#32) (j : t.Idx) :
    multiReduction (F := Ideal) .minimumf axes t src 0x7F800000#32 h hφ hacc j
      = (Finset.univ.filter fun i => h.drop i = j).inf src := by
  refine (multiReduction_minimumf_eq_fold src 0x7F800000#32 h hφ hacc j).trans ?_
  show Finset.fold _ (Ideal.ofBits .f32 0x7F800000#32) src _ = _
  rw [ofBits_posInf_f32, fold_eq_inf (FloatOps.minimumf (F := Ideal) (φ := .f32)) (fun _ _ => rfl)]

/-- A kernel's maximum reduction from `-∞`, at a result index: the supremum over the set of source
    indices that reduce to it. -/
theorem multiReduction_maximumf_eq_sup {s t : Shape} {axes : List (Fin s.rank)} (src : FVec Ideal s .f32)
    (h : s.Reduces axes t) (hφ : FKind.Formats .f32) (hacc : (0xFF800000#32 : BitVec 32) = 0xFF800000#32) (j : t.Idx) :
    multiReduction (F := Ideal) .maximumf axes t src 0xFF800000#32 h hφ hacc j
      = (Finset.univ.filter fun i => h.drop i = j).sup src := by
  refine (multiReduction_maximumf_eq_fold src 0xFF800000#32 h hφ hacc j).trans ?_
  show Finset.fold _ (Ideal.ofBits .f32 0xFF800000#32) src _ = _
  rw [ofBits_negInf_f32, fold_eq_sup (FloatOps.maximumf (F := Ideal) (φ := .f32)) (fun _ _ => rfl)]

/-- A kernel's minimum reduction over ONE axis from `+∞`, at a result index `j`: the infimum over that
    axis's coordinates `k` of the source at `j` with `k` inserted. -/
theorem multiReduction_minimumf_single {s t : Shape} {a : Fin s.rank} (src : FVec Ideal s .f32)
    (h : s.Reduces [a] t) (hφ : FKind.Formats .f32) (hacc : (0x7F800000#32 : BitVec 32) = 0x7F800000#32) (j : t.Idx) :
    multiReduction (F := Ideal) .minimumf [a] t src 0x7F800000#32 h hφ hacc j
      = ⨅ k : Fin (s.size a), src (h.lift j k) := by
  refine (multiReduction_minimumf_eq_fold src 0x7F800000#32 h hφ hacc j).trans ?_
  rw [h.fold_filter_drop_single]
  show Finset.fold _ (Ideal.ofBits .f32 0x7F800000#32) _ _ = _
  rw [ofBits_posInf_f32, fold_eq_inf (FloatOps.minimumf (F := Ideal) (φ := .f32)) (fun _ _ => rfl), Finset.inf_univ_eq_iInf]
  rfl

/-- A kernel's maximum reduction over ONE axis from `-∞`, at a result index `j`: the supremum over that
    axis's coordinates `k` of the source at `j` with `k` inserted. -/
theorem multiReduction_maximumf_single {s t : Shape} {a : Fin s.rank} (src : FVec Ideal s .f32)
    (h : s.Reduces [a] t) (hφ : FKind.Formats .f32) (hacc : (0xFF800000#32 : BitVec 32) = 0xFF800000#32) (j : t.Idx) :
    multiReduction (F := Ideal) .maximumf [a] t src 0xFF800000#32 h hφ hacc j
      = ⨆ k : Fin (s.size a), src (h.lift j k) := by
  refine (multiReduction_maximumf_eq_fold src 0xFF800000#32 h hφ hacc j).trans ?_
  rw [h.fold_filter_drop_single]
  show Finset.fold _ (Ideal.ofBits .f32 0xFF800000#32) _ _ = _
  rw [ofBits_negInf_f32, fold_eq_sup (FloatOps.maximumf (F := Ideal) (φ := .f32)) (fun _ _ => rfl), Finset.sup_univ_eq_iSup]
  rfl

end Cert.LibReduceInf

end
-- ==== Proof.KI.HostStages.lean ====
import proofs.«177574_j1872605741851_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«177574_j1872605741851_2_alg».proof.Proof.Spec
import proofs.«177574_j1872605741851_2_alg».proof.Proof.LibReduceInf

/-! The host operations between the two kernel launches, read as values.

Between the launches the program reduces the partial minima and maxima the first launch left to the global
minimum and maximum of the right operand, forms from them the quantization step and zero point of the right
operand, does the same from the left operand itself, quantizes the left operand, and hands the second launch
the reciprocal step, the zero point and the product of the two steps as one-element arrays. Each of those
arrays is read here, element by element, as a function of three arrays only: the partial minima, the partial
maxima and the left operand. Nothing between the launches writes the operands of the program. -/

noncomputable section

namespace Cert.KernelIdeal.Val

open Cert.KernelIdeal Cert.KernelIdeal.Gen Idealize.ShloMosaic Idealize.ShloMosaic.StableHlo ValueIdx

/-- The device's buffers after the host operations between the two kernel launches, from the buffers `U` at the end
    of the first launch. -/
def Wm (U : Valuation τ sig (Elt Ideal)) : Valuation τ sig (Elt Ideal) :=
  StableHlo.after hostOps1_12 (StableHlo.after hostOps1_11 (StableHlo.after hostOps1_10 (StableHlo.after hostOps1_9
    (StableHlo.after hostOps1_8 (StableHlo.after hostOps1_7 (StableHlo.after hostOps1_6 (StableHlo.after hostOps1_5
      (StableHlo.after hostOps1_4 (StableHlo.after hostOps1_3 (StableHlo.after hostOps1_2 (StableHlo.after hostOps1_1
        (StableHlo.after hostOps1 U))))))))))))

open Cert.Spec (lit0 lit1 lit255 litEps int0 int255 rne)

/-- The partial minima the first launch left. -/
abbrev pOf (U : Valuation τ sig (Elt Ideal)) : S16x128.Idx → EReal := U (Proc.devRef .tc main_v1_0)
/-- The partial maxima the first launch left. -/
abbrev qOf (U : Valuation τ sig (Elt Ideal)) : S16x128.Idx → EReal := U (Proc.devRef .tc main_v1_1)
/-- The left operand. -/
abbrev x0Of (U : Valuation τ sig (Elt Ideal)) : S32x4x32.Idx → EReal := U (Proc.devRef .tc main_arg0)

/-- A rank-zero array cast to `[1, 1]` reads its one element. -/
theorem shapeCast_scalar_11 {α : Type} (f : S_.Idx → α) (h : S_.ShapeCasts S1x1) (j : S1x1.Idx) (k : S_.Idx) :
    shapeCast S1x1 f h j = f k :=
  shapeCast_apply f h j k (by
    have h1 : (S_.rowMajor k).val < 1 := (S_.rowMajor k).isLt
    have h2 : (S1x1.rowMajor j).val < 1 := (S1x1.rowMajor j).isLt
    omega)

/-- A rank-zero array broadcast to any shape reads its one element everywhere. -/
theorem bcast_scalar_apply {α : Type} {t : Shape} (dims : Fin S_.rank → Fin t.rank) (h : S_.BroadcastsInDim t dims)
    (f : S_.Idx → α) (j : t.Idx) (k : S_.Idx) : broadcastInDim t dims h f j = f k :=
  broadcastInDim_apply dims h f j k fun a => a.elim0

/-! ## What the second launch is handed -/

set_option maxRecDepth 8192 in
set_option maxHeartbeats 4000000 in
/-- The reciprocal of the right operand's quantization step. -/
theorem Wm_v34 (U : Valuation τ sig (Elt Ideal)) (j : S1x1.Idx) :
    (Wm U (Proc.devRef .tc main_v34) : S1x1.Idx → EReal) j
      = Ideal.div lit1 (Cert.Spec.scale (⨅ i, pOf U i) (⨆ i, qOf U i)) := by
  unfold Wm
  after_results_simp
  rw [Cert.LibReduceInf.hostReduce_minimumf_total _ reducesTo_S16x128_S_d0_1 (fun b => b.elim0) h_S_,
    Cert.LibReduceInf.hostReduce_maximumf_total _ reducesTo_S16x128_S_d0_1 (fun b => b.elim0) h_S_]
  refine (shapeCast_scalar_11 _ _ j ix0).trans ?_
  rfl

set_option maxRecDepth 8192 in
set_option maxHeartbeats 4000000 in
/-- The right operand's zero point. -/
theorem Wm_v35 (U : Valuation τ sig (Elt Ideal)) (j : S1x1.Idx) :
    (Wm U (Proc.devRef .tc main_v35) : S1x1.Idx → EReal) j
      = Cert.Spec.zp (⨅ i, pOf U i) (⨆ i, qOf U i) := by
  unfold Wm
  after_results_simp
  rw [Cert.LibReduceInf.hostReduce_minimumf_total _ reducesTo_S16x128_S_d0_1 (fun b => b.elim0) h_S_,
    Cert.LibReduceInf.hostReduce_maximumf_total _ reducesTo_S16x128_S_d0_1 (fun b => b.elim0) h_S_]
  refine (shapeCast_scalar_11 _ _ j ix0).trans ?_
  rfl

set_option maxRecDepth 8192 in
set_option maxHeartbeats 4000000 in
/-- The product of the two quantization steps, the left operand's first. -/
theorem Wm_v36 (U : Valuation τ sig (Elt Ideal)) (j : S1x1.Idx) :
    (Wm U (Proc.devRef .tc main_v36) : S1x1.Idx → EReal) j
      = Cert.Spec.scaleA (x0Of U) * Cert.Spec.scale (⨅ i, pOf U i) (⨆ i, qOf U i) := by
  unfold Wm
  after_results_simp
  rw [Cert.LibReduceInf.hostReduce_minimumf_total _ reducesTo_S16x128_S_d0_1 (fun b => b.elim0) h_S_,
    Cert.LibReduceInf.hostReduce_maximumf_total _ reducesTo_S16x128_S_d0_1 (fun b => b.elim0) h_S_,
    Cert.LibReduceInf.hostReduce_minimumf_total _ reducesTo_S32x4x32_S_d0_1_2 (fun b => b.elim0) h_S_,
    Cert.LibReduceInf.hostReduce_maximumf_total _ reducesTo_S32x4x32_S_d0_1_2 (fun b => b.elim0) h_S_]
  refine (shapeCast_scalar_11 _ _ j ix0).trans ?_
  rfl

set_option maxRecDepth 8192 in
set_option maxHeartbeats 4000000 in
/-- The left operand's centred integer code, element by element. -/
theorem Wm_v32 (U : Valuation τ sig (Elt Ideal)) (i : S32x4x32.Idx) :
    (Wm U (Proc.devRef .tc main_v32) : S32x4x32.Idx → EReal) i = Cert.Spec.aInt (x0Of U) i := by
  unfold Wm
  after_results_simp
  rw [Cert.LibReduceInf.hostReduce_minimumf_total _ reducesTo_S32x4x32_S_d0_1_2 (fun b => b.elim0) h_S_,
    Cert.LibReduceInf.hostReduce_maximumf_total _ reducesTo_S32x4x32_S_d0_1_2 (fun b => b.elim0) h_S_]
  rfl

/-! ## What the host operations between the launches leave alone -/

set_option maxRecDepth 8192 in
set_option maxHeartbeats 4000000 in
/-- The flattened right operand is not written between the launches. -/
theorem Wm_v0 (U : Valuation τ sig (Elt Ideal)) :
    Wm U (Proc.devRef .tc main_v0) = U (Proc.devRef .tc main_v0) := by
  unfold Wm
  after_results_simp <;> rfl

set_option maxRecDepth 8192 in
set_option maxHeartbeats 4000000 in
/-- The left operand is not written between the launches. -/
theorem Wm_arg0 (U : Valuation τ sig (Elt Ideal)) :
    Wm U (Proc.devRef .tc main_arg0) = U (Proc.devRef .tc main_arg0) := by
  unfold Wm
  after_results_simp <;> rfl

set_option maxRecDepth 8192 in
set_option maxHeartbeats 4000000 in
/-- The right operand is not written between the launches. -/
theorem Wm_arg1 (U : Valuation τ sig (Elt Ideal)) :
    Wm U (Proc.devRef .tc main_arg1) = U (Proc.devRef .tc main_arg1) := by
  unfold Wm
  after_results_simp <;> rfl

set_option maxRecDepth 8192 in
set_option maxHeartbeats 4000000 in
/-- The partial minima are not written between the launches. -/
theorem Wm_v1_0 (U : Valuation τ sig (Elt Ideal)) :
    Wm U (Proc.devRef .tc main_v1_0) = U (Proc.devRef .tc main_v1_0) := by
  unfold Wm
  after_results_simp <;> rfl

set_option maxRecDepth 8192 in
set_option maxHeartbeats 4000000 in
/-- The partial maxima are not written between the launches. -/
theorem Wm_v1_1 (U : Valuation τ sig (Elt Ideal)) :
    Wm U (Proc.devRef .tc main_v1_1) = U (Proc.devRef .tc main_v1_1) := by
  unfold Wm
  after_results_simp <;> rfl

end Cert.KernelIdeal.Val

end
-- ==== Proof.KI.R1Spec.lean ====
import proofs.«177574_j1872605741851_2_alg».proof.Proof.KI.Blocks1
import proofs.«177574_j1872605741851_2_alg».proof.Proof.Spec
import Idealize.ShloMosaic.Lib.StableHlo.Run

/-! The second kernel's result array is the kernel's whole-array function, and the first host operation.

The result array of the second launch is, entry by entry, the combined scale times the sum over the 32
channels of the left operand's integer code times the re-quantized right operand. When the integer code,
the reciprocal step, the zero point and the product of the steps are the ones the quantization of the two
operands defines, that is the kernel's whole-array function of the two operands.

The one host operation before the first launch flattens the right operand's last two axes and writes
nothing else. -/

noncomputable section

namespace Cert.KernelIdeal.Val

open Cert.KernelIdeal Cert.KernelIdeal.Gen Idealize.ShloMosaic Idealize.ShloMosaic.StableHlo ValueIdx
open scoped BigOperators

/-- The result array of the second launch, at the quantization's own codes and scales, is the kernel's function. -/
theorem G1_eq_Gker (x0 : S32x4x32.Idx → EReal) (flat : S32x32x65536.Idx → EReal) (a : S32x4x32.Idx → EReal)
    (inv zp comb : S1x1.Idx → EReal)
    (ha : ∀ i, a i = Cert.Spec.aInt x0 i)
    (hinv : ∀ j, inv j = Ideal.div Cert.Spec.lit1 (Cert.Spec.scaleB flat))
    (hzp : ∀ j, zp j = Cert.Spec.zpB flat)
    (hcomb : ∀ j, comb j = Cert.Spec.scaleA x0 * Cert.Spec.scaleB flat) :
    G1 flat a inv zp comb = Cert.Spec.Gker x0 flat := by
  funext o
  unfold G1 Cert.Spec.Gker
  rw [hinv, hzp, hcomb]
  refine congrArg (· * (Cert.Spec.scaleA x0 * Cert.Spec.scaleB flat)) (Finset.sum_congr rfl fun k _ => ?_)
  rw [ha]
  rfl

/-- The same at one stored element: if the body's loads are the staged blocks of the flattened right operand and of the
    left operand's integer code, and the three one-element arrays hold the reciprocal step, the zero point and the
    product of the steps, the element stored at row `t`, column `s` of the block is the kernel's function at `(b, t, c)`. -/
theorem k1_pay1_eq_Gker (x0 : Cert.Spec.SA.Idx → EReal) (flat : Cert.Spec.SB.Idx → EReal) (mn mx : EReal)
    (hmn : mn = ⨅ i, flat i) (hmx : mx = ⨆ i, flat i)
    (v0 : Vec Ideal S1x32x32768 .f32) (v2 v4 : Vec Ideal S1x1 .f32) (v18 : Vec Ideal S1x4x32 .f32) (v22 : Vec Ideal S1x1 .f32)
    (b : Fin 32) (tt : Fin 4) (c : Fin 65536) (ss : Fin 32768)
    (h0 : ∀ k : Fin 32, v0 (ix3 (0 : Fin 1) k ss) = flat (ix3 b k c))
    (h18 : ∀ k : Fin 32, v18 (ix3 (0 : Fin 1) tt k) = Cert.Spec.aInt x0 (ix3 b tt k))
    (h2 : v2 (ix2 (0 : Fin 1) (0 : Fin 1)) = Ideal.div Cert.Spec.lit1 (Cert.Spec.scale mn mx))
    (h4 : v4 (ix2 (0 : Fin 1) (0 : Fin 1)) = Cert.Spec.zp mn mx)
    (h22 : v22 (ix2 (0 : Fin 1) (0 : Fin 1)) = Cert.Spec.scaleA x0 * Cert.Spec.scale mn mx) :
    k1_pay1 (F := Ideal) v0 v2 v4 v18 v22 (ix3 (0 : Fin 1) tt ss) = Cert.Spec.Gker x0 flat (ix3 b tt c) := by
  subst hmn hmx
  rw [k1_pay1_apply, h2, h4, h22]
  refine congrArg (· * (Cert.Spec.scaleA x0 * Cert.Spec.scale (⨅ i, flat i) (⨆ i, flat i))) ?_
  refine Finset.sum_congr rfl fun k _ => ?_
  rw [h0 k, h18 k]
  rfl

/-! ## The host operation before the first launch -/

/-- The flattened right operand: the right operand with its last two axes merged. -/
theorem after_hostOps0_v0 (W : Valuation τ sig (Elt Ideal)) :
    StableHlo.after hostOps0 W (Proc.devRef .tc main_v0)
      = shapeCast S32x32x65536 (W (Proc.devRef .tc main_arg1) : S32x32x256x256.Idx → EReal)
          shapeCasts_S32x32x256x256_S32x32x65536 := by
  after_results
  rfl

/-- The flattening leaves the left operand as it was. -/
theorem after_hostOps0_arg0 (W : Valuation τ sig (Elt Ideal)) :
    StableHlo.after hostOps0 W (Proc.devRef .tc main_arg0) = W (Proc.devRef .tc main_arg0) := by
  after_results

/-- The flattening leaves the right operand as it was. -/
theorem after_hostOps0_arg1 (W : Valuation τ sig (Elt Ideal)) :
    StableHlo.after hostOps0 W (Proc.devRef .tc main_arg1) = W (Proc.devRef .tc main_arg1) := by
  after_results

end Cert.KernelIdeal.Val

end
-- ==== Proof.KI.R0Value.lean ====
/- What the first grid region's two scratch buffers and two output buffers hold, point by point, as plain
   formulas. First at any float instance: each case's pieces read back as the body's combining step applied to the
   block and to what the scratch held (the neutral splat at a point whose inner coordinate is 0). Then at the exact
   extended reals: the combining step at an index is the minimum (maximum) of the scratch entry and the infimum
   (supremum) of the whole block, so after point t every scratch entry is the infimum (supremum) of the block
   infima (suprema) over the points of t's half of the grid up to t, and at the last point of a half the output
   buffers hold the same. -/
import proofs.«177574_j1872605741851_2_alg».proof.Proof.KI.R0Body
import proofs.«177574_j1872605741851_2_alg».proof.Proof.LibReduceInf
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point whose inner coordinate is 0 leaves in the minimum scratch the combining step of its block with the +∞ splat. -/
theorem soutA0_eq (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i) (x0 : Vec F S1x32x65536 .f32) :
    sout0_A_0 c i arg2 harg2 arg3 harg3 arg4 harg4 arg5 harg5 arg6 harg6 hc0 hc1 x0 = k0_pay4 x0 (k0_pay1 (F := F)) := by
  unfold sout0_A_0
  rw [View.read_writes_eq_canon _ _ _ (scover0_A_0 c i arg2 harg2 arg3 harg3 arg4 harg4 arg5 harg5 arg6 harg6 hc0 hc1 x0)]
  unfold kernelRun0_A
  dsimp only
  try sl_unfold_words
  refine (View.canon_cons_unit_zero (S := S8x128) hz2 _ _ _).trans ?_
  simp only [View.readAt_eq_ld, harg2.read_unread, harg5.read_unread, harg6.read_unread, View.ld_unit_zero (S := S1x32x65536) hz3, View.ld_unit_zero (S := S8x128) hz2, View.readCov_unit_zero (S := S8x128) _ hz2]

/-- Likewise the maximum scratch, from the −∞ splat. -/
theorem soutA1_eq (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i) (x0 : Vec F S1x32x65536 .f32) :
    sout0_A_1 c i arg2 harg2 arg3 harg3 arg4 harg4 arg5 harg5 arg6 harg6 hc0 hc1 x0 = k0_pay5 x0 (k0_pay2 (F := F)) := by
  unfold sout0_A_1
  rw [View.read_writes_eq_canon _ _ _ (scover0_A_1 c i arg2 harg2 arg3 harg3 arg4 harg4 arg5 harg5 arg6 harg6 hc0 hc1 x0)]
  unfold kernelRun0_A
  dsimp only
  try sl_unfold_words
  refine (View.canon_cons_unit_zero (S := S8x128) hz2 _ _ _).trans ?_
  simp only [View.readAt_eq_ld, harg2.read_unread, harg5.read_unread, harg6.read_unread, View.ld_unit_zero (S := S1x32x65536) hz3, View.ld_unit_zero (S := S8x128) hz2, View.readCov_unit_zero (S := S8x128) _ hz2]

/-- A middle point leaves in the minimum scratch the combining step of its block with what the scratch held. -/
theorem soutB0_eq (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i) (x0 : Vec F S1x32x65536 .f32) (xs0 xs1 : Vec F S8x128 .f32) :
    sout0_B_0 c i arg2 harg2 arg3 harg3 arg4 harg4 arg5 harg5 arg6 harg6 hc0 hc1 x0 xs0 xs1 = k0_pay4 x0 xs0 := by
  unfold sout0_B_0
  rw [View.read_writes_eq_canon _ _ _ (scover0_B_0 c i arg2 harg2 arg3 harg3 arg4 harg4 arg5 harg5 arg6 harg6 hc0 hc1 x0 xs0 xs1)]
  unfold kernelRun0_B
  dsimp only
  try sl_unfold_words
  refine (View.canon_cons_unit_zero (S := S8x128) hz2 _ _ _).trans ?_
  simp only [View.readAt_eq_ld, harg2.read_unread, harg5.read_unread, harg6.read_unread, View.ld_unit_zero (S := S1x32x65536) hz3, View.ld_unit_zero (S := S8x128) hz2, View.readCov_unit_zero (S := S8x128) _ hz2]

/-- Likewise the maximum scratch. -/
theorem soutB1_eq (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i) (x0 : Vec F S1x32x65536 .f32) (xs0 xs1 : Vec F S8x128 .f32) :
    sout0_B_1 c i arg2 harg2 arg3 harg3 arg4 harg4 arg5 harg5 arg6 harg6 hc0 hc1 x0 xs0 xs1 = k0_pay5 x0 xs1 := by
  unfold sout0_B_1
  rw [View.read_writes_eq_canon _ _ _ (scover0_B_1 c i arg2 harg2 arg3 harg3 arg4 harg4 arg5 harg5 arg6 harg6 hc0 hc1 x0 xs0 xs1)]
  unfold kernelRun0_B
  dsimp only
  try sl_unfold_words
  refine (View.canon_cons_unit_zero (S := S8x128) hz2 _ _ _).trans ?_
  simp only [View.readAt_eq_ld, harg2.read_unread, harg5.read_unread, harg6.read_unread, View.ld_unit_zero (S := S1x32x65536) hz3, View.ld_unit_zero (S := S8x128) hz2, View.readCov_unit_zero (S := S8x128) _ hz2]

/-- The last point of a half leaves in the minimum scratch the combining step of its block with what the scratch held, -/
theorem soutC0_eq (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i) (x0 : Vec F S1x32x65536 .f32) (xs0 xs1 : Vec F S8x128 .f32) :
    sout0_C_0 c i arg2 harg2 arg3 harg3 arg4 harg4 arg5 harg5 arg6 harg6 hc0 hc1 x0 xs0 xs1 = k0_pay4 x0 xs0 := by
  unfold sout0_C_0
  rw [View.read_writes_eq_canon _ _ _ (scover0_C_0 c i arg2 harg2 arg3 harg3 arg4 harg4 arg5 harg5 arg6 harg6 hc0 hc1 x0 xs0 xs1)]
  unfold kernelRun0_C
  dsimp only
  try sl_unfold_words
  refine (View.canon_cons_unit_zero (S := S8x128) hz2 _ _ _).trans ?_
  simp only [View.readAt_eq_ld, harg2.read_unread, harg5.read_unread, harg6.read_unread, View.ld_unit_zero (S := S1x32x65536) hz3, View.ld_unit_zero (S := S8x128) hz2, View.readCov_unit_zero (S := S8x128) _ hz2]

/-- likewise the maximum scratch, -/
theorem soutC1_eq (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i) (x0 : Vec F S1x32x65536 .f32) (xs0 xs1 : Vec F S8x128 .f32) :
    sout0_C_1 c i arg2 harg2 arg3 harg3 arg4 harg4 arg5 harg5 arg6 harg6 hc0 hc1 x0 xs0 xs1 = k0_pay5 x0 xs1 := by
  unfold sout0_C_1
  rw [View.read_writes_eq_canon _ _ _ (scover0_C_1 c i arg2 harg2 arg3 harg3 arg4 harg4 arg5 harg5 arg6 harg6 hc0 hc1 x0 xs0 xs1)]
  unfold kernelRun0_C
  dsimp only
  try sl_unfold_words
  refine (View.canon_cons_unit_zero (S := S8x128) hz2 _ _ _).trans ?_
  simp only [View.readAt_eq_ld, harg2.read_unread, harg5.read_unread, harg6.read_unread, View.ld_unit_zero (S := S1x32x65536) hz3, View.ld_unit_zero (S := S8x128) hz2, View.readCov_unit_zero (S := S8x128) _ hz2]

/-- and copies the new minimum scratch into the first output buffer -/
theorem outC1_eq (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i) (x0 : Vec F S1x32x65536 .f32) (xs0 xs1 : Vec F S8x128 .f32) :
    out0_C_1 c i arg2 harg2 arg3 harg3 arg4 harg4 arg5 harg5 arg6 harg6 hc0 hc1 x0 xs0 xs1 = k0_pay4 x0 xs0 := by
  unfold out0_C_1
  rw [View.read_writes_eq_canon _ _ _ (cover0_C_1 c i arg2 harg2 arg3 harg3 arg4 harg4 arg5 harg5 arg6 harg6 hc0 hc1 x0 xs0 xs1)]
  unfold kernelRun0_C
  dsimp only
  try sl_unfold_words
  refine (View.canon_cons_unit_zero (S := S8x128) hz2 _ _ _).trans ?_
  simp only [View.readAt_eq_ld, harg2.read_unread, harg5.read_unread, harg6.read_unread, View.ld_unit_zero (S := S1x32x65536) hz3, View.ld_unit_zero (S := S8x128) hz2, View.readCov_unit_zero (S := S8x128) _ hz2]

/-- and the new maximum scratch into the second. -/
theorem outC2_eq (c : Dev nD) (i : grid0.Coords) (arg2 : Memref sig .tc .vmem S1x32x65536 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i) (x0 : Vec F S1x32x65536 .f32) (xs0 xs1 : Vec F S8x128 .f32) :
    out0_C_2 c i arg2 harg2 arg3 harg3 arg4 harg4 arg5 harg5 arg6 harg6 hc0 hc1 x0 xs0 xs1 = k0_pay5 x0 xs1 := by
  unfold out0_C_2
  rw [View.read_writes_eq_canon _ _ _ (cover0_C_2 c i arg2 harg2 arg3 harg3 arg4 harg4 arg5 harg5 arg6 harg6 hc0 hc1 x0 xs0 xs1)]
  unfold kernelRun0_C
  dsimp only
  try sl_unfold_words
  refine (View.canon_cons_unit_zero (S := S8x128) hz2 _ _ _).trans ?_
  simp only [View.readAt_eq_ld, harg2.read_unread, harg5.read_unread, harg6.read_unread, View.ld_unit_zero (S := S1x32x65536) hz3, View.ld_unit_zero (S := S8x128) hz2, View.readCov_unit_zero (S := S8x128) _ hz2]

end Pieces

/-! ## The buffers point by point, at any float instance -/

section Points

variable {F : FTy → Type} [FloatOps F]
variable (V : (c : Dev nD) → (b : Ref sig .tc) → Buf (Elt F) ((c : Thread nD τ).loc b))

/-- At a point whose inner coordinate is 0 the minimum scratch is the combining step of the block with the +∞ splat. -/
theorem scr0_zero (c : Dev nD) (t : Fin cfg0.N) (h0 : t.val % 16 = 0) :
    (outsAt0 V c t.val t.isLt).2.2.1 = k0_pay4 (iblk0 V c 0 t) (k0_pay1 (F := F)) := by
  have h1 : ¬t.val % 16 = 15 := by omega
  rw [outsAt0_A V c t h0 h1]
  dsimp only; exact soutA0_eq (F := F) ..

/-- Likewise the maximum scratch, with the −∞ splat. -/
theorem scr1_zero (c : Dev nD) (t : Fin cfg0.N) (h0 : t.val % 16 = 0) :
    (outsAt0 V c t.val t.isLt).2.2.2 = k0_pay5 (iblk0 V c 0 t) (k0_pay2 (F := F)) := by
  have h1 : ¬t.val % 16 = 15 := by omega
  rw [outsAt0_A V c t h0 h1]
  dsimp only; exact soutA1_eq (F := F) ..

/-- At any other point the minimum scratch is the combining step of the block with what the point before left. -/
theorem scr0_pos (c : Dev nD) (t : Fin cfg0.N) (h0 : ¬t.val % 16 = 0) :
    (outsAt0 V c t.val t.isLt).2.2.1
      = k0_pay4 (iblk0 V c 0 t) (outsAt0 V c (t.val - 1) (Nat.lt_of_le_of_lt (Nat.sub_le _ _) t.isLt)).2.2.1 := by
  by_cases h1 : t.val % 16 = 15
  · rw [outsAt0_C V c t h0 h1]; dsimp only; exact soutC0_eq (F := F) ..
  · rw [outsAt0_B V c t h0 h1]; dsimp only; exact soutB0_eq (F := F) ..

/-- Likewise the maximum scratch. -/
theorem scr1_pos (c : Dev nD) (t : Fin cfg0.N) (h0 : ¬t.val % 16 = 0) :
    (outsAt0 V c t.val t.isLt).2.2.2
      = k0_pay5 (iblk0 V c 0 t) (outsAt0 V c (t.val - 1) (Nat.lt_of_le_of_lt (Nat.sub_le _ _) t.isLt)).2.2.2 := by
  by_cases h1 : t.val % 16 = 15
  · rw [outsAt0_C V c t h0 h1]; dsimp only; exact soutC1_eq (F := F) ..
  · rw [outsAt0_B V c t h0 h1]; dsimp only; exact soutB1_eq (F := F) ..

/-- At the last point of a half the first output buffer holds what the minimum scratch holds, -/
theorem out1_last (c : Dev nD) (t : Fin cfg0.N) (h1 : t.val % 16 = 15) :
    (outsAt0 V c t.val t.isLt).1 = (outsAt0 V c t.val t.isLt).2.2.1 := by
  have h0 : ¬t.val % 16 = 0 := by omega
  rw [outsAt0_C V c t h0 h1]
  dsimp only; exact (outC1_eq (F := F) ..).trans (soutC0_eq (F := F) ..).symm

/-- and the second what the maximum scratch holds. -/
theorem out2_last (c : Dev nD) (t : Fin cfg0.N) (h1 : t.val % 16 = 15) :
    (outsAt0 V c t.val t.isLt).2.1 = (outsAt0 V c t.val t.isLt).2.2.2 := by
  have h0 : ¬t.val % 16 = 0 := by omega
  rw [outsAt0_C V c t h0 h1]
  dsimp only; exact (outC2_eq (F := F) ..).trans (soutC1_eq (F := F) ..).symm

end Points

/-! ## The combining steps at the exact extended reals -/

section Exact

open Cert.LibReduceInf

/-- A one-element shape has one index. -/
theorem idxS1_eq (a b : S1.Idx) : a = b :=
  funext fun k => Fin.ext (by
    have hk : S1.size k = 1 := by fin_cases k; rfl
    have := (a k).isLt; have := (b k).isLt; omega)

/-- The two nested minimum reductions of a block (over the long axis, then over the rows), from +∞, are the infimum
    of the whole block: a shape cast only renames the indices. -/
theorem blockInf (x : FVec Ideal S1x32x65536 .f32) (j' : S1.Idx) :
    multiReduction (F := Ideal) .minimumf [0] S1
        (shapeCast S32x1 (multiReduction (F := Ideal) .minimumf [1] S32 (shapeCast S32x65536 x shapeCasts_S1x32x65536_S32x65536) 0x7F800000#32 reduces_S32x65536_S32 (.inl rfl) rfl) shapeCasts_S32_S32x1)
        0x7F800000#32 reduces_S32x1_S1 (.inl rfl) rfl j'
      = ⨅ y, x y := by
  refine (multiReduction_minimumf_eq_inf _ reduces_S32x1_S1 (.inl rfl) rfl j').trans ?_
  rw [Finset.filter_true_of_mem (fun i _ => idxS1_eq _ _), Finset.inf_univ_eq_iInf]
  unfold shapeCast
  rw [Equiv.iInf_comp (g := fun k => multiReduction (F := Ideal) .minimumf [1] S32 (fun j => x (Shape.reshapeEquiv shapeCasts_S1x32x65536_S32x65536 j)) 0x7F800000#32 reduces_S32x65536_S32 (.inl rfl) rfl k) (Shape.reshapeEquiv shapeCasts_S32_S32x1)]
  refine (iInf_congr fun k => multiReduction_minimumf_eq_inf _ reduces_S32x65536_S32 (.inl rfl) rfl k).trans ?_
  refine le_antisymm (le_iInf fun y => ?_) (le_iInf fun k => Finset.le_inf fun i _ => iInf_le x _)
  obtain ⟨i0, rfl⟩ : ∃ i0, Shape.reshapeEquiv shapeCasts_S1x32x65536_S32x65536 i0 = y := ⟨_, Equiv.apply_symm_apply _ y⟩
  exact (iInf_le _ (reduces_S32x65536_S32.drop i0)).trans
    (Finset.inf_le (f := fun j => x (Shape.reshapeEquiv shapeCasts_S1x32x65536_S32x65536 j)) (b := i0) (Finset.mem_filter.mpr ⟨Finset.mem_univ _, rfl⟩))

/-- The same for the maximum, from −∞: the supremum of the whole block. -/
theorem blockSup (x : FVec Ideal S1x32x65536 .f32) (j' : S1.Idx) :
    multiReduction (F := Ideal) .maximumf [0] S1
        (shapeCast S32x1 (multiReduction (F := Ideal) .maximumf [1] S32 (shapeCast S32x65536 x shapeCasts_S1x32x65536_S32x65536) 0xFF800000#32 reduces_S32x65536_S32 (.inl rfl) rfl) shapeCasts_S32_S32x1)
        0xFF800000#32 reduces_S32x1_S1 (.inl rfl) rfl j'
      = ⨆ y, x y := by
  refine (multiReduction_maximumf_eq_sup _ reduces_S32x1_S1 (.inl rfl) rfl j').trans ?_
  rw [Finset.filter_true_of_mem (fun i _ => idxS1_eq _ _), Finset.sup_univ_eq_iSup]
  unfold shapeCast
  rw [Equiv.iSup_comp (g := fun k => multiReduction (F := Ideal) .maximumf [1] S32 (fun j => x (Shape.reshapeEquiv shapeCasts_S1x32x65536_S32x65536 j)) 0xFF800000#32 reduces_S32x65536_S32 (.inl rfl) rfl k) (Shape.reshapeEquiv shapeCasts_S32_S32x1)]
  refine (iSup_congr fun k => multiReduction_maximumf_eq_sup _ reduces_S32x65536_S32 (.inl rfl) rfl k).trans ?_
  refine le_antisymm (iSup_le fun k => Finset.sup_le fun i _ => le_iSup x _) (iSup_le fun y => ?_)
  obtain ⟨i0, rfl⟩ : ∃ i0, Shape.reshapeEquiv shapeCasts_S1x32x65536_S32x65536 i0 = y := ⟨_, Equiv.apply_symm_apply _ y⟩
  exact le_iSup_of_le (reduces_S32x65536_S32.drop i0)
    (Finset.le_sup (f := fun j => x (Shape.reshapeEquiv shapeCasts_S1x32x65536_S32x65536 j)) (b := i0) (Finset.mem_filter.mpr ⟨Finset.mem_univ _, rfl⟩))

/-- The minimum step at an index: the minimum of the scratch entry and the block's infimum. -/
theorem pay4_apply (x : FVec Ideal S1x32x65536 .f32) (s : FVec Ideal S8x128 .f32) (j : S8x128.Idx) :
    k0_pay4 (F := Ideal) x s j = min (s j) (⨅ y, x y) := by
  unfold k0_pay4 k0_pay3
  dsimp only
  rw [shapeCast_self]
  show min (s j) _ = _
  congr 1
  unfold broadcastTo
  rw [shapeCast_self]
  show multiReduction (F := Ideal) .minimumf [0] S1 _ 0x7F800000#32 reduces_S32x1_S1 (.inl rfl) rfl _ = _
  exact blockInf x _

/-- The maximum step at an index: the maximum of the scratch entry and the block's supremum. -/
theorem pay5_apply (x : FVec Ideal S1x32x65536 .f32) (s : FVec Ideal S8x128 .f32) (j : S8x128.Idx) :
    k0_pay5 (F := Ideal) x s j = max (s j) (⨆ y, x y) := by
  unfold k0_pay5 k0_pay3
  dsimp only
  rw [shapeCast_self]
  show max (s j) _ = _
  congr 1
  unfold broadcastTo
  rw [shapeCast_self]
  show multiReduction (F := Ideal) .maximumf [0] S1 _ 0xFF800000#32 reduces_S32x1_S1 (.inl rfl) rfl _ = _
  exact blockSup x _

/-- The +∞ splat is the top element at every index, the −∞ splat the bottom. -/
theorem pay1_apply (j : S8x128.Idx) : k0_pay1 (F := Ideal) j = (⊤ : EReal) := by
  unfold k0_pay1; (try dsimp only); rw [shapeCast_self]; exact ofBits_posInf_f32
theorem pay2_apply (j : S8x128.Idx) : k0_pay2 (F := Ideal) j = (⊥ : EReal) := by
  unfold k0_pay2; (try dsimp only); rw [shapeCast_self]; exact ofBits_negInf_f32

end Exact

/-! ## The closed forms at the exact extended reals -/

section Closed

variable (V : (c : Dev nD) → (b : Ref sig .tc) → Buf (Elt Ideal) ((c : Thread nD τ).loc b))

/-- The infimum and the supremum of the input block at point `t`. -/
def blkMin (c : Dev nD) (t : Fin cfg0.N) : EReal := ⨅ y : S1x32x65536.Idx, (iblk0 V c 0 t : FVec Ideal S1x32x65536 .f32) y
def blkMax (c : Dev nD) (t : Fin cfg0.N) : EReal := ⨆ y : S1x32x65536.Idx, (iblk0 V c 0 t : FVec Ideal S1x32x65536 .f32) y

/-- The points of position `n`'s half of the grid up to `n`. -/
def upTo (n : ℕ) : Finset (Fin cfg0.N) := Finset.univ.filter fun t' => t'.val / 16 = n / 16 ∧ t'.val ≤ n

theorem mem_upTo (n : ℕ) (t' : Fin cfg0.N) : t' ∈ upTo n ↔ t'.val / 16 = n / 16 ∧ t'.val ≤ n := by
  unfold upTo; rw [Finset.mem_filter]; exact ⟨fun h => h.2, fun h => ⟨Finset.mem_univ _, h⟩⟩

/-- At the first point of a half: that point alone. -/
theorem upTo_first (t : Fin cfg0.N) (h0 : t.val % 16 = 0) : upTo t.val = {t} := by
  ext t'
  rw [mem_upTo, Finset.mem_singleton, Fin.ext_iff]
  omega

/-- At any other point: that point and the points up to the one before. -/
theorem upTo_next (t : Fin cfg0.N) (h0 : ¬t.val % 16 = 0) : upTo t.val = insert t (upTo (t.val - 1)) := by
  ext t'
  rw [mem_upTo, Finset.mem_insert, mem_upTo, Fin.ext_iff]
  omega

/-- At the last point of a half: the whole half. -/
theorem upTo_last (t : Fin cfg0.N) (h1 : t.val % 16 = 15) :
    upTo t.val = Finset.univ.filter fun t' : Fin cfg0.N => t'.val / 16 = t.val / 16 := by
  ext t'
  rw [mem_upTo, Finset.mem_filter]
  constructor
  · exact fun h => ⟨Finset.mem_univ _, h.1⟩
  · exact fun h => ⟨h.2, by have := h.2; omega⟩

/-- After position `n` every entry of the minimum scratch is the infimum, and every entry of the maximum scratch
    the supremum, of the block infima (suprema) over the points of `n`'s half up to `n`. -/
theorem scr_closed (c : Dev nD) : ∀ (n : ℕ) (hn : n < cfg0.N) (j : S8x128.Idx),
    (outsAt0 (F := Ideal) V c n hn).2.2.1 j = (upTo n).inf (blkMin V c)
      ∧ (outsAt0 (F := Ideal) V c n hn).2.2.2 j = (upTo n).sup (blkMax V c) := by
  intro n
  induction n using Nat.strong_induction_on with
  | _ n ih =>
    intro hn j
    by_cases h0 : n % 16 = 0
    · have e0 := congrFun (scr0_zero V c ⟨n, hn⟩ h0) j
      have e1 := congrFun (scr1_zero V c ⟨n, hn⟩ h0) j
      rw [pay4_apply, pay1_apply] at e0
      rw [pay5_apply, pay2_apply] at e1
      have hu := upTo_first ⟨n, hn⟩ h0
      dsimp only at e0 e1 hu
      rw [hu, Finset.inf_singleton, Finset.sup_singleton]
      exact ⟨e0.trans (min_eq_right le_top), e1.trans (max_eq_right bot_le)⟩
    · have e0 := congrFun (scr0_pos V c ⟨n, hn⟩ h0) j
      have e1 := congrFun (scr1_pos V c ⟨n, hn⟩ h0) j
      rw [pay4_apply] at e0
      rw [pay5_apply] at e1
      have hu := upTo_next ⟨n, hn⟩ h0
      dsimp only at e0 e1 hu
      have ihp := ih (n - 1) (by omega) (Nat.lt_of_le_of_lt (Nat.sub_le _ _) hn) j
      rw [ihp.1] at e0
      rw [ihp.2] at e1
      rw [hu, Finset.inf_insert, Finset.sup_insert]
      exact ⟨e0.trans (min_comm _ _), e1.trans (max_comm _ _)⟩

/-- The same at a point. -/
theorem scr0_closed (c : Dev nD) (t : Fin cfg0.N) (j : S8x128.Idx) :
    (outsAt0 (F := Ideal) V c t.val t.isLt).2.2.1 j = (upTo t.val).inf (blkMin V c) := (scr_closed V c t.val t.isLt j).1
theorem scr1_closed (c : Dev nD) (t : Fin cfg0.N) (j : S8x128.Idx) :
    (outsAt0 (F := Ideal) V c t.val t.isLt).2.2.2 j = (upTo t.val).sup (blkMax V c) := (scr_closed V c t.val t.isLt j).2

/-- At the last point of a half every entry of the first output buffer is the infimum of the block infima over the
    half's 16 points, -/
theorem out1_closed (c : Dev nD) (t : Fin cfg0.N) (h1 : t.val % 16 = 15) (j : S8x128.Idx) :
    (outsAt0 (F := Ideal) V c t.val t.isLt).1 j
      = (Finset.univ.filter fun t' : Fin cfg0.N => t'.val / 16 = t.val / 16).inf (blkMin V c) := by
  rw [out1_last V c t h1, scr0_closed, upTo_last t h1]

/-- and every entry of the second the supremum of the block suprema. -/
theorem out2_closed (c : Dev nD) (t : Fin cfg0.N) (h1 : t.val % 16 = 15) (j : S8x128.Idx) :
    (outsAt0 (F := Ideal) V c t.val t.isLt).2.1 j
      = (Finset.univ.filter fun t' : Fin cfg0.N => t'.val / 16 = t.val / 16).sup (blkMax V c) := by
  rw [out2_last V c t h1, scr1_closed, upTo_last t h1]

end Closed

end Cert.KernelIdeal.Hand

end
-- ==== Proof.KI.KerValue.lean ====
/-
  The kernel program's result as one function of its two arguments. Following the buffers through the run: the first host
  stretch reshapes the second argument into the flattened operand; the first region leaves the two partial arrays, whose
  overall minimum and maximum are the operand's; the host stretches turn those and the first argument into the
  reciprocal step, the zero point, the combined step and the first operand's integer grid; the second region leaves the
  result array at the body's formula of those five arrays — the closed form of the specification.
-/
import proofs.«177574_j1872605741851_2_alg».proof.Proof.KI.Run
import proofs.«177574_j1872605741851_2_alg».proof.Proof.KI.Blocks1
import proofs.«177574_j1872605741851_2_alg».proof.Proof.KI.R0Arrays
import proofs.«177574_j1872605741851_2_alg».proof.Proof.KI.HostStages
import proofs.«177574_j1872605741851_2_alg».proof.Proof.KI.R1Spec
import proofs.«177574_j1872605741851_2_alg».proof.Proof.KI.R0Value
import proofs.«177574_j1872605741851_2_alg».proof.Proof.Spec

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- At a point that writes back, the first output buffer holds its half's minimum. -/
theorem hvalMin (V : (c : Dev nD) → (b : Ref sig .tc) → Buf (Elt Ideal) ((c : Thread nD τ).loc b)) (c : Dev nD) :
    ∀ t : Fin cfg0.N, t.val % 16 = 15 → ∀ j : S8x128.Idx, (outsAt0 V c t.val t.isLt).1 j = halfMin V c (t.val / 16) := fun t h j => by
  rw [Cert.KernelIdeal.Hand.out1_closed V c t h j, Finset.inf_eq_iInf]
  unfold halfMin
  simp only [Finset.mem_filter, Finset.mem_univ, true_and]
  rfl
/-- and the second its half's maximum. -/
theorem hvalMax (V : (c : Dev nD) → (b : Ref sig .tc) → Buf (Elt Ideal) ((c : Thread nD τ).loc b)) (c : Dev nD) :
    ∀ t : Fin cfg0.N, t.val % 16 = 15 → ∀ j : S8x128.Idx, (outsAt0 V c t.val t.isLt).2.1 j = halfMax V c (t.val / 16) := fun t h j => by
  rw [Cert.KernelIdeal.Hand.out2_closed V c t h j, Finset.sup_eq_iSup]
  unfold halfMax
  simp only [Finset.mem_filter, Finset.mem_univ, true_and]
  rfl

variable (m : (ℓ : Loc nD τ sig) → Buf (Elt Ideal) ℓ) (ρ : Dev nD → PrngReg)

/-- The first argument on core c. -/
def x0Arg (c : Dev nD) : S32x4x32.Idx → EReal := m ((c : Thread nD τ).loc main_arg0)
/-- The flattened operand on core c: the second argument reshaped. -/
def flatArg (c : Dev nD) : S32x32x65536.Idx → EReal :=
  shapeCast S32x32x65536 (m ((c : Thread nD τ).loc main_arg1)) shapeCasts_S32x32x256x256_S32x32x65536

/-- After the first host stretch the flattened operand's buffer holds the reshape. -/
theorem W1_v0 (c : Dev nD) : (W1 m ρ c (Proc.devRef .tc main_v0) : S32x32x65536.Idx → EReal) = flatArg m c :=
  after_hostOps0_v0 (W0 m ρ c)

/-- The first region reads the flattened operand and leaves it as found. -/
theorem W2_v0 (c : Dev nD) : W2 m ρ c (Proc.devRef .tc main_v0) = W1 m ρ c (Proc.devRef .tc main_v0) :=
  (W2_arr m ρ c 0).trans (((dat0 (U1 m ρ) c).arrAt_in 0 rfl _).trans (A_eq0 (U1 m ρ) c 0))

/-- Neither the first stretch nor the first region touches the first argument. -/
theorem W2_arg0 (c : Dev nD) : (W2 m ρ c (Proc.devRef .tc main_arg0) : S32x4x32.Idx → EReal) = x0Arg m c :=
  (W2_of_ne m ρ c main_arg0 (by decide)).trans (StableHlo.after_of_writes_sub hostOps0 _ hostOps0_writes (by decide))

theorem flatOf_U1 (c : Dev nD) : flatOf (U1 m ρ) c = flatArg m c := W1_v0 m ρ c

/-- The partial-minimum array the first region leaves. -/
theorem W2_v1_0 (c : Dev nD) : (W2 m ρ c (Proc.devRef .tc main_v1_0) : S16x128.Idx → EReal) = GMin (U1 m ρ) c :=
  (W2_arr m ρ c 1).trans (arr0_1_eq (U1 m ρ) c (hvalMin (U1 m ρ) c))
/-- The partial-maximum array the first region leaves. -/
theorem W2_v1_1 (c : Dev nD) : (W2 m ρ c (Proc.devRef .tc main_v1_1) : S16x128.Idx → EReal) = GMax (U1 m ρ) c :=
  (W2_arr m ρ c 2).trans (arr0_2_eq (U1 m ρ) c (hvalMax (U1 m ρ) c))

/-- The buffers when the second region is entered are the thirteen host stretches applied to those the first left. -/
theorem W15_eq (c : Dev nD) : W15 m ρ c = Wm (W2 m ρ c) := rfl

theorem inf_p (c : Dev nD) : (⨅ i, pOf (W2 m ρ c) i) = Cert.Spec.mnB (flatArg m c) := by
  have h : pOf (W2 m ρ c) = GMin (U1 m ρ) c := W2_v1_0 m ρ c
  rw [h, GMin_total, flatOf_U1]; rfl
theorem sup_q (c : Dev nD) : (⨆ i, qOf (W2 m ρ c) i) = Cert.Spec.mxB (flatArg m c) := by
  have h : qOf (W2 m ρ c) = GMax (U1 m ρ) c := W2_v1_1 m ρ c
  rw [h, GMax_total, flatOf_U1]; rfl
theorem x0Of_W2 (c : Dev nD) : x0Of (W2 m ρ c) = x0Arg m c := W2_arg0 m ρ c

/-- THE KERNEL'S RESULT: the result buffer at the end of the run holds the specification's kernel form of the arguments. -/
theorem result_eq (c : Dev nD) :
    (W16 m ρ c (Proc.devRef .tc main_v37) : S32x4x65536.Idx → EReal) = Cert.Spec.Gker (x0Arg m c) (flatArg m c) := by
  refine ((W16_arr m ρ c 5).trans (arr5_eq (U15 m ρ) c)).trans ?_
  have hx : (U15 m ρ c main_v0 : S32x32x65536.Idx → EReal) = flatArg m c :=
    ((congrFun (W15_eq m ρ c) _).trans (Wm_v0 (W2 m ρ c))).trans ((W2_v0 m ρ c).trans (W1_v0 m ρ c))
  refine (congrArg (fun x => G1 x (U15 m ρ c main_v32) (U15 m ρ c main_v34) (U15 m ρ c main_v35) (U15 m ρ c main_v36)) hx).trans ?_
  have hsB : Cert.Spec.scaleB (flatArg m c) = Cert.Spec.scale (⨅ i, pOf (W2 m ρ c) i) (⨆ i, qOf (W2 m ρ c) i) := by
    rw [inf_p, sup_q]; rfl
  have hzB : Cert.Spec.zpB (flatArg m c) = Cert.Spec.zp (⨅ i, pOf (W2 m ρ c) i) (⨆ i, qOf (W2 m ρ c) i) := by
    rw [inf_p, sup_q]; rfl
  exact G1_eq_Gker (x0Arg m c) (flatArg m c) _ _ _ _
    (fun i => by rw [← x0Of_W2 m ρ c]; exact Wm_v32 (W2 m ρ c) i)
    (fun j => by rw [hsB]; exact Wm_v34 (W2 m ρ c) j)
    (fun j => by rw [hzB]; exact Wm_v35 (W2 m ρ c) j)
    (fun j => by rw [hsB, ← x0Of_W2 m ρ c]; exact Wm_v36 (W2 m ρ c) j)

end Cert.KernelIdeal.Val

end
-- ==== Proof.PreFinite.lean ====
import proofs.«177574_j1872605741851_2_alg».proof.Pre_finite_inputs
import proofs.«177574_j1872605741851_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

/-! From the precondition to "every entry of both operands is a real number".

The precondition is a predicate computed from the two operands: for each operand, compare the absolute value
of every entry with `+∞`, take the conjunction of all the comparisons, and take the conjunction of the two
results. At the exact values the absolute value of `x` is `max x (-x)`, which is below `+∞` exactly when
`x` is neither infinity. So the predicate holds only if every entry of both operands is a real number. The
same then holds of the right operand with its last two axes merged, since each entry of a reshaped array is
an entry of the array. -/

noncomputable section

namespace Cert.PreFinite

open Idealize.ShloMosaic Idealize.ShloMosaic.ValueIdx

/-- The rank-zero shape has one index. -/
instance subsingleton_scalar_idx : Subsingleton (⟨0, ![]⟩ : Shape).Idx := ⟨fun a b => funext fun d => d.elim0⟩

/-- The binary32 pattern of `+∞` denotes the top extended real. -/
theorem ofBits_posInf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The comparison the predicate makes of one entry, read back. -/
theorem real_of_cmp (x : EReal)
    (h : Ideal.cmp .olt (max x (-x)) (Ideal.ofBits .f32 0x7F800000#32) = 1#1) : ∃ r : ℝ, x = (r : EReal) := by
  rw [ofBits_posInf] at h
  refine real_of_abs_lt_top x ?_
  by_contra hn
  have : Ideal.cmp .olt (max x (-x)) ⊤ = 0#1 := by
    unfold Ideal.cmp
    simp [hn]
  rw [this] at h
  exact absurd h (by decide)

/-- THE PRECONDITION READ BACK: every entry of both operands is a real number. -/
theorem finite_of_pre (a0 : FVec Ideal Cert.Pre_finite_inputs.S32x4x32 .f32)
    (a1 : FVec Ideal Cert.Pre_finite_inputs.S32x32x256x256 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  change IntOp.andi _ _ = 1#1 at h0
  obtain ⟨h3, h7⟩ := IntOp.andi_eq_one.1 h0
  refine ⟨fun i => ?_, fun i => ?_⟩
  · exact real_of_cmp (a0 i) (Host.reduce_andi_all _ _ _ _ ValueIdx.ix0 h3 i)
  · exact real_of_cmp (a1 i) (Host.reduce_andi_all _ _ _ _ ValueIdx.ix0 h7 i)

/-- Every entry of the right operand with its last two axes merged is an entry of the right operand, hence a real. -/
theorem finite_flat (a1 : (⟨4, ![32, 32, 256, 256]⟩ : Shape).Idx → EReal) (h1 : ∀ i, ∃ r : ℝ, a1 i = (r : EReal))
    (hcast : (⟨4, ![32, 32, 256, 256]⟩ : Shape).ShapeCasts ⟨3, ![32, 32, 65536]⟩) :
    ∀ j, ∃ r : ℝ, (shapeCast ⟨3, ![32, 32, 65536]⟩ a1 hcast : (⟨3, ![32, 32, 65536]⟩ : Shape).Idx → EReal) j = (r : EReal) := by
  intro j
  unfold shapeCast
  exact h1 _

end Cert.PreFinite

end
-- ==== Proof.RefValue.lean ====
/-
  The reference's result as the specification's function of the arguments.

  The reference program quantizes each operand by its global minimum and maximum, dequantizes, and
  contracts. Read stage by stage, its result at an index is the sum over the contracted coordinate of
  the dequantized codes' products: the function `Cert.Spec.Gref` of the left operand and of the right
  operand reshaped to three axes.
-/
import proofs.«177574_j1872605741851_2_alg».proof.Proof.Gen.ReferenceIdeal.Read
import proofs.«177574_j1872605741851_2_alg».proof.Proof.Spec
import proofs.«177574_j1872605741851_2_alg».proof.Proof.LibReduceInf

noncomputable section

namespace Cert.RefValue

open Cert.ReferenceIdeal Cert.ReferenceIdeal.Gen Cert.ReferenceIdeal.Read Cert.Spec Cert.LibReduceInf
open Idealize.ShloMosaic Idealize.ShloMosaic.ValueIdx

/-! ## The four global extremes -/

/-- The left operand's minimum reduction is its infimum. -/
theorem v1_eq (x0 : SA.Idx → EReal) : val_main_v1 (F := Ideal) x0 = fun _ => mnA x0 := by
  unfold val_main_v1 val_main_cst
  exact hostReduce_minimumf_total x0 _ (fun b => b.elim0) _

/-- The left operand's maximum reduction is its supremum. -/
theorem v3_eq (x0 : SA.Idx → EReal) : val_main_v3 (F := Ideal) x0 = fun _ => mxA x0 := by
  unfold val_main_v3 val_main_cst_1
  exact hostReduce_maximumf_total x0 _ (fun b => b.elim0) _

/-- The reshaped right operand's minimum reduction is its infimum. -/
theorem v22_eq (x1 : S32x32x256x256.Idx → EReal) :
    val_main_v22 (F := Ideal) x1 = fun _ => mnB (val_main_v0 (F := Ideal) x1) := by
  unfold val_main_v22 val_main_cst_8
  generalize val_main_v0 (F := Ideal) x1 = flat
  exact hostReduce_minimumf_total flat _ (fun b => b.elim0) _

/-- The reshaped right operand's maximum reduction is its supremum. -/
theorem v24_eq (x1 : S32x32x256x256.Idx → EReal) :
    val_main_v24 (F := Ideal) x1 = fun _ => mxB (val_main_v0 (F := Ideal) x1) := by
  unfold val_main_v24 val_main_cst_10
  generalize val_main_v0 (F := Ideal) x1 = flat
  exact hostReduce_maximumf_total flat _ (fun b => b.elim0) _

/-! ## The quantization parameters -/

/-- The left operand's step, as the reference computes it. -/
theorem v7_eq (x0 : SA.Idx → EReal) : val_main_v7 (F := Ideal) x0 = fun _ => scaleA x0 := by
  funext i
  rw [val_main_v7_apply, val_main_v6_apply, val_main_v5_apply, val_main_v4_apply, val_main_v2_apply,
    val_main_cst_0_apply, val_main_cst_2_apply, val_main_cst_3_apply, val_main_cst_4_apply]
  rw [v1_eq, v3_eq]
  rfl

/-- The left operand's zero point, as the reference computes it. -/
theorem v11_eq (x0 : SA.Idx → EReal) : val_main_v11 (F := Ideal) x0 = fun _ => zpA x0 := by
  funext i
  rw [val_main_v11_apply, val_main_call1_v2_apply, val_main_c_5_apply, val_main_call1_v1_apply,
    val_main_call1_v0_apply, val_main_c_apply, val_main_v10_apply, val_main_v9_apply, val_main_v8_apply,
    val_main_v2_apply, val_main_cst_0_apply]
  rw [v1_eq, v7_eq]
  rfl

/-- The right operand's step, as the reference computes it. -/
theorem v28_eq (x1 : S32x32x256x256.Idx → EReal) :
    val_main_v28 (F := Ideal) x1 = fun _ => scaleB (val_main_v0 (F := Ideal) x1) := by
  funext i
  rw [val_main_v28_apply, val_main_v27_apply, val_main_v26_apply, val_main_v25_apply, val_main_v23_apply,
    val_main_cst_9_apply, val_main_cst_11_apply, val_main_cst_12_apply, val_main_cst_13_apply]
  rw [v22_eq, v24_eq]
  generalize val_main_v0 (F := Ideal) x1 = flat
  rfl

/-- The right operand's zero point, as the reference computes it. -/
theorem v32_eq (x1 : S32x32x256x256.Idx → EReal) :
    val_main_v32 (F := Ideal) x1 = fun _ => zpB (val_main_v0 (F := Ideal) x1) := by
  funext i
  rw [val_main_v32_apply, val_main_call5_v2_apply, val_main_c_15_apply, val_main_call5_v1_apply,
    val_main_call5_v0_apply, val_main_c_14_apply, val_main_v31_apply, val_main_v30_apply, val_main_v29_apply,
    val_main_v23_apply, val_main_cst_9_apply]
  rw [v22_eq, v28_eq]
  generalize val_main_v0 (F := Ideal) x1 = flat
  rfl

/-! ## The dequantized operands -/

/-- The left factor of the contraction: the centred code times the step. -/
theorem v21_eq (x0 : SA.Idx → EReal) (i : SA.Idx) :
    val_main_v21 (F := Ideal) x0 i = aInt x0 i * scaleA x0 := by
  rw [val_main_v21_apply, val_main_v19_apply, val_main_v17_apply, val_main_call3_v4_apply,
    val_main_call3_v3_apply, val_main_c_7_apply, val_main_call3_v2_apply, val_main_call3_v1_apply,
    val_main_call3_v0_apply, val_main_c_6_apply, val_main_v16_apply, val_main_v14_apply, val_main_v13_apply,
    val_main_v12_apply, val_main_v15_apply, val_main_v18_apply, val_main_v20_apply]
  rw [v7_eq, v11_eq]
  rfl

/-- The right factor of the contraction: the centred code times the step. -/
theorem v42_eq (x1 : S32x32x256x256.Idx → EReal) (j : SB.Idx) :
    val_main_v42 (F := Ideal) x1 j
      = bIntR (val_main_v0 (F := Ideal) x1) j * scaleB (val_main_v0 (F := Ideal) x1) := by
  rw [val_main_v42_apply, val_main_v40_apply, val_main_v38_apply, val_main_call7_v4_apply,
    val_main_call7_v3_apply, val_main_c_17_apply, val_main_call7_v2_apply, val_main_call7_v1_apply,
    val_main_call7_v0_apply, val_main_c_16_apply, val_main_v37_apply, val_main_v35_apply, val_main_v34_apply,
    val_main_v33_apply, val_main_v36_apply, val_main_v39_apply, val_main_v41_apply]
  rw [v28_eq, v32_eq]
  generalize val_main_v0 (F := Ideal) x1 = flat
  rfl

/-! ## The contraction -/

/-- The left operand's index of the contraction, by coordinates. -/
theorem lidx_eq (o : SO.Idx) (k : Fin 32) : lidx_main_v43 o k = (ix3 (o 0) (o 1) k : SA.Idx) :=
  funext fun a => Fin.ext (by match a with | ⟨0, _⟩ => rfl | ⟨1, _⟩ => rfl | ⟨2, _⟩ => rfl)

/-- The right operand's index of the contraction, by coordinates. -/
theorem ridx_eq (o : SO.Idx) (k : Fin 32) : ridx_main_v43 o k = (ix3 (o 0) k (o 2) : SB.Idx) :=
  funext fun a => Fin.ext (by match a with | ⟨0, _⟩ => rfl | ⟨1, _⟩ => rfl | ⟨2, _⟩ => rfl)

/-- The reference's result is the specification's function of the left operand and of the right
    operand reshaped to three axes. -/
theorem ref_eq (x0 : SA.Idx → EReal) (x1 : S32x32x256x256.Idx → EReal) :
    val_main_v43 (F := Ideal) x0 x1 = Gref x0 (val_main_v0 (F := Ideal) x1) := by
  funext o
  rw [val_main_v43_apply]
  unfold Gref
  refine Finset.sum_congr rfl fun k _ => ?_
  rw [v21_eq, v42_eq, lidx_eq, ridx_eq]

end Cert.RefValue

end
-- ==== Proof.lean ====
/-
  The certificate's five claims.

  The kernel quantizes a [32, 32, 65536] operand to the 8-bit grid of its global minimum and maximum and multiplies it,
  batch by batch, by the already quantized [32, 4, 32] operand. A first region computes the operand's global minimum and
  maximum (a running minimum and maximum carried across sixteen grid points per half of the batch, two partial arrays
  reduced once more on the host); host operations turn them into the step, the zero point and the reciprocal step; a
  second region forms clip(round(x · (1/s)) + z, 0, 255) − z block by block, multiplies by the integer grid of the first
  operand and scales the product once by s_a · s_b. The reference dequantizes each operand by its own step and contracts.

  The frames: the kernel program, at either instance, is a chain of sixteen segments whose run ends with every buffer at
  named contents; no host stretch writes an argument and no region has one as an output. The reference's frame is its
  generated run with the result dropped. The ideal pass rewrote nothing, so nothing is owed for it.

  The algebraic claim: on the extended reals x · (1/s) = x / s for a nonzero finite s; both clips land in [0, 255], so
  every integer code is a finite real; and for finite inputs the two steps are finite and positive, so their product
  is a finite factor that moves across the 32-term sum.
-/
import proofs.«177574_j1872605741851_2_alg».proof.Defs
import proofs.«177574_j1872605741851_2_alg».proof.Proof.Gen.Kernel
import proofs.«177574_j1872605741851_2_alg».proof.Proof.Gen.Kernel.Skeleton
import proofs.«177574_j1872605741851_2_alg».proof.Proof.Gen.Kernel.Launch
import proofs.«177574_j1872605741851_2_alg».proof.Proof.Gen.Kernel.Regions
import proofs.«177574_j1872605741851_2_alg».proof.Proof.Gen.Kernel.Points
import proofs.«177574_j1872605741851_2_alg».proof.Proof.Gen.KernelIdeal
import proofs.«177574_j1872605741851_2_alg».proof.Proof.Gen.KernelIdeal.Skeleton
import proofs.«177574_j1872605741851_2_alg».proof.Proof.Gen.KernelIdeal.Launch
import proofs.«177574_j1872605741851_2_alg».proof.Proof.Gen.KernelIdeal.Regions
import proofs.«177574_j1872605741851_2_alg».proof.Proof.Gen.KernelIdeal.Points
import proofs.«177574_j1872605741851_2_alg».proof.Proof.Gen.ReferenceIdeal
import proofs.«177574_j1872605741851_2_alg».proof.Proof.Gen.ReferenceIdeal.Read
import proofs.«177574_j1872605741851_2_alg».proof.Proof.Gen.Pre_finite_inputs
import proofs.«177574_j1872605741851_2_alg».proof.Proof.K.Run
import proofs.«177574_j1872605741851_2_alg».proof.Proof.KI.Run
import proofs.«177574_j1872605741851_2_alg».proof.Proof.KI.KerValue
import proofs.«177574_j1872605741851_2_alg».proof.Proof.PreFinite
import proofs.«177574_j1872605741851_2_alg».proof.Proof.Spec
import proofs.«177574_j1872605741851_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.Spec.Gker (Cert.KernelIdeal.Val.x0Arg m c) (Cert.KernelIdeal.Val.flatArg m c), ?_, ?_⟩
  · exact (θ_run Cert.KernelIdeal.defs _ _).mono (fun r h c =>
      ⟨(h c _ (Cert.KernelIdeal.Hand.mem_uc Cert.KernelIdeal.main_v37 (by decide))).trans (Cert.KernelIdeal.Val.result_eq m ρ c),
       (h c _ (Cert.KernelIdeal.Hand.mem_uc Cert.KernelIdeal.main_arg0 (by decide))).trans (Cert.KernelIdeal.Hand.W16_main_arg0 m ρ c),
       (h c _ (Cert.KernelIdeal.Hand.mem_uc Cert.KernelIdeal.main_arg1 (by decide))).trans (Cert.KernelIdeal.Hand.W16_main_arg1 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨h0, h1⟩ := Cert.PreFinite.finite_of_pre _ _ (hpre c)
    rw [Cert.ReferenceIdeal.Read.val_main_v43_eq, (hagree c).1, (hagree c).2, Cert.RefValue.ref_eq]
    exact (Cert.Spec.ker_eq_ref _ _ h0 (Cert.PreFinite.finite_flat _ h1 _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
